-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x1600000 : Shape := ⟨2, ![2, 1600000]⟩
abbrev S9x128 : Shape := ⟨2, ![9, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S9x128 : S_.BroadcastsInDim S9x128 (![] : Fin 0 → Fin S9x128.rank)
  reducesTo_S9x128_S_d0_1 : S9x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg15 : FVec F S64x3 .f32) (main_arg16 : FVec F S3 .f32) (main_v63 : IVec S_ 1) (main_v67 : IVec S_ 1) : IVec S_ 1 :=
  let main_v68 : IVec S_ 1 := andi main_v63 main_v67
  let main_v69 : FVec F S64x3 .f32 := Host.absf main_arg15
  let main_cst_26 : FVec F S_ .f32 := constant S_ .f32 0x7F800000#32
  let main_v70 : FVec F S64x3 .f32 := broadcastInDim S64x3 ![] bcast_S_S64x3 main_cst_26
  let main_v71 : IVec S64x3 1 := cmpf .olt main_v69 main_v70
  let main_c_27 : IVec S_ 1 := constantI S_ 1 1#1
  let main_v72 : IVec S_ 1 := (fun x v => Host.reduce IntOp.andi x v reducesTo_S64x3_S_d0_1 h_S_) main_v71 main_c_27
  let main_v73 : IVec S_ 1 := andi main_v68 main_v72
  let main_v74 : FVec F S3 .f32 := Host.absf main_arg16
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  main_v78

def fn_part3 {F : FTy → Type} [FloatOps F] (main_arg12 : FVec F S128 .f32) (main_arg13 : FVec F S128x64 .f32) (main_arg14 : FVec F S64 .f32) (main_arg15 : FVec F S64x3 .f32) (main_arg16 : FVec F S3 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_v63 main_v67

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_arg13 : FVec F S128x64 .f32) (main_arg14 : FVec F S64 .f32) (main_arg15 : FVec F S64x3 .f32) (main_arg16 : FVec F S3 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x64 .f32) (main_arg14 : FVec F S64 .f32) (main_arg15 : FVec F S64x3 .f32) (main_arg16 : FVec F S3 .f32) (main_v13 : IVec S_ 1) (main_v16 : IVec S9x128 1) : IVec S_ 1 :=
  let main_c_5 : IVec S_ 1 := constantI S_ 1 1#1
  let main_v17 : IVec S_ 1 := (fun x v => Host.reduce IntOp.andi x v reducesTo_S9x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x9 .f32) (main_arg1 : IVec S2x1600000 32) (main_arg2 : FVec F S9x128 .f32) (main_arg3 : FVec F S128 .f32) (main_arg4 : FVec F S9x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x64 .f32) (main_arg14 : FVec F S64 .f32) (main_arg15 : FVec F S64x3 .f32) (main_arg16 : FVec F S3 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S9x128 .f32 := Host.absf main_arg2
  let main_cst_0 : FVec F S_ .f32 := constant S_ .f32 0x7F800000#32
  let main_v5 : FVec F S9x128 .f32 := broadcastInDim S9x128 ![] bcast_S_S9x128 main_cst_0
  let main_v6 : IVec S9x128 1 := cmpf .olt main_v4 main_v5
  let main_c_1 : IVec S_ 1 := constantI S_ 1 1#1
  let main_v7 : IVec S_ 1 := (fun x v => Host.reduce IntOp.andi x v reducesTo_S9x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S9x128 .f32 := Host.absf main_arg4
  let main_cst_4 : FVec F S_ .f32 := constant S_ .f32 0x7F800000#32
  let main_v15 : FVec F S9x128 .f32 := broadcastInDim S9x128 ![] bcast_S_S9x128 main_cst_4
  let main_v16 : IVec S9x128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x9 : Shape := ⟨2, ![100000, 9]⟩
abbrev S2x1600000 : Shape := ⟨2, ![2, 1600000]⟩
abbrev S9x128 : Shape := ⟨2, ![9, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x9 : Shape := ⟨2, ![1600000, 9]⟩
abbrev S1x128 : Shape := ⟨2, ![1, 128]⟩
abbrev S100000x128 : Shape := ⟨2, ![100000, 128]⟩
abbrev S2000x9 : Shape := ⟨2, ![2000, 9]⟩
abbrev S2000x1 : Shape := ⟨2, ![2000, 1]⟩
abbrev S2000x128 : Shape := ⟨2, ![2000, 128]⟩
abbrev S1600000x128 : Shape := ⟨2, ![1600000, 128]⟩
abbrev S1x64 : Shape := ⟨2, ![1, 64]⟩
abbrev S1x3 : Shape := ⟨2, ![1, 3]⟩
abbrev S100000x3 : Shape := ⟨2, ![100000, 3]⟩
abbrev S2000x3 : Shape := ⟨2, ![2000, 3]⟩
abbrev S2000x64 : Shape := ⟨2, ![2000, 64]⟩
abbrev S2000 : Shape := ⟨1, ![2000]⟩

abbrev nBuf : Space → Nat
  | .hbm => 88
  | .vmem => 39
  | .smem => 0
  | _ => 0

abbrev bufTy : (tb : Table) → Fin (tcTables nBuf tb) → BufTy
  | .hbm, ⟨0, _⟩ => ⟨S100000x9, .f32⟩
  | .hbm, ⟨1, _⟩ => ⟨S2x1600000, .i32⟩
  | .hbm, ⟨2, _⟩ => ⟨S9x128, .f32⟩
  | .hbm, ⟨3, _⟩ => ⟨S128, .f32⟩
  | .hbm, ⟨4, _⟩ => ⟨S9x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x3, .f32⟩
  | .hbm, ⟨16, _⟩ => ⟨S3, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x9, .bf16⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x9, .bf16⟩
  | .hbm, ⟨44, _⟩ => ⟨S1600000x9, .f32⟩
  | .hbm, ⟨45, _⟩ => ⟨S_, .f32⟩
  | .hbm, ⟨46, _⟩ => ⟨S100000x9, .f32⟩
  | .hbm, ⟨47, _⟩ => ⟨S1600000x1, .i32⟩
  | .hbm, ⟨48, _⟩ => ⟨S100000x9, .f32⟩
  | .hbm, ⟨49, _⟩ => ⟨S1x128, .f32⟩
  | .hbm, ⟨50, _⟩ => ⟨S100000x128, .f32⟩
  | .hbm, ⟨51, _⟩ => ⟨S100000x128, .bf16⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .bf16⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .bf16⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .bf16⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S1x128, .f32⟩
  | .hbm, ⟨84, _⟩ => ⟨S1x128, .f32⟩
  | .hbm, ⟨85, _⟩ => ⟨S1x64, .f32⟩
  | .hbm, ⟨86, _⟩ => ⟨S1x3, .f32⟩
  | .hbm, ⟨87, _⟩ => ⟨S100000x3, .f32⟩
  | .local _ .vmem, ⟨0, _⟩ => ⟨S2000x9, .f32⟩
  | .local _ .vmem, ⟨1, _⟩ => ⟨S2000x9, .f32⟩
  | .local _ .vmem, ⟨2, _⟩ => ⟨S2000x9, .f32⟩
  | .local _ .vmem, ⟨3, _⟩ => ⟨S2000x9, .f32⟩
  | .local _ .vmem, ⟨4, _⟩ => ⟨S2000x1, .f32⟩
  | .local _ .vmem, ⟨5, _⟩ => ⟨S2000x1, .f32⟩
  | .local _ .vmem, ⟨6, _⟩ => ⟨S9x128, .f32⟩
  | .local _ .vmem, ⟨7, _⟩ => ⟨S1x128, .f32⟩
  | .local _ .vmem, ⟨8, _⟩ => ⟨S9x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S128x64, .f32⟩
  | .local _ .vmem, ⟨34, _⟩ => ⟨S1x64, .f32⟩
  | .local _ .vmem, ⟨35, _⟩ => ⟨S64x3, .f32⟩
  | .local _ .vmem, ⟨36, _⟩ => ⟨S1x3, .f32⟩
  | .local _ .vmem, ⟨37, _⟩ => ⟨S2000x3, .f32⟩
  | .local _ .vmem, ⟨38, _⟩ => ⟨S2000x3, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg12_0 : Ref sig .tc := ⟨.vmem, 37, rfl⟩
abbrev cc2_stg12_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem11_0 : DmaSem sig := 36
abbrev cc2_sem12_0 : DmaSem sig := 37
abbrev cc2_sem12_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x3 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x3 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S2000x3 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x9 : S_.BroadcastsInDim S100000x9 (![] : Fin 0 → Fin S100000x9.rank)
  shapeCasts_S128_S1x128 : S128.ShapeCasts S1x128
  inb_S2000x9_S2000x9_0_0 : ∀ a, (![0, 0] : Fin 2 → Nat) a + S2000x9.size a ≤ S2000x9.size a
  h_S2000x9 : 0 < S2000x9.numel
  shapeCasts_S2000x9_S2000x9 : S2000x9.ShapeCasts S2000x9
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x9 : S2000x1.Broadcasts S2000x9
  inb_S9x128_S9x128_0_0 : ∀ a, (![0, 0] : Fin 2 → Nat) a + S9x128.size a ≤ S9x128.size a
  h_S9x128 : 0 < S9x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S64_S1x64 : S64.ShapeCasts S1x64
  shapeCasts_S3_S1x3 : S3.ShapeCasts S1x3
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  reduces_S2000x3_S2000 : S2000x3.Reduces [1] S2000
  shapeCasts_S2000_S2000x1 : S2000.ShapeCasts S2000x1
  broadcasts_S2000x1_S2000x3 : S2000x1.Broadcasts S2000x3
  inb_S2000x3_S2000x3_0_0 : ∀ a, (![0, 0] : Fin 2 → Nat) a + S2000x3.size a ≤ S2000x3.size a
  h_S2000x3 : 0 < S2000x3.numel
  scatter_S100000_S1600000x1_S1600000_n_0_0_1_wf : ScatterDims.WF S100000 S1600000x1 S1600000 [] [0] [0] 1
  gather_S100000x9_S1600000x1_S1600000x9_1_0_n_n_0_1_19_wf : GatherDims.WF S100000x9 S1600000x1 S1600000x9 [1] [0] [] [0] [] 1 ![1, 9]
  scatter_S100000x9_S1600000x1_S1600000x9_1_0_0_1_wf : ScatterDims.WF S100000x9 S1600000x1 S1600000x9 [1] [0] [0] 1
  dot_S2000x9_S9x128_S2000x128_1_0_0_1_n_n_wf : DotDims.WF S2000x9 S9x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  dot_S2000x64_S64x3_S2000x3_1_0_0_1_n_n_wf : DotDims.WF S2000x64 S64x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x9.size a ≤ S100000x9.size a
  hwx0_0 : ∀ i : grid0.Coords, EltTy.bits .f32 = 32 ∨ (Rect.block (s := S100000x9) S2000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x9.size a ≤ S100000x9.size a
  hwx0_1 : ∀ i : grid0.Coords, EltTy.bits .f32 = 32 ∨ (Rect.block (s := S100000x9) S2000x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x128.size a ≤ S9x128.size a
  hwx0_3 : ∀ i : grid0.Coords, EltTy.bits .f32 = 32 ∨ (Rect.block (s := S9x128) S9x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S9x128.size a ≤ S9x128.size a
  hwx0_5 : ∀ i : grid0.Coords, EltTy.bits .f32 = 32 ∨ (Rect.block (s := S9x128) S9x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x64.size a ≤ S128x64.size a
  hwx2_8 : ∀ i : grid2.Coords, EltTy.bits .f32 = 32 ∨ (Rect.block (s := S128x64) S128x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x3.size a ≤ S64x3.size a
  hwx2_10 : ∀ i : grid2.Coords, EltTy.bits .f32 = 32 ∨ (Rect.block (s := S64x3) S64x3.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x3.size a ≤ S1x3.size a
  hwx2_11 : ∀ i : grid2.Coords, EltTy.bits .f32 = 32 ∨ (Rect.block (s := S1x3) S1x3.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S2000x3.size a ≤ S100000x3.size a
  hwx2_12 : ∀ i : grid2.Coords, EltTy.bits .f32 = 32 ∨ (Rect.block (s := S100000x3) S2000x3.size (cc2_transform_12 i) (hinb2_12 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def scatter_S100000x9_S1600000x1_S1600000x9_1_0_0_1 : ScatterDims S100000x9 S1600000x1 S1600000x9 where
  updateWindowDims := [1]
  insertedWindowDims := [0]
  scatterDimsToOperandDims := [0]
  indexVectorDim := 1
  wf := scatter_S100000x9_S1600000x1_S1600000x9_1_0_0_1_wf
def dot_S2000x9_S9x128_S2000x128_1_0_0_1_n_n : DotDims S2000x9 S9x128 S2000x128 where
  lhsContracting := [1]
  rhsContracting := [0]
  lhsNonContracting := [0]
  rhsNonContracting := [1]
  lhsBatch := []
  rhsBatch := []
  wf := dot_S2000x9_S9x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x3_S2000x3_1_0_0_1_n_n : DotDims S2000x64 S64x3 S2000x3 where
  lhsContracting := [1]
  rhsContracting := [0]
  lhsNonContracting := [0]
  rhsNonContracting := [1]
  lhsBatch := []
  rhsBatch := []
  wf := dot_S2000x64_S64x3_S2000x3_1_0_0_1_n_n_wf

abbrev win0_0 : Pipeline.Window sig grid0 :=
  Pipeline.Window.ofSpec (Memref.whole main_v24) S2000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S9x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S9x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg13) S128x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v55) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg15) S64x3.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v56) S1x3.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v57) S2000x3.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S100000x9 : Shape := ⟨2, ![100000, 9]⟩
abbrev S2x1600000 : Shape := ⟨2, ![2, 1600000]⟩
abbrev S9x128 : Shape := ⟨2, ![9, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x9 : Shape := ⟨2, ![1600000, 9]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x64 : Shape := ⟨2, ![100000, 64]⟩
abbrev S1x64 : Shape := ⟨2, ![1, 64]⟩
abbrev S100000x3 : Shape := ⟨2, ![100000, 3]⟩
abbrev S1x3 : Shape := ⟨2, ![1, 3]⟩

abbrev nBuf : Space → Nat
  | .hbm => 156
  | .vmem => 0
  | .smem => 0
  | _ => 0

abbrev hbmTy0_0 (i : Nat) : BufTy := match i % 128 with
  | 0 => ⟨S100000x9, .f32⟩
  | 1 => ⟨S2x1600000, .i32⟩
  | 2 => ⟨S9x128, .f32⟩
  | 3 => ⟨S128, .f32⟩
  | 4 => ⟨S9x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x64, .f32⟩
  | 14 => ⟨S64, .f32⟩
  | 15 => ⟨S64x3, .f32⟩
  | 16 => ⟨S3, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x9, .f32⟩
  | 30 => ⟨S_, .f32⟩
  | 31 => ⟨S100000x9, .f32⟩
  | 32 => ⟨S1600000x1, .i32⟩
  | 33 => ⟨S100000x9, .f32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x9, .f32⟩
  | 45 => ⟨S100000x9, .f32⟩
  | 46 => ⟨S100000x128, .f32⟩
  | 47 => ⟨S1x128, .f32⟩
  | 48 => ⟨S100000x128, .f32⟩
  | 49 => ⟨S100000x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S_, .f32⟩
  | 103 => ⟨S1600000, .f32⟩
  | 104 => ⟨S_, .f32⟩
  | 105 => ⟨S100000, .f32⟩
  | 106 => ⟨S1600000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x9, .f32⟩

abbrev hbmTy0_1 (i : Nat) : BufTy := match i % 128 with
  | 0 => ⟨S100000x128, .f32⟩
  | 1 => ⟨S100000x128, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000x3, .f32⟩
  | 10 => ⟨S1x3, .f32⟩
  | 11 => ⟨S100000x3, .f32⟩
  | 12 => ⟨S100000x3, .f32⟩
  | 13 => ⟨S_, .f32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x3, .f32⟩
  | 20 => ⟨S100000x3, .f32⟩
  | 21 => ⟨S100000x3, .f32⟩
  | 22 => ⟨S_, .f32⟩
  | 23 => ⟨S100000, .f32⟩
  | 24 => ⟨S100000x1, .f32⟩
  | 25 => ⟨S100000x1, .f32⟩
  | 26 => ⟨S100000x3, .f32⟩
  | 27 => ⟨S100000x3, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call1_cst : Ref sig .tc := ⟨.hbm, 86, rfl⟩
abbrev main_call1_v0 : Ref sig .tc := ⟨.hbm, 87, rfl⟩
abbrev main_v55 : Ref sig .tc := ⟨.hbm, 88, rfl⟩
abbrev main_c_10 : Ref sig .tc := ⟨.hbm, 89, rfl⟩
abbrev main_v56 : Ref sig .tc := ⟨.hbm, 90, rfl⟩
abbrev main_v57 : Ref sig .tc := ⟨.hbm, 91, rfl⟩
abbrev main_c_11 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_13 : Ref sig .tc := ⟨.hbm, 102, rfl⟩
abbrev main_v66 : Ref sig .tc := ⟨.hbm, 103, rfl⟩
abbrev main_cst_14 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_15 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_call2_cst : Ref sig .tc := ⟨.hbm, 120, rfl⟩
abbrev main_call2_v0 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_call3_cst : Ref sig .tc := ⟨.hbm, 127, rfl⟩
abbrev main_call3_v0 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call4_cst : Ref sig .tc := ⟨.hbm, 134, rfl⟩
abbrev main_call4_v0 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_call5_cst : Ref sig .tc := ⟨.hbm, 141, rfl⟩
abbrev main_call5_v0 : Ref sig .tc := ⟨.hbm, 142, rfl⟩
abbrev main_call5_cst_0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_v6 : Ref sig .tc := ⟨.hbm, 149, rfl⟩
abbrev main_call5_cst_1 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_v96 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x9 : S_.BroadcastsInDim S100000x9 (![] : Fin 0 → Fin S100000x9.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x9_0_1 : S100000x1.BroadcastsInDim S100000x9 (![0, 1] : Fin 2 → Fin S100000x9.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  reducesTo_S100000x3_S100000_d1 : S100000x3.ReducesTo [1] S100000
  h_S_ : 0 < S_.numel
  bcast_S100000x1_S100000x3_0_1 : S100000x1.BroadcastsInDim S100000x3 (![0, 1] : Fin 2 → Fin S100000x3.rank)
  gather_S100000x9_S1600000x1_S1600000x9_1_0_n_n_0_1_19_wf : GatherDims.WF S100000x9 S1600000x1 S1600000x9 [1] [0] [] [0] [] 1 ![1, 9]
  scatter_S100000x9_S1600000x1_S1600000x9_1_0_0_1_wf : ScatterDims.WF S100000x9 S1600000x1 S1600000x9 [1] [0] [0] 1
  scatter_S100000_S1600000x1_S1600000_n_0_0_1_wf : ScatterDims.WF S100000 S1600000x1 S1600000 [] [0] [0] 1
  dot_S100000x9_S9x128_S100000x128_1_0_0_1_n_n_wf : DotDims.WF S100000x9 S9x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x3_S100000x3_1_0_0_1_n_n_wf : DotDims.WF S100000x64 S64x3 S100000x3 [1] [0] [0] [1] [] []

variable [Facts₀]

def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def scatter_S100000x9_S1600000x1_S1600000x9_1_0_0_1 : ScatterDims S100000x9 S1600000x1 S1600000x9 where
  updateWindowDims := [1]
  insertedWindowDims := [0]
  scatterDimsToOperandDims := [0]
  indexVectorDim := 1
  wf := scatter_S100000x9_S1600000x1_S1600000x9_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x9_S9x128_S100000x128_1_0_0_1_n_n : DotDims S100000x9 S9x128 S100000x128 where
  lhsContracting := [1]
  rhsContracting := [0]
  lhsNonContracting := [0]
  rhsNonContracting := [1]
  lhsBatch := []
  rhsBatch := []
  wf := dot_S100000x9_S9x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.KRun.lean ====
/-
  The idealized kernel's whole run with its result named.

  @main is three pipelined regions among stretches of host operations. The contents of every buffer at each
  boundary are a fold from the launch memory: a stretch applies its operations, a region leaves in each of its
  arrays what its write-backs leave. The run below ends with the result buffer at the last boundary's contents
  and every argument as launched.
-/
import proofs.«163056_j1254130451160_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_value : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c)⟩)

end Cert.KernelIdeal.RunValue

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibDenseRows.lean ====
/-
  A dense layer read one row at a time, at the ideal values.

  A matrix of R rows is R rows: `row X p` is row p of X as a function of the column, `mat W` a weight matrix as a
  function of (input, output), `vec b` a bias vector as a function of the output. One row through a layer:
    mm h W    = h · W                 (the plain matrix product's row)
    lin h W b = h · W + b             (affine)
    relu h    = max h 0               (the maximum with the float zero, entry by entry)
  and the facts here say that the two programs' spellings of a layer compute exactly that, row by row, in the
  extended reals, with no finiteness asked:
    * a kernel's layer — `tpu.matmul` into the zero accumulator, the weights and a 1×N bias row re-cast to their own
      shapes, the row copied to every row, an addition; then a maximum with a splat zero and a change of float format;
    * a host's layer — `dot_general`, the length-N bias broadcast to 1×N and then to R×N, an addition; then a
      maximum with a rank-0 zero broadcast to R×N.
  The dimension record of each product may be any record equal to the plain one (for a printed record, `rfl`).
-/
import Idealize.ShloMosaic.PureOps.Ideal.Laws
import Idealize.ShloMosaic.Lib.Pipeline.Value
import Idealize.ShloMosaic.Lib.ValueIdx
import proofs.«163056_j1254130451160_2_alg».proof.Proof.LibPlainDot
import proofs.«163056_j1254130451160_2_alg».proof.Proof.LibRowVector
import proofs.«163056_j1254130451160_2_alg».proof.Proof.LibRowInDim

noncomputable section

open scoped BigOperators

namespace Cert.DenseRows

open Idealize.ShloMosaic Idealize.ShloMosaic.ValueIdx

/-! ## Rows, and one row through a layer -/

/-- Row p of a matrix, as a function of the column. -/
def row {α : Type} {R K : Nat} (X : (⟨2, ![R, K]⟩ : Shape).Idx → α) (p : Fin R) : Fin K → α := fun k => X (ix2 p k)

/-- A matrix as a function of (row, column). -/
def mat {α : Type} {K N : Nat} (W : (⟨2, ![K, N]⟩ : Shape).Idx → α) : Fin K → Fin N → α := fun k c => W (ix2 k c)

/-- A vector as a function of its coordinate. -/
def vec {α : Type} {N : Nat} (b : (⟨1, ![N]⟩ : Shape).Idx → α) : Fin N → α := fun c => b (ix1 c)

/-- One row through a matrix: h · W. -/
def mm {K N : Nat} (h : Fin K → EReal) (W : Fin K → Fin N → EReal) : Fin N → EReal :=
  fun c => ∑ k : Fin K, h k * W k c

/-- One row through an affine layer: h · W + b. -/
def lin {K N : Nat} (h : Fin K → EReal) (W : Fin K → Fin N → EReal) (b : Fin N → EReal) : Fin N → EReal :=
  fun c => (∑ k : Fin K, h k * W k c) + b c

/-- The maximum with the float zero, entry by entry. -/
def relu {N : Nat} (h : Fin N → EReal) : Fin N → EReal :=
  fun c => max (h c) (Ideal.ofBits .f32 0x00000000#32)

variable {R K N : Nat} {φ₁ φ₂ : FTy}

/-! ## A kernel's spelling -/

/-- A `tpu.matmul` into the zero accumulator, the right operand re-cast to its own shape: row p is (row p of X) · W. -/
theorem row_matmul (D : DotDims ⟨2, ![R, K]⟩ ⟨2, ![K, N]⟩ ⟨2, ![R, N]⟩) (hD : D = DotDims.plain R K N)
    (prec : Option ContractPrecision) (X : FVec Ideal ⟨2, ![R, K]⟩ φ₁) (W : FVec Ideal ⟨2, ![K, N]⟩ φ₂)
    (hW : (⟨2, ![K, N]⟩ : Shape).ShapeCasts ⟨2, ![K, N]⟩) (p : Fin R) :
    row (matmul D prec X (shapeCast ⟨2, ![K, N]⟩ W hW) (constant (F := Ideal) ⟨2, ![R, N]⟩ .f32 0x00000000#32)) p
      = mm (row X p) (mat W) := by
  funext c
  rw [shapeCast_self]
  exact PlainDot.matmul_zero_apply D hD prec X W p c

/-- The same with a 1×N bias row added to every row: row p is (row p of X) · W + b. -/
theorem row_matmul_bias (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ φ₁) (W : FVec Ideal ⟨2, ![K, N]⟩ φ₂)
    (b : FVec Ideal ⟨2, ![1, N]⟩ .f32)
    (hW : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![R, N]⟩) (p : Fin R) :
    row (addf (matmul D prec X (shapeCast ⟨2, ![K, N]⟩ W hW) (constant (F := Ideal) ⟨2, ![R, N]⟩ .f32 0x00000000#32))
        (broadcastTo ⟨2, ![R, N]⟩ (shapeCast ⟨2, ![1, N]⟩ b hb) hbc)) p
      = lin (row X p) (mat W) (row b 0) := by
  funext c
  show matmul D prec X (shapeCast ⟨2, ![K, N]⟩ W hW) (constant (F := Ideal) ⟨2, ![R, N]⟩ .f32 0x00000000#32) (ix2 p c)
      + broadcastTo ⟨2, ![R, N]⟩ (shapeCast ⟨2, ![1, N]⟩ b hb) hbc (ix2 p c) = _
  rw [shapeCast_self, shapeCast_self, RowVector.broadcastTo_row hN]
  exact congrArg (· + b (ix2 0 c)) (PlainDot.matmul_zero_apply D hD prec X W p c)

/-- A maximum with the splat zero, then a change of float format: row p is relu of row p. -/
theorem row_relu_trunc {ψ : FTy} (Y : FVec Ideal ⟨2, ![R, N]⟩ .f32) (h : ψ.bits < FTy.f32.bits) (p : Fin R) :
    row (truncf ψ (maximumf Y (broadcast ⟨2, ![R, N]⟩ (Scalar.ofBits (F := Ideal) .f32 0x00000000#32))) h) p
      = relu (row Y p) := rfl

/-- A change of float format keeps every row. -/
theorem row_trunc {ψ : FTy} (Y : FVec Ideal ⟨2, ![R, N]⟩ .f32) (h : ψ.bits < FTy.f32.bits) (p : Fin R) :
    row (truncf ψ Y h) p = row Y p := rfl

/-! ## A host's spelling -/

/-- A `dot_general` with the bias, a length-N vector, broadcast to 1×N and then to every row, added:
    row r is (row r of X) · W + b. -/
theorem row_dot_bias (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) :
    row (addf (Host.dotGeneral D prec X W)
        (broadcastInDim ⟨2, ![R, N]⟩ ![0, 1] h2 (broadcastInDim ⟨2, ![1, N]⟩ ![1] h1 b))) r
      = lin (row X r) (mat W) (vec b) := by
  funext c
  show FloatOps.dotGeneral D prec .single X W (ix2 r c)
      + broadcastInDim ⟨2, ![R, N]⟩ ![0, 1] h2 (broadcastInDim ⟨2, ![1, N]⟩ ![1] h1 b) (ix2 r c) = _
  rw [RowInDim.broadcastInDim_rows hN, PlainDot.dotGeneral_apply D hD]
  refine congrArg (_ + ·) ?_
  exact broadcastInDim_apply _ h1 b (ix2 0 c) (ix1 c) (fun a => match a with
    | ⟨0, _⟩ => by
      show c.val = if N = 1 then 0 else c.val
      rw [if_neg hN])

/-- A `dot_general` alone: row r is (row r of X) · W. -/
theorem row_dot (D : DotDims ⟨2, ![R, K]⟩ ⟨2, ![K, N]⟩ ⟨2, ![R, N]⟩) (hD : D = DotDims.plain R K N)
    (prec : Option ContractPrecision) (X : FVec Ideal ⟨2, ![R, K]⟩ φ₁) (W : FVec Ideal ⟨2, ![K, N]⟩ φ₂) (r : Fin R) :
    row (Host.dotGeneral D prec X W) r = mm (row X r) (mat W) :=
  funext fun c => PlainDot.dotGeneral_apply D hD prec .single X W r c

/-- A maximum with the rank-0 zero broadcast to every entry: row r is relu of row r. -/
theorem row_relu_host (Y : FVec Ideal ⟨2, ![R, N]⟩ .f32)
    (h0 : (⟨0, ![]⟩ : Shape).BroadcastsInDim ⟨2, ![R, N]⟩ (![] : Fin 0 → Fin 2)) (r : Fin R) :
    row (maximumf Y (broadcastInDim ⟨2, ![R, N]⟩ ![] h0 (constant (F := Ideal) ⟨0, ![]⟩ .f32 0x00000000#32))) r
      = relu (row Y r) := by
  funext c
  show max (Y (ix2 r c)) (broadcastInDim ⟨2, ![R, N]⟩ ![] h0 (constant (F := Ideal) ⟨0, ![]⟩ .f32 0x00000000#32) (ix2 r c)) = _
  rw [broadcastInDim_apply _ h0 _ (ix2 r c) ix0 (fun a => a.elim0)]
  rfl

end Cert.DenseRows

end
-- ==== Proof.LibSage.lean ====
/-
  A graph layer with mean aggregation, one node at a time, in the extended reals.

  For a node with summed neighbour features s, own features x and neighbour count d (taken at least one), the layer is
    relu ((s / d) · Wl + b + x · Wr).
  A program may instead carry the reciprocal 1 / d and add the bias last:
    relu (((s · (1 / d)) · Wl + x · Wr) + b).
  For d ≠ 0 the two are the same function: a quotient by d is the product with the inverse of d, and a sum may be
  regrouped (no finiteness is asked: the extended reals are a commutative monoid under +).

  After the layers a node's row goes through three affine maps with relu between them and a log-softmax
    a ↦ (a − M) − log (Σ exp (a − M)),   M the largest entry of a.
-/
import proofs.«163056_j1254130451160_2_alg».proof.Proof.LibDenseRows
import Idealize.ShloMosaic.Lib.IdealHost

noncomputable section

open scoped BigOperators

namespace Cert.Sage

open Idealize.ShloMosaic Idealize.ShloMosaic.ValueIdx Cert.DenseRows

variable {K N : Nat}

/-- The layer on one node, dividing the summed features by the count. -/
def sageRow (s x : Fin K → EReal) (d : EReal) (Wl Wr : Fin K → Fin N → EReal) (b : Fin N → EReal) : Fin N → EReal :=
  relu (fun c => lin (fun k => Ideal.div (s k) d) Wl b c + mm x Wr c)

/-- The layer on one node, multiplying the summed features by a given reciprocal and adding the bias last. -/
def sageRowK (s x : Fin K → EReal) (dinv : EReal) (Wl Wr : Fin K → Fin N → EReal) (b : Fin N → EReal) : Fin N → EReal :=
  relu (fun c => (mm (fun k => s k * dinv) Wl c + mm x Wr c) + b c)

/-- A product with the reciprocal of a nonzero d is the quotient by d, at the infinities too. -/
theorem mul_recip (s d : EReal) (hd : d ≠ 0) : s * Ideal.div 1 d = Ideal.div s d := by
  rw [Ideal.div, if_neg hd, Ideal.div, if_neg hd, one_mul]

/-- With the reciprocal of a nonzero count the two spellings of the layer agree. -/
theorem sageRowK_eq (s x : Fin K → EReal) (d : EReal) (hd : d ≠ 0) (Wl Wr : Fin K → Fin N → EReal) (b : Fin N → EReal) :
    sageRowK s x (Ideal.div 1 d) Wl Wr b = sageRow s x d Wl Wr b := by
  funext c
  unfold sageRowK sageRow relu lin mm
  simp only [mul_recip _ _ hd]
  rw [add_right_comm]

/-- A count taken at least the float one is not zero. -/
theorem max_one_ne_zero (d : EReal) : max d (Ideal.ofBits .f32 0x3F800000#32) ≠ 0 := by
  rw [Ideal.ofBits_one_f32]
  exact ne_of_gt (lt_of_lt_of_le zero_lt_one (le_max_right d 1))

/-- The largest entry of a row (the fold of max from the float −∞). -/
def rowMax (a : Fin N → EReal) : EReal :=
  (Finset.univ : Finset (Fin N)).fold max (Ideal.ofBits .f32 0xFF800000#32) a

/-- The log-softmax of one row. -/
def lsmRow (a : Fin N → EReal) : Fin N → EReal :=
  fun c => (a c - rowMax a) - Ideal.log (∑ j : Fin N, Ideal.exp (a j - rowMax a))

/-- The head on one node: three affine maps, relu after the first two, then the log-softmax. -/
def headRow {K1 K2 K3 : Nat} (h : Fin K → EReal) (W1 : Fin K → Fin K1 → EReal) (b1 : Fin K1 → EReal)
    (W2 : Fin K1 → Fin K2 → EReal) (b2 : Fin K2 → EReal) (W3 : Fin K2 → Fin K3 → EReal) (b3 : Fin K3 → EReal) :
    Fin K3 → EReal :=
  lsmRow (lin (relu (lin (relu (lin h W1 b1)) W2 b2)) W3 b3)

/-- An array of R rows given row by row. -/
def ofRows {R : Nat} (f : Fin R → Fin N → EReal) : (⟨2, ![R, N]⟩ : Shape).Idx → EReal :=
  fun i => f (i 0) (i 1)

theorem ofRows_apply {R : Nat} (f : Fin R → Fin N → EReal) (p : Fin R) (c : Fin N) : ofRows f (ix2 p c) = f p c := rfl

theorem row_ofRows {R : Nat} (f : Fin R → Fin N → EReal) (p : Fin R) : row (ofRows f) p = f p := rfl

/-- An array is its rows. -/
theorem eq_ofRows {R : Nat} (X : (⟨2, ![R, N]⟩ : Shape).Idx → EReal) : X = ofRows (fun p => row X p) := by
  funext i
  exact congrArg X (eq_ix2 i)

end Cert.Sage

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.LibSageRows.lean ====
/-
  A kernel body read one row at a time, in the extended reals.

  The bodies here work on a block of R rows at once, but every operation in them acts inside a row: a matrix
  product's row is the row times the matrix, a bias row is copied to every row, a per-row scalar is copied along its
  row, a maximum or a sum over the lanes of a row stays in the row. So the block's row p is a function of the operand
  rows p alone, and that function is LibSage.lean's: the graph layer (with a reciprocal count), the affine maps with relu,
  and the log-softmax.
-/
import proofs.«163056_j1254130451160_2_alg».proof.Proof.LibSage
import proofs.«163056_j1254130451160_2_alg».proof.Proof.LibRowOps
import proofs.«163056_j1254130451160_2_alg».proof.Proof.LibKeepdims

noncomputable section

open scoped BigOperators

namespace Cert.RowCalc

open Idealize.ShloMosaic Idealize.ShloMosaic.ValueIdx Cert.DenseRows Cert.Sage

variable {R K N : Nat} {φ₁ φ₂ : FTy}

/-- A matrix product into the zero accumulator plus any addend: row p is (row p) · W plus the addend's row. -/
theorem row_matmul_add (D : DotDims ⟨2, ![R, K]⟩ ⟨2, ![K, N]⟩ ⟨2, ![R, N]⟩) (hD : D = DotDims.plain R K N)
    (prec : Option ContractPrecision) (X : FVec Ideal ⟨2, ![R, K]⟩ φ₁) (W : FVec Ideal ⟨2, ![K, N]⟩ φ₂)
    (B : FVec Ideal ⟨2, ![R, N]⟩ .f32) (p : Fin R) :
    row (addf (matmul D prec X W (constant (F := Ideal) ⟨2, ![R, N]⟩ .f32 0x00000000#32)) B) p
      = fun c => mm (row X p) (mat W) c + B (ix2 p c) := by
  funext c
  exact congrArg (· + B (ix2 p c)) (PlainDot.matmul_zero_apply D hD prec X W p c)

/-- The same with a 1×N bias row copied to every row: an affine map of the row. -/
theorem row_matmul_biasrow (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ φ₁) (W : FVec Ideal ⟨2, ![K, N]⟩ φ₂)
    (b : FVec Ideal ⟨2, ![1, N]⟩ .f32) (hb : (⟨2, ![1, N]⟩ : Shape).ShapeCasts ⟨2, ![1, N]⟩)
    (hbc : (⟨2, ![1, N]⟩ : Shape).Broadcasts ⟨2, ![R, N]⟩) (p : Fin R) :
    row (addf (matmul D prec X W (constant (F := Ideal) ⟨2, ![R, N]⟩ .f32 0x00000000#32))
        (broadcastTo ⟨2, ![R, N]⟩ (shapeCast ⟨2, ![1, N]⟩ b hb) hbc)) p
      = lin (row X p) (mat W) (row b 0) := by
  rw [row_matmul_add D hD]
  funext c
  show _ + broadcastTo ⟨2, ![R, N]⟩ (shapeCast ⟨2, ![1, N]⟩ b hb) hbc (ix2 p c) = _
  rw [shapeCast_self, RowVector.broadcastTo_row hN]
  rfl

/-- A maximum with the splat zero: relu of the row. -/
theorem row_relu (Y : FVec Ideal ⟨2, ![R, N]⟩ .f32) (p : Fin R) :
    row (maximumf Y (broadcast ⟨2, ![R, N]⟩ (Scalar.ofBits (F := Ideal) .f32 0x00000000#32))) p = relu (row Y p) := rfl

/-- A change of float format keeps every row. -/
theorem row_truncf {ψ : FTy} (Y : FVec Ideal ⟨2, ![R, N]⟩ .f32) (h : ψ.bits < FTy.f32.bits) (p : Fin R) :
    row (truncf ψ Y h) p = row Y p := rfl

/-- A change of float format keeps a matrix. -/
theorem mat_truncf {ψ : FTy} (W : FVec Ideal ⟨2, ![K, N]⟩ .f32) (h : ψ.bits < FTy.f32.bits) :
    mat (truncf ψ W h) = mat W := rfl

/-- The graph layer's body: summed features scaled by a per-row factor, two matrix products, a bias row, relu. -/
theorem row_sage (D : DotDims ⟨2, ![R, K]⟩ ⟨2, ![K, N]⟩ ⟨2, ![R, N]⟩) (hD : D = DotDims.plain R K N) (hN : N ≠ 1)
    (s x : FVec Ideal ⟨2, ![R, K]⟩ .f32) (d : FVec Ideal ⟨2, ![R, 1]⟩ .f32)
    (Wl Wr : FVec Ideal ⟨2, ![K, N]⟩ .f32) (b : FVec Ideal ⟨2, ![1, N]⟩ .f32)
    (hd : (⟨2, ![R, 1]⟩ : Shape).ShapeCasts ⟨2, ![R, 1]⟩) (hdb : (⟨2, ![R, 1]⟩ : Shape).Broadcasts ⟨2, ![R, K]⟩)
    (hb : (⟨2, ![1, N]⟩ : Shape).ShapeCasts ⟨2, ![1, N]⟩) (hbc : (⟨2, ![1, N]⟩ : Shape).Broadcasts ⟨2, ![R, N]⟩)
    (ht : FTy.bf16.bits < FTy.f32.bits) (p : Fin R) :
    row (maximumf (addf (addf
          (matmul D none (truncf .bf16 (mulf s (broadcastTo ⟨2, ![R, K]⟩ (shapeCast ⟨2, ![R, 1]⟩ d hd) hdb)) ht)
            (truncf .bf16 Wl ht) (constant (F := Ideal) ⟨2, ![R, N]⟩ .f32 0x00000000#32))
          (matmul D none (truncf .bf16 x ht) (truncf .bf16 Wr ht) (constant (F := Ideal) ⟨2, ![R, N]⟩ .f32 0x00000000#32)))
          (broadcastTo ⟨2, ![R, N]⟩ (shapeCast ⟨2, ![1, N]⟩ b hb) hbc))
        (broadcast ⟨2, ![R, N]⟩ (Scalar.ofBits (F := Ideal) .f32 0x00000000#32))) p
      = sageRowK (row s p) (row x p) (d (ix2 p 0)) (mat Wl) (mat Wr) (row b 0) := by
  funext c
  show max ((FloatOps.matmul D none (truncf .bf16 (mulf s (broadcastTo ⟨2, ![R, K]⟩ (shapeCast ⟨2, ![R, 1]⟩ d hd) hdb)) ht)
            (truncf .bf16 Wl ht) (constant (F := Ideal) ⟨2, ![R, N]⟩ .f32 0x00000000#32) (ix2 p c)
          + FloatOps.matmul D none (truncf .bf16 x ht) (truncf .bf16 Wr ht)
            (constant (F := Ideal) ⟨2, ![R, N]⟩ .f32 0x00000000#32) (ix2 p c))
        + broadcastTo ⟨2, ![R, N]⟩ (shapeCast ⟨2, ![1, N]⟩ b hb) hbc (ix2 p c)) (Ideal.ofBits .f32 0x00000000#32) = _
  rw [PlainDot.matmul_zero_apply D hD, PlainDot.matmul_zero_apply D hD]
  simp only [shapeCast_self]
  rw [RowVector.broadcastTo_row hN]
  have e : ∀ k : Fin K, truncf .bf16 (mulf s (broadcastTo ⟨2, ![R, K]⟩ d hdb)) ht (ix2 p k)
      = s (ix2 p k) * d (ix2 p 0) := fun k => by
    show s (ix2 p k) * broadcastTo ⟨2, ![R, K]⟩ d hdb (ix2 p k) = _
    rw [RowOps.broadcastTo_a1_ab_apply]
  simp only [e]
  rfl

/-- The log-softmax's body: the row maximum kept as a column and subtracted, then the log of the row sum of
    exponentials kept as a column and subtracted. -/
theorem row_lsm (a : FVec Ideal ⟨2, ![R, N]⟩ .f32) (hred : (⟨2, ![R, N]⟩ : Shape).Reduces [1] (⟨1, ![R]⟩ : Shape))
    (hφ : FKind.Formats .f32) (hm : (0xFF800000#32 : BitVec 32) = FKind.maximumf.neutral .f32 hφ)
    (hs : (0x00000000#32 : BitVec 32) = FKind.add.neutral .f32 hφ)
    (hc : (⟨1, ![R]⟩ : Shape).ShapeCasts ⟨2, ![R, 1]⟩) (hbc : (⟨2, ![R, 1]⟩ : Shape).Broadcasts ⟨2, ![R, N]⟩) (p : Fin R) :
    row (subf (subf a (broadcastTo ⟨2, ![R, N]⟩ (shapeCast ⟨2, ![R, 1]⟩
            (multiReduction .maximumf [1] ⟨1, ![R]⟩ a 0xFF800000#32 hred hφ hm) hc) hbc))
          (broadcastTo ⟨2, ![R, N]⟩ (log (shapeCast ⟨2, ![R, 1]⟩
            (multiReduction .add [1] ⟨1, ![R]⟩ (exp (subf a (broadcastTo ⟨2, ![R, N]⟩ (shapeCast ⟨2, ![R, 1]⟩
              (multiReduction .maximumf [1] ⟨1, ![R]⟩ a 0xFF800000#32 hred hφ hm) hc) hbc))) 0x00000000#32 hred hφ hs) hc)) hbc)) p
      = lsmRow (row a p) := by
  have eM : ∀ k : Fin N, broadcastTo ⟨2, ![R, N]⟩ (shapeCast ⟨2, ![R, 1]⟩
        (multiReduction .maximumf [1] ⟨1, ![R]⟩ a 0xFF800000#32 hred hφ hm) hc) hbc (ix2 p k) = rowMax (row a p) := fun k => by
    rw [Keepdims.column_apply, RowOps.rowMax_apply]
    rfl
  funext c
  show (a (ix2 p c) - broadcastTo ⟨2, ![R, N]⟩ (shapeCast ⟨2, ![R, 1]⟩
        (multiReduction .maximumf [1] ⟨1, ![R]⟩ a 0xFF800000#32 hred hφ hm) hc) hbc (ix2 p c))
      - broadcastTo ⟨2, ![R, N]⟩ (log (shapeCast ⟨2, ![R, 1]⟩
            (multiReduction .add [1] ⟨1, ![R]⟩ (exp (subf a (broadcastTo ⟨2, ![R, N]⟩ (shapeCast ⟨2, ![R, 1]⟩
              (multiReduction .maximumf [1] ⟨1, ![R]⟩ a 0xFF800000#32 hred hφ hm) hc) hbc))) 0x00000000#32 hred hφ hs) hc)) hbc (ix2 p c) = _
  rw [eM c, RowOps.broadcastTo_a1_ab_apply]
  show (a (ix2 p c) - rowMax (row a p)) - Ideal.log (shapeCast ⟨2, ![R, 1]⟩
            (multiReduction .add [1] ⟨1, ![R]⟩ (exp (subf a (broadcastTo ⟨2, ![R, N]⟩ (shapeCast ⟨2, ![R, 1]⟩
              (multiReduction .maximumf [1] ⟨1, ![R]⟩ a 0xFF800000#32 hred hφ hm) hc) hbc))) 0x00000000#32 hred hφ hs) hc (ix2 p 0)) = _
  rw [RowOps.shapeCast_a_a1_apply, RowOps.rowSum_apply]
  have eS : ∀ k : Fin N, exp (subf a (broadcastTo ⟨2, ![R, N]⟩ (shapeCast ⟨2, ![R, 1]⟩
        (multiReduction .maximumf [1] ⟨1, ![R]⟩ a 0xFF800000#32 hred hφ hm) hc) hbc)) (ix2 p k)
      = Ideal.exp (row a p k - rowMax (row a p)) := fun k => by
    show Ideal.exp (a (ix2 p k) - _) = _
    rw [eM k]
    rfl
  simp only [eS]
  rfl

end Cert.RowCalc

end
-- ==== Proof.Region0.lean ====
/-
  Region 0: what the graph layer's pipelined call leaves in its output array.

  The grid has 50 points; point t works on rows 2000·t … 2000·t + 1999 of the node arrays (all lanes) and on the whole
  weight matrices and bias row. Its block of the output is, row by row, the layer of the same rows of the inputs, so
  the 50 blocks together are the layer of the whole arrays: node P's output row is the layer of node P's rows.
-/
import proofs.«163056_j1254130451160_2_alg».proof.Proof.Gen.KernelIdeal.Frame
import proofs.«163056_j1254130451160_2_alg».proof.Proof.LibSageRows

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Cert.DenseRows Cert.Sage

variable (V : (c : Dev nD) → (b : Ref sig .tc) → Buf (Elt Ideal) ((c : Thread nD τ).loc b))

theorem hz : (![0, 0] : Fin 2 → Nat) = fun _ => 0 := funext fun a => by fin_cases a <;> rfl

/-- The layer of whole arrays, node by node. -/
def G (S X : S100000x9.Idx → EReal) (D : S100000x1.Idx → EReal) (Wl : S9x128.Idx → EReal) (b : S1x128.Idx → EReal)
    (Wr : S9x128.Idx → EReal) : S100000x128.Idx → EReal :=
  ofRows (fun P => sageRowK (row S P) (row X P) (D (ix2 P 0)) (mat Wl) (mat Wr) (row b 0))

theorem G_apply (S X : S100000x9.Idx → EReal) (D : S100000x1.Idx → EReal) (Wl : S9x128.Idx → EReal) (b : S1x128.Idx → EReal)
    (Wr : S9x128.Idx → EReal) (i : S100000x128.Idx) :
    G S X D Wl b Wr i = sageRowK (row S (i 0)) (row X (i 0)) (D (ix2 (i 0) 0)) (mat Wl) (mat Wr) (row b 0) (i 1) := rfl

/-- An entry of a block is an entry of one of its rows. -/
theorem row_eq (X : S2000x128.Idx → EReal) (j : S2000x128.Idx) : X j = row X (j 0) (j 1) := congrArg X (eq_ix2 j)

/-- The body's block, row by row, is the layer of its operand blocks' rows. -/
theorem out_rows (x0 x1 : Vec Ideal S2000x9 .f32) (x2 : Vec Ideal S2000x1 .f32) (x3 : Vec Ideal S9x128 .f32)
    (x4 : Vec Ideal S1x128 .f32) (x5 : Vec Ideal S9x128 .f32) (p : Fin 2000) :
    row (out0_6 x0 x1 x2 x3 x4 x5) p = sageRowK (row x0 p) (row x1 p) (x2 (ix2 p 0)) (mat x3) (mat x5) (row x4 0) := by
  unfold out0_6
  rw [View.canon_unit_zero hz]
  simp only [View.ld_unit_zero (S := S2000x9) hz, View.ld_unit_zero (S := S2000x1) hz, View.ld_unit_zero (S := S9x128) hz,
    View.ld_unit_zero (S := S1x128) hz]
  refine (RowCalc.row_sage dot_S2000x9_S9x128_S2000x128_1_0_0_1_n_n rfl (by decide)
    (shapeCast S2000x9 x0 shapeCasts_S2000x9_S2000x9) x1 x2 x3 x5 x4 shapeCasts_S2000x1_S2000x1 broadcasts_S2000x1_S2000x9
    shapeCasts_S1x128_S1x128 broadcasts_S1x128_S2000x128 bitsLt_bf16_f32 p).trans ?_
  simp only [shapeCast_self]

/-- One row of a block against one row of the layer of whole arrays, given that the block's operand rows and the
    arrays' rows hold the same values. -/
theorem entry_eq (x0 x1 : Vec Ideal S2000x9 .f32) (x2 : Vec Ideal S2000x1 .f32) (x3 : Vec Ideal S9x128 .f32)
    (x4 : Vec Ideal S1x128 .f32) (x5 : Vec Ideal S9x128 .f32)
    (A0 A1 : S100000x9.Idx → EReal) (A2 : S100000x1.Idx → EReal) (A3 : S9x128.Idx → EReal) (A4 : S1x128.Idx → EReal)
    (A5 : S9x128.Idx → EReal) (p : Fin 2000) (P : Fin 100000)
    (h0 : ∀ k : Fin 9, x0 (ix2 p k) = A0 (ix2 P k)) (h1 : ∀ k : Fin 9, x1 (ix2 p k) = A1 (ix2 P k))
    (h2 : x2 (ix2 p 0) = A2 (ix2 P 0)) (h3 : x3 = A3) (h4 : x4 = A4) (h5 : x5 = A5) :
    row (out0_6 x0 x1 x2 x3 x4 x5) p = sageRowK (row A0 P) (row A1 P) (A2 (ix2 P 0)) (mat A3) (mat A5) (row A4 0) := by
  rw [out_rows, h2, h3, h4, h5, show row x0 p = row A0 P from funext h0, show row x1 p = row A1 P from funext h1]

/-- The printed index maps over the grid: the row windows move with the point, the weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is block t of the layer of the arrays as the region finds them. -/
theorem flushed_eq (c : Dev nD) (t : Fin cfg0.N) :
    (dat0 V c).flushed 6 t = ((cfg0.win 6).blk t).view.read (Elt Ideal)
      (G (V c main_v24) (V c main_arg0) (V c main_v12) (V c main_arg2) (V c main_v25) (V c main_arg4)) := by
  show (cfg0.win 6).cut (grid0.coords t) ((dat0 V c).after 6 t) = _
  rw [after0_6]
  obtain ⟨e00, e01, e10, e11, e20, e21, e30, e31, e40, e41, e50, e51, e60, e61⟩ := idx_facts t
  funext j
  show out0_6 (iblk0 V c 0 t) (iblk0 V c 1 t) (iblk0 V c 2 t) (iblk0 V c 3 t) (iblk0 V c 4 t) (iblk0 V c 5 t) j
    = G (V c main_v24) (V c main_arg0) (V c main_v12) (V c main_arg2) (V c main_v25) (V c main_arg4) (((cfg0.win 6).blk t).view.emb j)
  have hq : (((cfg0.win 6).blk t).view.emb j) 1 = j 1 := by
    apply Fin.ext
    show win0_6.index t (1 : Fin 2) * 128 + 1 * (j 1).val = (j 1).val
    omega
  refine (row_eq (out0_6 (iblk0 V c 0 t) (iblk0 V c 1 t) (iblk0 V c 2 t) (iblk0 V c 3 t) (iblk0 V c 4 t) (iblk0 V c 5 t)) j).trans ?_
  rw [G_apply, hq]
  refine congrFun (entry_eq (iblk0 V c 0 t) (iblk0 V c 1 t) (iblk0 V c 2 t) (iblk0 V c 3 t) (iblk0 V c 4 t) (iblk0 V c 5 t)
    (V c main_v24) (V c main_arg0) (V c main_v12) (V c main_arg2) (V c main_v25) (V c main_arg4) (j 0) ((((cfg0.win 6).blk t).view.emb j) 0)
    (fun k => by
      show V c main_v24 (((cfg0.win 0).blk t).view.emb (ix2 (j 0) k)) = V c main_v24 (ix2 ((((cfg0.win 6).blk t).view.emb j) 0) k)
      refine congrArg (V c main_v24) ?_
      funext a; apply Fin.ext
      match a with
      | ⟨0, _⟩ => show win0_0.index t (0 : Fin 2) * 2000 + 1 * (j 0).val = win0_6.index t (0 : Fin 2) * 2000 + 1 * (j 0).val; omega
      | ⟨1, _⟩ => show win0_0.index t (1 : Fin 2) * 9 + 1 * k.val = k.val; omega)
    (fun k => by
      show V c main_arg0 (((cfg0.win 1).blk t).view.emb (ix2 (j 0) k)) = V c main_arg0 (ix2 ((((cfg0.win 6).blk t).view.emb j) 0) k)
      refine congrArg (V c main_arg0) ?_
      funext a; apply Fin.ext
      match a with
      | ⟨0, _⟩ => show win0_1.index t (0 : Fin 2) * 2000 + 1 * (j 0).val = win0_6.index t (0 : Fin 2) * 2000 + 1 * (j 0).val; omega
      | ⟨1, _⟩ => show win0_1.index t (1 : Fin 2) * 9 + 1 * k.val = k.val; omega)
    (by
      show V c main_v12 (((cfg0.win 2).blk t).view.emb (ix2 (j 0) 0)) = V c main_v12 (ix2 ((((cfg0.win 6).blk t).view.emb j) 0) 0)
      refine congrArg (V c main_v12) ?_
      funext a; apply Fin.ext
      match a with
      | ⟨0, _⟩ => show win0_2.index t (0 : Fin 2) * 2000 + 1 * (j 0).val = win0_6.index t (0 : Fin 2) * 2000 + 1 * (j 0).val; omega
      | ⟨1, _⟩ => show win0_2.index t (1 : Fin 2) * 1 + 1 * (0 : Fin 1).val = (0 : Fin 1).val; omega)
    (by
      funext y
      show V c main_arg2 (((cfg0.win 3).blk t).view.emb y) = V c main_arg2 y
      refine congrArg (V c main_arg2) ?_
      funext a; apply Fin.ext
      match a with
      | ⟨0, _⟩ => show win0_3.index t (0 : Fin 2) * 9 + 1 * (y 0).val = (y 0).val; omega
      | ⟨1, _⟩ => show win0_3.index t (1 : Fin 2) * 128 + 1 * (y 1).val = (y 1).val; omega)
    (by
      funext y
      show V c main_v25 (((cfg0.win 4).blk t).view.emb y) = V c main_v25 y
      refine congrArg (V c main_v25) ?_
      funext a; apply Fin.ext
      match a with
      | ⟨0, _⟩ => show win0_4.index t (0 : Fin 2) * 1 + 1 * (y 0).val = (y 0).val; omega
      | ⟨1, _⟩ => show win0_4.index t (1 : Fin 2) * 128 + 1 * (y 1).val = (y 1).val; omega)
    (by
      funext y
      show V c main_arg4 (((cfg0.win 5).blk t).view.emb y) = V c main_arg4 y
      refine congrArg (V c main_arg4) ?_
      funext a; apply Fin.ext
      match a with
      | ⟨0, _⟩ => show win0_5.index t (0 : Fin 2) * 9 + 1 * (y 0).val = (y 0).val; omega
      | ⟨1, _⟩ => show win0_5.index t (1 : Fin 2) * 128 + 1 * (y 1).val = (y 1).val; omega)) (j 1)

/-- An index of the array is in point t's block iff each coordinate is in the block's range on its axis. -/
theorem mem_blk (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v26).slice (win0_6.rect t)).set ↔ _
  rw [View.set_slice_whole, Rect.mem_set_unit]
  exact Iff.rfl

/-- Every node's row lies in some point's block: the point is the row number over 2000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  refine ⟨⟨(i 0).val / 2000, by show (i 0).val / 2000 < 50; omega⟩, flush0_6 _, ?_⟩
  rw [mem_blk]
  obtain ⟨e00, e01, e10, e11, e20, e21, e30, e31, e40, e41, e50, e51, e60, e61⟩ :=
    idx_facts ⟨(i 0).val / 2000, by show (i 0).val / 2000 < 50; omega⟩
  intro a
  match a with
  | ⟨0, _⟩ =>
    show win0_6.index ⟨(i 0).val / 2000, _⟩ (0 : Fin 2) * 2000 ≤ (i 0).val
      ∧ (i 0).val < win0_6.index ⟨(i 0).val / 2000, _⟩ (0 : Fin 2) * 2000 + 2000
    rw [e60]
    show (i 0).val / 2000 * 2000 ≤ (i 0).val ∧ (i 0).val < (i 0).val / 2000 * 2000 + 2000
    omega
  | ⟨1, _⟩ =>
    show win0_6.index ⟨(i 0).val / 2000, _⟩ (1 : Fin 2) * 128 ≤ (i 1).val
      ∧ (i 1).val < win0_6.index ⟨(i 0).val / 2000, _⟩ (1 : Fin 2) * 128 + 128
    rw [e61]
    omega

/-- The output array after the region: the layer of the arrays the region found, node by node. -/
theorem final (c : Dev nD) :
    (dat0 V c).arrAt 6 cfg0.N = G (V c main_v24) (V c main_arg0) (V c main_v12) (V c main_arg2) (V c main_v25) (V c main_arg4) :=
  (dat0 V c).arrAt_eq_of_cover 6 _ (fun t _ => flushed_eq V c t) cover

end Cert.KernelIdeal.Region0

end
-- ==== Proof.Region1.lean ====
/-
  Region 1: what the graph layer's pipelined call leaves in its output array.

  The grid has 50 points; point t works on rows 2000·t … 2000·t + 1999 of the node arrays (all lanes) and on the whole
  weight matrices and bias row. Its block of the output is, row by row, the layer of the same rows of the inputs, so
  the 50 blocks together are the layer of the whole arrays: node P's output row is the layer of node P's rows.
-/
import proofs.«163056_j1254130451160_2_alg».proof.Proof.Gen.KernelIdeal.Frame
import proofs.«163056_j1254130451160_2_alg».proof.Proof.LibSageRows

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Cert.DenseRows Cert.Sage

variable (V : (c : Dev nD) → (b : Ref sig .tc) → Buf (Elt Ideal) ((c : Thread nD τ).loc b))

theorem hz : (![0, 0] : Fin 2 → Nat) = fun _ => 0 := funext fun a => by fin_cases a <;> rfl

/-- The layer of whole arrays, node by node. -/
def G (S X : S100000x128.Idx → EReal) (D : S100000x1.Idx → EReal) (Wl : S128x128.Idx → EReal) (b : S1x128.Idx → EReal)
    (Wr : S128x128.Idx → EReal) : S100000x128.Idx → EReal :=
  ofRows (fun P => sageRowK (row S P) (row X P) (D (ix2 P 0)) (mat Wl) (mat Wr) (row b 0))

theorem G_apply (S X : S100000x128.Idx → EReal) (D : S100000x1.Idx → EReal) (Wl : S128x128.Idx → EReal) (b : S1x128.Idx → EReal)
    (Wr : S128x128.Idx → EReal) (i : S100000x128.Idx) :
    G S X D Wl b Wr i = sageRowK (row S (i 0)) (row X (i 0)) (D (ix2 (i 0) 0)) (mat Wl) (mat Wr) (row b 0) (i 1) := rfl

/-- An entry of a block is an entry of one of its rows. -/
theorem row_eq (X : S2000x128.Idx → EReal) (j : S2000x128.Idx) : X j = row X (j 0) (j 1) := congrArg X (eq_ix2 j)

/-- The body's block, row by row, is the layer of its operand blocks' rows. -/
theorem out_rows (x0 x1 : Vec Ideal S2000x128 .f32) (x2 : Vec Ideal S2000x1 .f32) (x3 : Vec Ideal S128x128 .f32)
    (x4 : Vec Ideal S1x128 .f32) (x5 : Vec Ideal S128x128 .f32) (p : Fin 2000) :
    row (out1_6 x0 x1 x2 x3 x4 x5) p = sageRowK (row x0 p) (row x1 p) (x2 (ix2 p 0)) (mat x3) (mat x5) (row x4 0) := by
  unfold out1_6
  rw [View.canon_unit_zero hz]
  simp only [View.ld_unit_zero (S := S2000x128) hz, View.ld_unit_zero (S := S2000x1) hz, View.ld_unit_zero (S := S128x128) hz,
    View.ld_unit_zero (S := S1x128) hz]
  refine (RowCalc.row_sage dot_S2000x128_S128x128_S2000x128_1_0_0_1_n_n rfl (by decide)
    (shapeCast S2000x128 x0 shapeCasts_S2000x128_S2000x128) (shapeCast S2000x128 x1 shapeCasts_S2000x128_S2000x128) x2 x3 x5 x4 shapeCasts_S2000x1_S2000x1 broadcasts_S2000x1_S2000x128
    shapeCasts_S1x128_S1x128 broadcasts_S1x128_S2000x128 bitsLt_bf16_f32 p).trans ?_
  simp only [shapeCast_self]

/-- One row of a block against one row of the layer of whole arrays, given that the block's operand rows and the
    arrays' rows hold the same values. -/
theorem entry_eq (x0 x1 : Vec Ideal S2000x128 .f32) (x2 : Vec Ideal S2000x1 .f32) (x3 : Vec Ideal S128x128 .f32)
    (x4 : Vec Ideal S1x128 .f32) (x5 : Vec Ideal S128x128 .f32)
    (A0 A1 : S100000x128.Idx → EReal) (A2 : S100000x1.Idx → EReal) (A3 : S128x128.Idx → EReal) (A4 : S1x128.Idx → EReal)
    (A5 : S128x128.Idx → EReal) (p : Fin 2000) (P : Fin 100000)
    (h0 : ∀ k : Fin 128, x0 (ix2 p k) = A0 (ix2 P k)) (h1 : ∀ k : Fin 128, x1 (ix2 p k) = A1 (ix2 P k))
    (h2 : x2 (ix2 p 0) = A2 (ix2 P 0)) (h3 : x3 = A3) (h4 : x4 = A4) (h5 : x5 = A5) :
    row (out1_6 x0 x1 x2 x3 x4 x5) p = sageRowK (row A0 P) (row A1 P) (A2 (ix2 P 0)) (mat A3) (mat A5) (row A4 0) := by
  rw [out_rows, h2, h3, h4, h5, show row x0 p = row A0 P from funext h0, show row x1 p = row A1 P from funext h1]

/-- The printed index maps over the grid: the row windows move with the point, the weights stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the layer of the arrays as the region finds them. -/
theorem flushed_eq (c : Dev nD) (t : Fin cfg1.N) :
    (dat1 V c).flushed 6 t = ((cfg1.win 6).blk t).view.read (Elt Ideal)
      (G (V c main_v38) (V c main_v26) (V c main_v12) (V c main_arg5) (V c main_v39) (V c main_arg7)) := by
  show (cfg1.win 6).cut (grid1.coords t) ((dat1 V c).after 6 t) = _
  rw [after1_6]
  obtain ⟨e00, e01, e10, e11, e20, e21, e30, e31, e40, e41, e50, e51, e60, e61⟩ := idx_facts t
  funext j
  show out1_6 (iblk1 V c 0 t) (iblk1 V c 1 t) (iblk1 V c 2 t) (iblk1 V c 3 t) (iblk1 V c 4 t) (iblk1 V c 5 t) j
    = G (V c main_v38) (V c main_v26) (V c main_v12) (V c main_arg5) (V c main_v39) (V c main_arg7) (((cfg1.win 6).blk t).view.emb j)
  have hq : (((cfg1.win 6).blk t).view.emb j) 1 = j 1 := by
    apply Fin.ext
    show win1_6.index t (1 : Fin 2) * 128 + 1 * (j 1).val = (j 1).val
    omega
  refine (row_eq (out1_6 (iblk1 V c 0 t) (iblk1 V c 1 t) (iblk1 V c 2 t) (iblk1 V c 3 t) (iblk1 V c 4 t) (iblk1 V c 5 t)) j).trans ?_
  rw [G_apply, hq]
  refine congrFun (entry_eq (iblk1 V c 0 t) (iblk1 V c 1 t) (iblk1 V c 2 t) (iblk1 V c 3 t) (iblk1 V c 4 t) (iblk1 V c 5 t)
    (V c main_v38) (V c main_v26) (V c main_v12) (V c main_arg5) (V c main_v39) (V c main_arg7) (j 0) ((((cfg1.win 6).blk t).view.emb j) 0)
    (fun k => by
      show V c main_v38 (((cfg1.win 0).blk t).view.emb (ix2 (j 0) k)) = V c main_v38 (ix2 ((((cfg1.win 6).blk t).view.emb j) 0) k)
      refine congrArg (V c main_v38) ?_
      funext a; apply Fin.ext
      match a with
      | ⟨0, _⟩ => show win1_0.index t (0 : Fin 2) * 2000 + 1 * (j 0).val = win1_6.index t (0 : Fin 2) * 2000 + 1 * (j 0).val; omega
      | ⟨1, _⟩ => show win1_0.index t (1 : Fin 2) * 128 + 1 * k.val = k.val; omega)
    (fun k => by
      show V c main_v26 (((cfg1.win 1).blk t).view.emb (ix2 (j 0) k)) = V c main_v26 (ix2 ((((cfg1.win 6).blk t).view.emb j) 0) k)
      refine congrArg (V c main_v26) ?_
      funext a; apply Fin.ext
      match a with
      | ⟨0, _⟩ => show win1_1.index t (0 : Fin 2) * 2000 + 1 * (j 0).val = win1_6.index t (0 : Fin 2) * 2000 + 1 * (j 0).val; omega
      | ⟨1, _⟩ => show win1_1.index t (1 : Fin 2) * 128 + 1 * k.val = k.val; omega)
    (by
      show V c main_v12 (((cfg1.win 2).blk t).view.emb (ix2 (j 0) 0)) = V c main_v12 (ix2 ((((cfg1.win 6).blk t).view.emb j) 0) 0)
      refine congrArg (V c main_v12) ?_
      funext a; apply Fin.ext
      match a with
      | ⟨0, _⟩ => show win1_2.index t (0 : Fin 2) * 2000 + 1 * (j 0).val = win1_6.index t (0 : Fin 2) * 2000 + 1 * (j 0).val; omega
      | ⟨1, _⟩ => show win1_2.index t (1 : Fin 2) * 1 + 1 * (0 : Fin 1).val = (0 : Fin 1).val; omega)
    (by
      funext y
      show V c main_arg5 (((cfg1.win 3).blk t).view.emb y) = V c main_arg5 y
      refine congrArg (V c main_arg5) ?_
      funext a; apply Fin.ext
      match a with
      | ⟨0, _⟩ => show win1_3.index t (0 : Fin 2) * 128 + 1 * (y 0).val = (y 0).val; omega
      | ⟨1, _⟩ => show win1_3.index t (1 : Fin 2) * 128 + 1 * (y 1).val = (y 1).val; omega)
    (by
      funext y
      show V c main_v39 (((cfg1.win 4).blk t).view.emb y) = V c main_v39 y
      refine congrArg (V c main_v39) ?_
      funext a; apply Fin.ext
      match a with
      | ⟨0, _⟩ => show win1_4.index t (0 : Fin 2) * 1 + 1 * (y 0).val = (y 0).val; omega
      | ⟨1, _⟩ => show win1_4.index t (1 : Fin 2) * 128 + 1 * (y 1).val = (y 1).val; omega)
    (by
      funext y
      show V c main_arg7 (((cfg1.win 5).blk t).view.emb y) = V c main_arg7 y
      refine congrArg (V c main_arg7) ?_
      funext a; apply Fin.ext
      match a with
      | ⟨0, _⟩ => show win1_5.index t (0 : Fin 2) * 128 + 1 * (y 0).val = (y 0).val; omega
      | ⟨1, _⟩ => show win1_5.index t (1 : Fin 2) * 128 + 1 * (y 1).val = (y 1).val; omega)) (j 1)

/-- An index of the array is in point t's block iff each coordinate is in the block's range on its axis. -/
theorem mem_blk (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v40).slice (win1_6.rect t)).set ↔ _
  rw [View.set_slice_whole, Rect.mem_set_unit]
  exact Iff.rfl

/-- Every node's row lies in some point's block: the point is the row number over 2000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  refine ⟨⟨(i 0).val / 2000, by show (i 0).val / 2000 < 50; omega⟩, flush1_6 _, ?_⟩
  rw [mem_blk]
  obtain ⟨e00, e01, e10, e11, e20, e21, e30, e31, e40, e41, e50, e51, e60, e61⟩ :=
    idx_facts ⟨(i 0).val / 2000, by show (i 0).val / 2000 < 50; omega⟩
  intro a
  match a with
  | ⟨0, _⟩ =>
    show win1_6.index ⟨(i 0).val / 2000, _⟩ (0 : Fin 2) * 2000 ≤ (i 0).val
      ∧ (i 0).val < win1_6.index ⟨(i 0).val / 2000, _⟩ (0 : Fin 2) * 2000 + 2000
    rw [e60]
    show (i 0).val / 2000 * 2000 ≤ (i 0).val ∧ (i 0).val < (i 0).val / 2000 * 2000 + 2000
    omega
  | ⟨1, _⟩ =>
    show win1_6.index ⟨(i 0).val / 2000, _⟩ (1 : Fin 2) * 128 ≤ (i 1).val
      ∧ (i 1).val < win1_6.index ⟨(i 0).val / 2000, _⟩ (1 : Fin 2) * 128 + 128
    rw [e61]
    omega

/-- The output array after the region: the layer of the arrays the region found, node by node. -/
theorem final (c : Dev nD) :
    (dat1 V c).arrAt 6 cfg1.N = G (V c main_v38) (V c main_v26) (V c main_v12) (V c main_arg5) (V c main_v39) (V c main_arg7) :=
  (dat1 V c).arrAt_eq_of_cover 6 _ (fun t _ => flushed_eq V c t) cover

end Cert.KernelIdeal.Region1

end
-- ==== Proof.Region2.lean ====
/-
  Region 2: what the last pipelined call (third graph layer, the head and the log-softmax, fused) leaves in its
  output array.

  The grid has 50 points; point t works on rows 2000·t … 2000·t + 1999 of the node arrays and on the whole weight
  matrices and bias rows. Every operation of the body stays inside a row, so row p of the point's output block is the
  head of the layer of the operands' rows p, and the 50 blocks together are that function of the whole arrays, node by node.
-/
import proofs.«163056_j1254130451160_2_alg».proof.Proof.Gen.KernelIdeal.Frame
import proofs.«163056_j1254130451160_2_alg».proof.Proof.LibSageRows

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Cert.DenseRows Cert.Sage

variable (V : (c : Dev nD) → (b : Ref sig .tc) → Buf (Elt Ideal) ((c : Thread nD τ).loc b))

theorem hz : (![0, 0] : Fin 2 → Nat) = fun _ => 0 := funext fun a => by fin_cases a <;> rfl

/-- The third layer and the head over whole arrays, node by node. -/
def G (A0 : S100000x128.Idx → EReal) (A1 : S100000x128.Idx → EReal) (A2 : S100000x1.Idx → EReal) (A3 : S128x128.Idx → EReal) (A4 : S1x128.Idx → EReal) (A5 : S128x128.Idx → EReal) (A6 : S128x128.Idx → EReal) (A7 : S1x128.Idx → EReal) (A8 : S128x64.Idx → EReal) (A9 : S1x64.Idx → EReal) (A10 : S64x3.Idx → EReal) (A11 : S1x3.Idx → EReal) : S100000x3.Idx → EReal :=
  ofRows (fun P => headRow (sageRowK (row A0 P) (row A1 P) (A2 (ix2 P 0)) (mat A3) (mat A5) (row A4 0)) (mat A6) (row A7 0) (mat A8) (row A9 0) (mat A10) (row A11 0))

theorem G_apply (A0 : S100000x128.Idx → EReal) (A1 : S100000x128.Idx → EReal) (A2 : S100000x1.Idx → EReal) (A3 : S128x128.Idx → EReal) (A4 : S1x128.Idx → EReal) (A5 : S128x128.Idx → EReal) (A6 : S128x128.Idx → EReal) (A7 : S1x128.Idx → EReal) (A8 : S128x64.Idx → EReal) (A9 : S1x64.Idx → EReal) (A10 : S64x3.Idx → EReal) (A11 : S1x3.Idx → EReal) (i : S100000x3.Idx) :
    G A0 A1 A2 A3 A4 A5 A6 A7 A8 A9 A10 A11 i = headRow (sageRowK (row A0 (i 0)) (row A1 (i 0)) (A2 (ix2 (i 0) 0)) (mat A3) (mat A5) (row A4 0)) (mat A6) (row A7 0) (mat A8) (row A9 0) (mat A10) (row A11 0) (i 1) := rfl

/-- An entry of a block is an entry of one of its rows. -/
theorem row_eq (X : S2000x3.Idx → EReal) (j : S2000x3.Idx) : X j = row X (j 0) (j 1) := congrArg X (eq_ix2 j)

/-- The body's block, row by row: the head of the layer of its operand blocks' rows. -/
theorem out_rows (x0 : Vec Ideal S2000x128 .f32) (x1 : Vec Ideal S2000x128 .f32) (x2 : Vec Ideal S2000x1 .f32) (x3 : Vec Ideal S128x128 .f32) (x4 : Vec Ideal S1x128 .f32) (x5 : Vec Ideal S128x128 .f32) (x6 : Vec Ideal S128x128 .f32) (x7 : Vec Ideal S1x128 .f32) (x8 : Vec Ideal S128x64 .f32) (x9 : Vec Ideal S1x64 .f32) (x10 : Vec Ideal S64x3 .f32) (x11 : Vec Ideal S1x3 .f32) (p : Fin 2000) :
    row (out2_12 x0 x1 x2 x3 x4 x5 x6 x7 x8 x9 x10 x11) p = headRow (sageRowK (row x0 p) (row x1 p) (x2 (ix2 p 0)) (mat x3) (mat x5) (row x4 0)) (mat x6) (row x7 0) (mat x8) (row x9 0) (mat x10) (row x11 0) := by
  unfold out2_12
  rw [View.canon_unit_zero hz]
  simp only [View.ld_unit_zero (S := S2000x128) hz, View.ld_unit_zero (S := S2000x1) hz, View.ld_unit_zero (S := S128x128) hz, View.ld_unit_zero (S := S1x128) hz, View.ld_unit_zero (S := S128x64) hz, View.ld_unit_zero (S := S1x64) hz, View.ld_unit_zero (S := S64x3) hz, View.ld_unit_zero (S := S1x3) hz]
  unfold k2_pay1 k2_pay2 k2_pay3
  dsimp only
  refine (RowCalc.row_lsm _ _ _ _ _ _ _ p).trans ?_
  unfold headRow
  refine congrArg lsmRow ?_
  refine (RowCalc.row_matmul_biasrow _ rfl (by decide : (3 : Nat) ≠ 1) _ _ _ _ _ _ p).trans ?_
  refine congrArg (fun h => lin h (mat x10) (row x11 0)) ?_
  refine (RowCalc.row_truncf (ψ := .bf16) _ bitsLt_bf16_f32 p).trans ((RowCalc.row_relu _ p).trans (congrArg relu ?_))
  refine (RowCalc.row_matmul_biasrow _ rfl (by decide : (64 : Nat) ≠ 1) _ _ _ _ _ _ p).trans ?_
  refine congrArg (fun h => lin h (mat x8) (row x9 0)) ?_
  refine (RowCalc.row_truncf (ψ := .bf16) _ bitsLt_bf16_f32 p).trans ((RowCalc.row_relu _ p).trans (congrArg relu ?_))
  refine (RowCalc.row_matmul_biasrow _ rfl (by decide : (128 : Nat) ≠ 1) _ _ _ _ _ _ p).trans ?_
  refine congrArg (fun h => lin h (mat x6) (row x7 0)) ?_
  refine (RowCalc.row_truncf (ψ := .bf16) _ bitsLt_bf16_f32 p).trans ?_
  refine (RowCalc.row_sage _ rfl (by decide : (128 : Nat) ≠ 1) _ _ _ _ _ _ _ _ _ _ _ p).trans ?_
  simp only [shapeCast_self]

/-- One row of a block against one row of the function of whole arrays, given equal operand rows. -/
theorem entry_eq (x0 : Vec Ideal S2000x128 .f32) (x1 : Vec Ideal S2000x128 .f32) (x2 : Vec Ideal S2000x1 .f32) (x3 : Vec Ideal S128x128 .f32) (x4 : Vec Ideal S1x128 .f32) (x5 : Vec Ideal S128x128 .f32) (x6 : Vec Ideal S128x128 .f32) (x7 : Vec Ideal S1x128 .f32) (x8 : Vec Ideal S128x64 .f32) (x9 : Vec Ideal S1x64 .f32) (x10 : Vec Ideal S64x3 .f32) (x11 : Vec Ideal S1x3 .f32)
    (A0 : S100000x128.Idx → EReal) (A1 : S100000x128.Idx → EReal) (A2 : S100000x1.Idx → EReal) (A3 : S128x128.Idx → EReal) (A4 : S1x128.Idx → EReal) (A5 : S128x128.Idx → EReal) (A6 : S128x128.Idx → EReal) (A7 : S1x128.Idx → EReal) (A8 : S128x64.Idx → EReal) (A9 : S1x64.Idx → EReal) (A10 : S64x3.Idx → EReal) (A11 : S1x3.Idx → EReal) (p : Fin 2000) (P : Fin 100000)
    (h0 : ∀ k : Fin 128, x0 (ix2 p k) = A0 (ix2 P k)) (h1 : ∀ k : Fin 128, x1 (ix2 p k) = A1 (ix2 P k))
    (h2 : x2 (ix2 p 0) = A2 (ix2 P 0)) (h3 : x3 = A3) (h4 : x4 = A4) (h5 : x5 = A5) (h6 : x6 = A6) (h7 : x7 = A7) (h8 : x8 = A8) (h9 : x9 = A9) (h10 : x10 = A10) (h11 : x11 = A11) :
    row (out2_12 x0 x1 x2 x3 x4 x5 x6 x7 x8 x9 x10 x11) p = headRow (sageRowK (row A0 P) (row A1 P) (A2 (ix2 P 0)) (mat A3) (mat A5) (row A4 0)) (mat A6) (row A7 0) (mat A8) (row A9 0) (mat A10) (row A11 0) := by
  rw [out_rows, h2, h3, h4, h5, h6, h7, h8, h9, h10, h11, show row x0 p = row A0 P from funext h0, show row x1 p = row A1 P from funext h1]

/-- The printed index maps over the grid, window by window: the row windows move with the point, the weights stay. -/
theorem idx_w0 : ∀ t : Fin cfg2.N, win2_0.index t (0 : Fin 2) = t.val ∧ win2_0.index t (1 : Fin 2) = 0 :=
  (by decide +kernel : ∀ t : Fin grid2.N, _)
theorem idx_w1 : ∀ t : Fin cfg2.N, win2_1.index t (0 : Fin 2) = t.val ∧ win2_1.index t (1 : Fin 2) = 0 :=
  (by decide +kernel : ∀ t : Fin grid2.N, _)
theorem idx_w2 : ∀ t : Fin cfg2.N, win2_2.index t (0 : Fin 2) = t.val ∧ win2_2.index t (1 : Fin 2) = 0 :=
  (by decide +kernel : ∀ t : Fin grid2.N, _)
theorem idx_w3 : ∀ t : Fin cfg2.N, win2_3.index t (0 : Fin 2) = 0 ∧ win2_3.index t (1 : Fin 2) = 0 :=
  (by decide +kernel : ∀ t : Fin grid2.N, _)
theorem idx_w4 : ∀ t : Fin cfg2.N, win2_4.index t (0 : Fin 2) = 0 ∧ win2_4.index t (1 : Fin 2) = 0 :=
  (by decide +kernel : ∀ t : Fin grid2.N, _)
theorem idx_w5 : ∀ t : Fin cfg2.N, win2_5.index t (0 : Fin 2) = 0 ∧ win2_5.index t (1 : Fin 2) = 0 :=
  (by decide +kernel : ∀ t : Fin grid2.N, _)
theorem idx_w6 : ∀ t : Fin cfg2.N, win2_6.index t (0 : Fin 2) = 0 ∧ win2_6.index t (1 : Fin 2) = 0 :=
  (by decide +kernel : ∀ t : Fin grid2.N, _)
theorem idx_w7 : ∀ t : Fin cfg2.N, win2_7.index t (0 : Fin 2) = 0 ∧ win2_7.index t (1 : Fin 2) = 0 :=
  (by decide +kernel : ∀ t : Fin grid2.N, _)
theorem idx_w8 : ∀ t : Fin cfg2.N, win2_8.index t (0 : Fin 2) = 0 ∧ win2_8.index t (1 : Fin 2) = 0 :=
  (by decide +kernel : ∀ t : Fin grid2.N, _)
theorem idx_w9 : ∀ t : Fin cfg2.N, win2_9.index t (0 : Fin 2) = 0 ∧ win2_9.index t (1 : Fin 2) = 0 :=
  (by decide +kernel : ∀ t : Fin grid2.N, _)
theorem idx_w10 : ∀ t : Fin cfg2.N, win2_10.index t (0 : Fin 2) = 0 ∧ win2_10.index t (1 : Fin 2) = 0 :=
  (by decide +kernel : ∀ t : Fin grid2.N, _)
theorem idx_w11 : ∀ t : Fin cfg2.N, win2_11.index t (0 : Fin 2) = 0 ∧ win2_11.index t (1 : Fin 2) = 0 :=
  (by decide +kernel : ∀ t : Fin grid2.N, _)
theorem idx_w12 : ∀ t : Fin cfg2.N, win2_12.index t (0 : Fin 2) = t.val ∧ win2_12.index t (1 : Fin 2) = 0 :=
  (by decide +kernel : ∀ t : Fin grid2.N, _)

set_option maxHeartbeats 4000000 in
/-- What point t writes back is block t of the function of the arrays as the region finds them. -/
theorem flushed_eq (c : Dev nD) (t : Fin cfg2.N) :
    (dat2 V c).flushed 12 t = ((cfg2.win 12).blk t).view.read (Elt Ideal) (G (V c main_v52) (V c main_v40) (V c main_v12) (V c main_arg8) (V c main_v53) (V c main_arg10) (V c main_arg11) (V c main_v54) (V c main_arg13) (V c main_v55) (V c main_arg15) (V c main_v56)) := by
  show (cfg2.win 12).cut (grid2.coords t) ((dat2 V c).after 12 t) = _
  rw [after2_12]
  funext j
  show out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) j = G (V c main_v52) (V c main_v40) (V c main_v12) (V c main_arg8) (V c main_v53) (V c main_arg10) (V c main_arg11) (V c main_v54) (V c main_arg13) (V c main_v55) (V c main_arg15) (V c main_v56) (((cfg2.win 12).blk t).view.emb j)
  have hq : (((cfg2.win 12).blk t).view.emb j) 1 = j 1 := by
    apply Fin.ext
    show win2_12.index t (1 : Fin 2) * 3 + 1 * (j 1).val = (j 1).val
    rw [(idx_w12 t).2]; omega
  refine (row_eq (out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)) j).trans ?_
  rw [G_apply, hq]
  refine congrFun (entry_eq (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
    (V c main_v52) (V c main_v40) (V c main_v12) (V c main_arg8) (V c main_v53) (V c main_arg10) (V c main_arg11) (V c main_v54) (V c main_arg13) (V c main_v55) (V c main_arg15) (V c main_v56) (j 0) ((((cfg2.win 12).blk t).view.emb j) 0)
    (fun k => by
      show V c main_v52 (((cfg2.win 0).blk t).view.emb (ix2 (j 0) k)) = V c main_v52 (ix2 ((((cfg2.win 12).blk t).view.emb j) 0) k)
      refine congrArg (V c main_v52) ?_
      funext a; apply Fin.ext
      match a with
      | ⟨0, _⟩ => show win2_0.index t (0 : Fin 2) * 2000 + 1 * (j 0).val = win2_12.index t (0 : Fin 2) * 2000 + 1 * (j 0).val; rw [(idx_w0 t).1, (idx_w12 t).1]
      | ⟨1, _⟩ => show win2_0.index t (1 : Fin 2) * 128 + 1 * k.val = k.val; rw [(idx_w0 t).2]; omega)
    (fun k => by
      show V c main_v40 (((cfg2.win 1).blk t).view.emb (ix2 (j 0) k)) = V c main_v40 (ix2 ((((cfg2.win 12).blk t).view.emb j) 0) k)
      refine congrArg (V c main_v40) ?_
      funext a; apply Fin.ext
      match a with
      | ⟨0, _⟩ => show win2_1.index t (0 : Fin 2) * 2000 + 1 * (j 0).val = win2_12.index t (0 : Fin 2) * 2000 + 1 * (j 0).val; rw [(idx_w1 t).1, (idx_w12 t).1]
      | ⟨1, _⟩ => show win2_1.index t (1 : Fin 2) * 128 + 1 * k.val = k.val; rw [(idx_w1 t).2]; omega)
    (by
      show V c main_v12 (((cfg2.win 2).blk t).view.emb (ix2 (j 0) 0)) = V c main_v12 (ix2 ((((cfg2.win 12).blk t).view.emb j) 0) 0)
      refine congrArg (V c main_v12) ?_
      funext a; apply Fin.ext
      match a with
      | ⟨0, _⟩ => show win2_2.index t (0 : Fin 2) * 2000 + 1 * (j 0).val = win2_12.index t (0 : Fin 2) * 2000 + 1 * (j 0).val; rw [(idx_w2 t).1, (idx_w12 t).1]
      | ⟨1, _⟩ => show win2_2.index t (1 : Fin 2) * 1 + 1 * (0 : Fin 1).val = (0 : Fin 1).val; rw [(idx_w2 t).2]; omega)
    (by
      funext y
      show V c main_arg8 (((cfg2.win 3).blk t).view.emb y) = V c main_arg8 y
      refine congrArg (V c main_arg8) ?_
      funext a; apply Fin.ext
      match a with
      | ⟨0, _⟩ => show win2_3.index t (0 : Fin 2) * 128 + 1 * (y 0).val = (y 0).val; rw [(idx_w3 t).1]; omega
      | ⟨1, _⟩ => show win2_3.index t (1 : Fin 2) * 128 + 1 * (y 1).val = (y 1).val; rw [(idx_w3 t).2]; omega)
    (by
      funext y
      show V c main_v53 (((cfg2.win 4).blk t).view.emb y) = V c main_v53 y
      refine congrArg (V c main_v53) ?_
      funext a; apply Fin.ext
      match a with
      | ⟨0, _⟩ => show win2_4.index t (0 : Fin 2) * 1 + 1 * (y 0).val = (y 0).val; rw [(idx_w4 t).1]; omega
      | ⟨1, _⟩ => show win2_4.index t (1 : Fin 2) * 128 + 1 * (y 1).val = (y 1).val; rw [(idx_w4 t).2]; omega)
    (by
      funext y
      show V c main_arg10 (((cfg2.win 5).blk t).view.emb y) = V c main_arg10 y
      refine congrArg (V c main_arg10) ?_
      funext a; apply Fin.ext
      match a with
      | ⟨0, _⟩ => show win2_5.index t (0 : Fin 2) * 128 + 1 * (y 0).val = (y 0).val; rw [(idx_w5 t).1]; omega
      | ⟨1, _⟩ => show win2_5.index t (1 : Fin 2) * 128 + 1 * (y 1).val = (y 1).val; rw [(idx_w5 t).2]; omega)
    (by
      funext y
      show V c main_arg11 (((cfg2.win 6).blk t).view.emb y) = V c main_arg11 y
      refine congrArg (V c main_arg11) ?_
      funext a; apply Fin.ext
      match a with
      | ⟨0, _⟩ => show win2_6.index t (0 : Fin 2) * 128 + 1 * (y 0).val = (y 0).val; rw [(idx_w6 t).1]; omega
      | ⟨1, _⟩ => show win2_6.index t (1 : Fin 2) * 128 + 1 * (y 1).val = (y 1).val; rw [(idx_w6 t).2]; omega)
    (by
      funext y
      show V c main_v54 (((cfg2.win 7).blk t).view.emb y) = V c main_v54 y
      refine congrArg (V c main_v54) ?_
      funext a; apply Fin.ext
      match a with
      | ⟨0, _⟩ => show win2_7.index t (0 : Fin 2) * 1 + 1 * (y 0).val = (y 0).val; rw [(idx_w7 t).1]; omega
      | ⟨1, _⟩ => show win2_7.index t (1 : Fin 2) * 128 + 1 * (y 1).val = (y 1).val; rw [(idx_w7 t).2]; omega)
    (by
      funext y
      show V c main_arg13 (((cfg2.win 8).blk t).view.emb y) = V c main_arg13 y
      refine congrArg (V c main_arg13) ?_
      funext a; apply Fin.ext
      match a with
      | ⟨0, _⟩ => show win2_8.index t (0 : Fin 2) * 128 + 1 * (y 0).val = (y 0).val; rw [(idx_w8 t).1]; omega
      | ⟨1, _⟩ => show win2_8.index t (1 : Fin 2) * 64 + 1 * (y 1).val = (y 1).val; rw [(idx_w8 t).2]; omega)
    (by
      funext y
      show V c main_v55 (((cfg2.win 9).blk t).view.emb y) = V c main_v55 y
      refine congrArg (V c main_v55) ?_
      funext a; apply Fin.ext
      match a with
      | ⟨0, _⟩ => show win2_9.index t (0 : Fin 2) * 1 + 1 * (y 0).val = (y 0).val; rw [(idx_w9 t).1]; omega
      | ⟨1, _⟩ => show win2_9.index t (1 : Fin 2) * 64 + 1 * (y 1).val = (y 1).val; rw [(idx_w9 t).2]; omega)
    (by
      funext y
      show V c main_arg15 (((cfg2.win 10).blk t).view.emb y) = V c main_arg15 y
      refine congrArg (V c main_arg15) ?_
      funext a; apply Fin.ext
      match a with
      | ⟨0, _⟩ => show win2_10.index t (0 : Fin 2) * 64 + 1 * (y 0).val = (y 0).val; rw [(idx_w10 t).1]; omega
      | ⟨1, _⟩ => show win2_10.index t (1 : Fin 2) * 3 + 1 * (y 1).val = (y 1).val; rw [(idx_w10 t).2]; omega)
    (by
      funext y
      show V c main_v56 (((cfg2.win 11).blk t).view.emb y) = V c main_v56 y
      refine congrArg (V c main_v56) ?_
      funext a; apply Fin.ext
      match a with
      | ⟨0, _⟩ => show win2_11.index t (0 : Fin 2) * 1 + 1 * (y 0).val = (y 0).val; rw [(idx_w11 t).1]; omega
      | ⟨1, _⟩ => show win2_11.index t (1 : Fin 2) * 3 + 1 * (y 1).val = (y 1).val; rw [(idx_w11 t).2]; omega)) (j 1)

/-- An index of the array is in point t's block iff each coordinate is in the block's range on its axis. -/
theorem mem_blk (t : Fin cfg2.N) (i : S100000x3.Idx) :
    i ∈ ((cfg2.win 12).blk t).view.set ↔ ∀ a : Fin 2, win2_12.index t a * S2000x3.size a ≤ (i a).val
      ∧ (i a).val < win2_12.index t a * S2000x3.size a + S2000x3.size a := by
  show i ∈ ((View.whole main_v57).slice (win2_12.rect t)).set ↔ _
  rw [View.set_slice_whole, Rect.mem_set_unit]
  exact Iff.rfl

/-- Every node's row lies in some point's block: the point is the row number over 2000. -/
theorem cover (i : S100000x3.Idx) :
    ∃ t : Fin cfg2.N, (cfg2.win 12).flush t = true ∧ i ∈ ((cfg2.win 12).blk t).view.set := by
  have hi0 : (i 0).val < 100000 := (i 0).isLt
  have hi1 : (i 1).val < 3 := (i 1).isLt
  refine ⟨⟨(i 0).val / 2000, by show (i 0).val / 2000 < 50; omega⟩, flush2_12 _, ?_⟩
  rw [mem_blk]
  intro a
  match a with
  | ⟨0, _⟩ =>
    show win2_12.index ⟨(i 0).val / 2000, _⟩ (0 : Fin 2) * 2000 ≤ (i 0).val
      ∧ (i 0).val < win2_12.index ⟨(i 0).val / 2000, _⟩ (0 : Fin 2) * 2000 + 2000
    rw [(idx_w12 _).1]
    show (i 0).val / 2000 * 2000 ≤ (i 0).val ∧ (i 0).val < (i 0).val / 2000 * 2000 + 2000
    omega
  | ⟨1, _⟩ =>
    show win2_12.index ⟨(i 0).val / 2000, _⟩ (1 : Fin 2) * 3 ≤ (i 1).val
      ∧ (i 1).val < win2_12.index ⟨(i 0).val / 2000, _⟩ (1 : Fin 2) * 3 + 3
    rw [(idx_w12 _).2]
    omega

/-- The output array after the region: the third layer and the head of the arrays the region found, node by node. -/
theorem final (c : Dev nD) : (dat2 V c).arrAt 12 cfg2.N = G (V c main_v52) (V c main_v40) (V c main_v12) (V c main_arg8) (V c main_v53) (V c main_arg10) (V c main_arg11) (V c main_v54) (V c main_arg13) (V c main_v55) (V c main_arg15) (V c main_v56) :=
  (dat2 V c).arrAt_eq_of_cover 12 _ (fun t _ => flushed_eq V c t) cover

end Cert.KernelIdeal.Region2

end
-- ==== Proof.KChain.lean ====
/-
  The idealized kernel's buffers at each boundary of its run, as functions of the launch memory.

  @main alternates stretches of host operations with three pipelined regions. Reading the fold of boundary contents
  from the launch memory forward: the first stretch cuts the edge list into sources and targets, counts each node's
  incoming edges (at least one) and keeps the reciprocal as a column, and sums each node's neighbour rows; region 0 is
  the first layer of those; the next stretch sums neighbour rows of the layer's output; and so on to the result.
  A buffer that a stretch does not write, and that a region only reads, keeps its contents across it.
-/
import proofs.«163056_j1254130451160_2_alg».proof.Proof.Gen.KernelIdeal.Frame
import proofs.«163056_j1254130451160_2_alg».proof.Proof.Region0
import proofs.«163056_j1254130451160_2_alg».proof.Proof.Region1
import proofs.«163056_j1254130451160_2_alg».proof.Proof.Region2

set_option maxRecDepth 16384

noncomputable section

namespace Cert.KernelIdeal.Chain

open Cert.KernelIdeal Cert.KernelIdeal.Gen
open Idealize.ShloMosaic Idealize.ShloMosaic.TcCoe Idealize.SL.Sem

/-- The edges' source nodes: row 0 of the edge list. -/
def ksrc (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The edges' target nodes: row 1 of the edge list. -/
def ktgt (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- Summed neighbour rows: each edge's source row (a negative source index counted from the end) added into its
    target node's row, over 9 lanes. -/
def kagg9 (H : (⟨Cert.KernelIdeal.S100000x9, .f32⟩ : BufTy).Contents (Elt Ideal)) (src tgt : (⟨Cert.KernelIdeal.S1600000, .i32⟩ : BufTy).Contents (Elt Ideal)) : (⟨Cert.KernelIdeal.S100000x9, .f32⟩ : BufTy).Contents (Elt Ideal) :=
  Host.scatterAdd Cert.KernelIdeal.scatter_S100000x9_S1600000x1_S1600000x9_1_0_0_1 (broadcastInDim Cert.KernelIdeal.S100000x9 ![] Cert.KernelIdeal.Facts₀.bcast_S_S100000x9 (constant (F := Ideal) Cert.KernelIdeal.S_ .f32 0x00000000#32)) (broadcastInDim Cert.KernelIdeal.S1600000x1 ![0] Cert.KernelIdeal.Facts₀.bcast_S1600000_S1600000x1_0 tgt) (extf .f32 (Host.gather Cert.KernelIdeal.gather_S100000x9_S1600000x1_S1600000x9_1_0_n_n_0_1_19 (truncf .bf16 H Cert.KernelIdeal.Facts₀.bitsLt_bf16_f32) (broadcastInDim Cert.KernelIdeal.S1600000x1 ![0] Cert.KernelIdeal.Facts₀.bcast_S1600000_S1600000x1_0 (select (cmpi .slt src (broadcastInDim Cert.KernelIdeal.S1600000 ![] Cert.KernelIdeal.Facts₀.bcast_S_S1600000 (constantI Cert.KernelIdeal.S_ 32 0#32))) (addi src (broadcastInDim Cert.KernelIdeal.S1600000 ![] Cert.KernelIdeal.Facts₀.bcast_S_S1600000 (constantI Cert.KernelIdeal.S_ 32 100000#32))) src))) Cert.KernelIdeal.Facts₀.bitsLt_bf16_f32)

/-- Summed neighbour rows: each edge's source row (a negative source index counted from the end) added into its
    target node's row, over 128 lanes. -/
def kagg128 (H : (⟨Cert.KernelIdeal.S100000x128, .f32⟩ : BufTy).Contents (Elt Ideal)) (src tgt : (⟨Cert.KernelIdeal.S1600000, .i32⟩ : BufTy).Contents (Elt Ideal)) : (⟨Cert.KernelIdeal.S100000x128, .f32⟩ : BufTy).Contents (Elt Ideal) :=
  Host.scatterAdd Cert.KernelIdeal.scatter_S100000x128_S1600000x1_S1600000x128_1_0_0_1 (broadcastInDim Cert.KernelIdeal.S100000x128 ![] Cert.KernelIdeal.Facts₀.bcast_S_S100000x128 (constant (F := Ideal) Cert.KernelIdeal.S_ .f32 0x00000000#32)) (broadcastInDim Cert.KernelIdeal.S1600000x1 ![0] Cert.KernelIdeal.Facts₀.bcast_S1600000_S1600000x1_0 tgt) (extf .f32 (Host.gather Cert.KernelIdeal.gather_S100000x128_S1600000x1_S1600000x128_1_0_n_n_0_1_1128 (truncf .bf16 H Cert.KernelIdeal.Facts₀.bitsLt_bf16_f32) (broadcastInDim Cert.KernelIdeal.S1600000x1 ![0] Cert.KernelIdeal.Facts₀.bcast_S1600000_S1600000x1_0 (select (cmpi .slt src (broadcastInDim Cert.KernelIdeal.S1600000 ![] Cert.KernelIdeal.Facts₀.bcast_S_S1600000 (constantI Cert.KernelIdeal.S_ 32 0#32))) (addi src (broadcastInDim Cert.KernelIdeal.S1600000 ![] Cert.KernelIdeal.Facts₀.bcast_S_S1600000 (constantI Cert.KernelIdeal.S_ 32 100000#32))) src))) Cert.KernelIdeal.Facts₀.bitsLt_bf16_f32)

/-- The per-node count of incoming edges, taken at least one. -/
def kdmax (tgt : (⟨Cert.KernelIdeal.S1600000, .i32⟩ : BufTy).Contents (Elt Ideal)) : (⟨Cert.KernelIdeal.S100000, .f32⟩ : BufTy).Contents (Elt Ideal) :=
  maximumf (Host.scatterAdd Cert.KernelIdeal.scatter_S100000_S1600000x1_S1600000_n_0_0_1 (broadcastInDim Cert.KernelIdeal.S100000 ![] Cert.KernelIdeal.Facts₀.bcast_S_S100000 (constant (F := Ideal) Cert.KernelIdeal.S_ .f32 0x00000000#32)) (broadcastInDim Cert.KernelIdeal.S1600000x1 ![0] Cert.KernelIdeal.Facts₀.bcast_S1600000_S1600000x1_0 tgt) (broadcastInDim Cert.KernelIdeal.S1600000 ![] Cert.KernelIdeal.Facts₀.bcast_S_S1600000 (constant (F := Ideal) Cert.KernelIdeal.S_ .f32 0x3F800000#32))) (broadcastInDim Cert.KernelIdeal.S100000 ![] Cert.KernelIdeal.Facts₀.bcast_S_S100000 (constant (F := Ideal) Cert.KernelIdeal.S_ .f32 0x3F800000#32))

/-- The reciprocal of the count, as a column. -/
def kdinv (tgt : (⟨S1600000, .i32⟩ : BufTy).Contents (Elt Ideal)) : (⟨S100000x1, .f32⟩ : BufTy).Contents (Elt Ideal) :=
  shapeCast S100000x1 (Host.divf (broadcastInDim S100000 ![] bcast_S_S100000 (constant (F := Ideal) S_ .f32 0x3F800000#32)) (kdmax tgt)) shapeCasts_S100000_S100000x1

variable (m : (ℓ : Loc nD τ sig) → Buf (Elt Ideal) ℓ) (ρ : Dev nD → PrngReg)

/-! ## After the first stretch -/

theorem W1_v1 (c : Dev nD) : W1 m ρ c (Proc.devRef .tc main_v1) = ksrc (m ((c : Thread nD τ).loc main_arg1)) := by
  show StableHlo.after hostOps0 (W0 m ρ c) (Proc.devRef .tc main_v1) = _
  after_results_simp
  rfl
theorem W1_v3 (c : Dev nD) : W1 m ρ c (Proc.devRef .tc main_v3) = ktgt (m ((c : Thread nD τ).loc main_arg1)) := by
  show StableHlo.after hostOps0 (W0 m ρ c) (Proc.devRef .tc main_v3) = _
  after_results_simp
  rfl
theorem W1_v12 (c : Dev nD) : W1 m ρ c (Proc.devRef .tc main_v12) = kdinv (ktgt (m ((c : Thread nD τ).loc main_arg1))) := by
  show StableHlo.after hostOps0 (W0 m ρ c) (Proc.devRef .tc main_v12) = _
  after_results_simp
  rfl
theorem W1_v24 (c : Dev nD) : W1 m ρ c (Proc.devRef .tc main_v24) = kagg9 (m ((c : Thread nD τ).loc main_arg0)) (ksrc (m ((c : Thread nD τ).loc main_arg1))) (ktgt (m ((c : Thread nD τ).loc main_arg1))) := by
  show StableHlo.after hostOps0 (W0 m ρ c) (Proc.devRef .tc main_v24) = _
  after_results_simp
  rfl
theorem W1_v25 (c : Dev nD) : W1 m ρ c (Proc.devRef .tc main_v25) = shapeCast S1x128 (m ((c : Thread nD τ).loc main_arg3)) shapeCasts_S128_S1x128 := by
  show StableHlo.after hostOps0 (W0 m ρ c) (Proc.devRef .tc main_v25) = _
  after_results_simp
  rfl
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

/-- The first layer's output over all nodes. -/
def H1 (c : Dev nD) : S100000x128.Idx → EReal :=
  Region0.G (kagg9 (m ((c : Thread nD τ).loc main_arg0)) (ksrc (m ((c : Thread nD τ).loc main_arg1))) (ktgt (m ((c : Thread nD τ).loc main_arg1)))) (m ((c : Thread nD τ).loc main_arg0)) (kdinv (ktgt (m ((c : Thread nD τ).loc main_arg1))))
    (m ((c : Thread nD τ).loc main_arg2)) (shapeCast S1x128 (m ((c : Thread nD τ).loc main_arg3)) shapeCasts_S128_S1x128) (m ((c : Thread nD τ).loc main_arg4))

/-! ## After region 0 -/

theorem W2_v26 (c : Dev nD) : W2 m ρ c (Proc.devRef .tc main_v26) = H1 m c := by
  refine (W2_arr m ρ c 6).trans ((Region0.final (V1 m ρ) c).trans ?_)
  show Region0.G (W1 m ρ c (Proc.devRef .tc main_v24)) (W1 m ρ c (Proc.devRef .tc main_arg0)) (W1 m ρ c (Proc.devRef .tc main_v12)) (W1 m ρ c (Proc.devRef .tc main_arg2)) (W1 m ρ c (Proc.devRef .tc main_v25)) (W1 m ρ c (Proc.devRef .tc main_arg4)) = _
  rw [W1_v24, W1_arg0, W1_v12, W1_arg2, W1_v25, W1_arg4]
  rfl
theorem W2_v1 (c : Dev nD) : W2 m ρ c (Proc.devRef .tc main_v1) = ksrc (m ((c : Thread nD τ).loc main_arg1)) :=
  calc W2 m ρ c (Proc.devRef .tc main_v1)
    _ = W1 m ρ c (Proc.devRef .tc main_v1) := W2_of_ne m ρ c main_v1 (by decide)
    _ = ksrc (m ((c : Thread nD τ).loc main_arg1)) := W1_v1 m ρ c
theorem W2_v3 (c : Dev nD) : W2 m ρ c (Proc.devRef .tc main_v3) = ktgt (m ((c : Thread nD τ).loc main_arg1)) :=
  calc W2 m ρ c (Proc.devRef .tc main_v3)
    _ = W1 m ρ c (Proc.devRef .tc main_v3) := W2_of_ne m ρ c main_v3 (by decide)
    _ = ktgt (m ((c : Thread nD τ).loc main_arg1)) := W1_v3 m ρ c
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

/-! ## After the second stretch -/

set_option maxHeartbeats 2000000 in
theorem W3_v38 (c : Dev nD) : W3 m ρ c (Proc.devRef .tc main_v38) = kagg128 (H1 m c) (ksrc (m ((c : Thread nD τ).loc main_arg1))) (ktgt (m ((c : Thread nD τ).loc main_arg1))) := by
  have e : W3 m ρ c (Proc.devRef .tc main_v38) = kagg128 (W2 m ρ c (Proc.devRef .tc main_v26)) (W2 m ρ c (Proc.devRef .tc main_v1)) (W2 m ρ c (Proc.devRef .tc main_v3)) := by
    show StableHlo.after hostOps1 (W2 m ρ c) (Proc.devRef .tc main_v38) = _
    after_results_simp
    rfl
  rw [e, W2_v26, W2_v1, W2_v3]
theorem W3_v39 (c : Dev nD) : W3 m ρ c (Proc.devRef .tc main_v39) = shapeCast S1x128 (m ((c : Thread nD τ).loc main_arg6)) shapeCasts_S128_S1x128 := by
  have e : W3 m ρ c (Proc.devRef .tc main_v39) = shapeCast S1x128 (W2 m ρ c (Proc.devRef .tc main_arg6)) shapeCasts_S128_S1x128 := by
    show StableHlo.after hostOps1 (W2 m ρ c) (Proc.devRef .tc main_v39) = _
    after_results_simp
    rfl
  rw [e, W2_arg6]
theorem W3_v26 (c : Dev nD) : W3 m ρ c (Proc.devRef .tc main_v26) = H1 m c :=
  calc W3 m ρ c (Proc.devRef .tc main_v26)
    _ = W2 m ρ c (Proc.devRef .tc main_v26) := StableHlo.after_of_forall_not_mem (b := Proc.devRef .tc main_v26) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = H1 m c := W2_v26 m ρ c
theorem W3_v12 (c : Dev nD) : W3 m ρ c (Proc.devRef .tc main_v12) = kdinv (ktgt (m ((c : Thread nD τ).loc main_arg1))) :=
  calc W3 m ρ c (Proc.devRef .tc main_v12)
    _ = W2 m ρ c (Proc.devRef .tc main_v12) := StableHlo.after_of_forall_not_mem (b := Proc.devRef .tc main_v12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v12) := (W2_arr m ρ c 2).trans (((dat0 (V1 m ρ) c).arrAt_in 2 rfl _).trans (A_eq0 (V1 m ρ) c 2))
    _ = kdinv (ktgt (m ((c : Thread nD τ).loc main_arg1))) := W1_v12 m ρ c
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

/-- The second layer's output over all nodes. -/
def H2 (c : Dev nD) : S100000x128.Idx → EReal :=
  Region1.G (kagg128 (H1 m c) (ksrc (m ((c : Thread nD τ).loc main_arg1))) (ktgt (m ((c : Thread nD τ).loc main_arg1)))) (H1 m c) (kdinv (ktgt (m ((c : Thread nD τ).loc main_arg1))))
    (m ((c : Thread nD τ).loc main_arg5)) (shapeCast S1x128 (m ((c : Thread nD τ).loc main_arg6)) shapeCasts_S128_S1x128) (m ((c : Thread nD τ).loc main_arg7))

/-! ## After region 1 -/

theorem W4_v40 (c : Dev nD) : W4 m ρ c (Proc.devRef .tc main_v40) = H2 m c := by
  refine (W4_arr m ρ c 6).trans ((Region1.final (V3 m ρ) c).trans ?_)
  show Region1.G (W3 m ρ c (Proc.devRef .tc main_v38)) (W3 m ρ c (Proc.devRef .tc main_v26)) (W3 m ρ c (Proc.devRef .tc main_v12)) (W3 m ρ c (Proc.devRef .tc main_arg5)) (W3 m ρ c (Proc.devRef .tc main_v39)) (W3 m ρ c (Proc.devRef .tc main_arg7)) = _
  rw [W3_v38, W3_v26, W3_v12, W3_arg5, W3_v39, W3_arg7]
  rfl
theorem W4_v1 (c : Dev nD) : W4 m ρ c (Proc.devRef .tc main_v1) = ksrc (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = ksrc (m ((c : Thread nD τ).loc main_arg1)) := W2_v1 m ρ c
theorem W4_v3 (c : Dev nD) : W4 m ρ c (Proc.devRef .tc main_v3) = ktgt (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = ktgt (m ((c : Thread nD τ).loc main_arg1)) := W2_v3 m ρ c
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl
theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg12) := rfl
theorem W4_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg14) := rfl
theorem W4_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg16) := rfl

/-! ## After the third stretch -/

set_option maxHeartbeats 2000000 in
theorem W5_v52 (c : Dev nD) : W5 m ρ c (Proc.devRef .tc main_v52) = kagg128 (H2 m c) (ksrc (m ((c : Thread nD τ).loc main_arg1))) (ktgt (m ((c : Thread nD τ).loc main_arg1))) := by
  have e : W5 m ρ c (Proc.devRef .tc main_v52) = kagg128 (W4 m ρ c (Proc.devRef .tc main_v40)) (W4 m ρ c (Proc.devRef .tc main_v1)) (W4 m ρ c (Proc.devRef .tc main_v3)) := by
    show StableHlo.after hostOps2 (W4 m ρ c) (Proc.devRef .tc main_v52) = _
    after_results_simp
    rfl
  rw [e, W4_v40, W4_v1, W4_v3]
theorem W5_v53 (c : Dev nD) : W5 m ρ c (Proc.devRef .tc main_v53) = shapeCast S1x128 (m ((c : Thread nD τ).loc main_arg9)) shapeCasts_S128_S1x128 := by
  have e : W5 m ρ c (Proc.devRef .tc main_v53) = shapeCast S1x128 (W4 m ρ c (Proc.devRef .tc main_arg9)) shapeCasts_S128_S1x128 := by
    show StableHlo.after hostOps2 (W4 m ρ c) (Proc.devRef .tc main_v53) = _
    after_results_simp
    rfl
  rw [e, W4_arg9]
theorem W5_v54 (c : Dev nD) : W5 m ρ c (Proc.devRef .tc main_v54) = shapeCast S1x128 (m ((c : Thread nD τ).loc main_arg12)) shapeCasts_S128_S1x128 := by
  have e : W5 m ρ c (Proc.devRef .tc main_v54) = shapeCast S1x128 (W4 m ρ c (Proc.devRef .tc main_arg12)) shapeCasts_S128_S1x128 := by
    show StableHlo.after hostOps2 (W4 m ρ c) (Proc.devRef .tc main_v54) = _
    after_results_simp
    rfl
  rw [e, W4_arg12]
theorem W5_v55 (c : Dev nD) : W5 m ρ c (Proc.devRef .tc main_v55) = shapeCast S1x64 (m ((c : Thread nD τ).loc main_arg14)) shapeCasts_S64_S1x64 := by
  have e : W5 m ρ c (Proc.devRef .tc main_v55) = shapeCast S1x64 (W4 m ρ c (Proc.devRef .tc main_arg14)) shapeCasts_S64_S1x64 := by
    show StableHlo.after hostOps2 (W4 m ρ c) (Proc.devRef .tc main_v55) = _
    after_results_simp
    rfl
  rw [e, W4_arg14]
theorem W5_v56 (c : Dev nD) : W5 m ρ c (Proc.devRef .tc main_v56) = shapeCast S1x3 (m ((c : Thread nD τ).loc main_arg16)) shapeCasts_S3_S1x3 := by
  have e : W5 m ρ c (Proc.devRef .tc main_v56) = shapeCast S1x3 (W4 m ρ c (Proc.devRef .tc main_arg16)) shapeCasts_S3_S1x3 := by
    show StableHlo.after hostOps2 (W4 m ρ c) (Proc.devRef .tc main_v56) = _
    after_results_simp
    rfl
  rw [e, W4_arg16]
theorem W5_v40 (c : Dev nD) : W5 m ρ c (Proc.devRef .tc main_v40) = H2 m c :=
  calc W5 m ρ c (Proc.devRef .tc main_v40)
    _ = W4 m ρ c (Proc.devRef .tc main_v40) := StableHlo.after_of_forall_not_mem (b := Proc.devRef .tc main_v40) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = H2 m c := W4_v40 m ρ c
theorem W5_v12 (c : Dev nD) : W5 m ρ c (Proc.devRef .tc main_v12) = kdinv (ktgt (m ((c : Thread nD τ).loc main_arg1))) :=
  calc W5 m ρ c (Proc.devRef .tc main_v12)
    _ = W4 m ρ c (Proc.devRef .tc main_v12) := StableHlo.after_of_forall_not_mem (b := Proc.devRef .tc main_v12) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v12) := (W4_arr m ρ c 2).trans (((dat1 (V3 m ρ) c).arrAt_in 2 rfl _).trans (A_eq1 (V3 m ρ) c 2))
    _ = kdinv (ktgt (m ((c : Thread nD τ).loc main_arg1))) := W3_v12 m ρ c
theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl
theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl
theorem W5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := rfl
theorem W5_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_forall_not_mem (b := Proc.devRef .tc main_arg13) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg13) := rfl
theorem W5_arg15 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_forall_not_mem (b := Proc.devRef .tc main_arg15) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg15) := rfl

/-- The kernel's result over all nodes, as a function of the launch memory. -/
def OUT (c : Dev nD) : S100000x3.Idx → EReal :=
  Region2.G (kagg128 (H2 m c) (ksrc (m ((c : Thread nD τ).loc main_arg1))) (ktgt (m ((c : Thread nD τ).loc main_arg1)))) (H2 m c) (kdinv (ktgt (m ((c : Thread nD τ).loc main_arg1))))
    (m ((c : Thread nD τ).loc main_arg8)) (shapeCast S1x128 (m ((c : Thread nD τ).loc main_arg9)) shapeCasts_S128_S1x128) (m ((c : Thread nD τ).loc main_arg10))
    (m ((c : Thread nD τ).loc main_arg11)) (shapeCast S1x128 (m ((c : Thread nD τ).loc main_arg12)) shapeCasts_S128_S1x128)
    (m ((c : Thread nD τ).loc main_arg13)) (shapeCast S1x64 (m ((c : Thread nD τ).loc main_arg14)) shapeCasts_S64_S1x64)
    (m ((c : Thread nD τ).loc main_arg15)) (shapeCast S1x3 (m ((c : Thread nD τ).loc main_arg16)) shapeCasts_S3_S1x3)

/-! ## After region 2: the result -/

theorem W6_v57 (c : Dev nD) : W6 m ρ c (Proc.devRef .tc main_v57) = OUT m c := by
  refine (W6_arr m ρ c 12).trans ((Region2.final (V5 m ρ) c).trans ?_)
  show Region2.G (W5 m ρ c (Proc.devRef .tc main_v52)) (W5 m ρ c (Proc.devRef .tc main_v40)) (W5 m ρ c (Proc.devRef .tc main_v12)) (W5 m ρ c (Proc.devRef .tc main_arg8)) (W5 m ρ c (Proc.devRef .tc main_v53)) (W5 m ρ c (Proc.devRef .tc main_arg10)) (W5 m ρ c (Proc.devRef .tc main_arg11)) (W5 m ρ c (Proc.devRef .tc main_v54)) (W5 m ρ c (Proc.devRef .tc main_arg13)) (W5 m ρ c (Proc.devRef .tc main_v55)) (W5 m ρ c (Proc.devRef .tc main_arg15)) (W5 m ρ c (Proc.devRef .tc main_v56)) = _
  rw [W5_v52, W5_v40, W5_v12, W5_arg8, W5_v53, W5_arg10, W5_arg11, W5_v54, W5_arg13, W5_v55, W5_arg15, W5_v56]
  rfl

end Cert.KernelIdeal.Chain

end
-- ==== Proof.LibSageNet.lean ====
/-
  The whole network as one function of its arguments, node by node.

  Three graph layers with mean aggregation (LibSage.lean), each reading the previous layer's rows through an
  aggregation `agg` (summed neighbour rows: the same gather and scatter in both programs, never opened here) and a
  per-node count `dm`, then the head on each node's row. The aggregations and the count are parameters: both
  programs are shown to compute `net` at the same ones.
-/
import proofs.«163056_j1254130451160_2_alg».proof.Proof.LibSage

noncomputable section

namespace Cert.Net

open Idealize.ShloMosaic Idealize.ShloMosaic.ValueIdx Cert.DenseRows Cert.Sage

variable {R K0 K K1 K2 K3 : Nat}

/-- One graph layer over all nodes: node p's row from its aggregated row, its own row and its count. -/
def layer {Ki No : Nat} (agg : ((⟨2, ![R, Ki]⟩ : Shape).Idx → EReal) → (⟨2, ![R, Ki]⟩ : Shape).Idx → EReal)
    (dm : (⟨1, ![R]⟩ : Shape).Idx → EReal) (X : (⟨2, ![R, Ki]⟩ : Shape).Idx → EReal)
    (Wl : (⟨2, ![Ki, No]⟩ : Shape).Idx → EReal) (b : (⟨1, ![No]⟩ : Shape).Idx → EReal)
    (Wr : (⟨2, ![Ki, No]⟩ : Shape).Idx → EReal) : (⟨2, ![R, No]⟩ : Shape).Idx → EReal :=
  ofRows (fun p => sageRow (row (agg X) p) (row X p) (dm (ix1 p)) (mat Wl) (mat Wr) (vec b))

/-- The head over all nodes. -/
def head (H : (⟨2, ![R, K]⟩ : Shape).Idx → EReal)
    (W1 : (⟨2, ![K, K1]⟩ : Shape).Idx → EReal) (b1 : (⟨1, ![K1]⟩ : Shape).Idx → EReal)
    (W2 : (⟨2, ![K1, K2]⟩ : Shape).Idx → EReal) (b2 : (⟨1, ![K2]⟩ : Shape).Idx → EReal)
    (W3 : (⟨2, ![K2, K3]⟩ : Shape).Idx → EReal) (b3 : (⟨1, ![K3]⟩ : Shape).Idx → EReal) :
    (⟨2, ![R, K3]⟩ : Shape).Idx → EReal :=
  ofRows (fun p => headRow (row H p) (mat W1) (vec b1) (mat W2) (vec b2) (mat W3) (vec b3))

/-- The network: three layers, then the head. -/
def net (agg0 : ((⟨2, ![R, K0]⟩ : Shape).Idx → EReal) → (⟨2, ![R, K0]⟩ : Shape).Idx → EReal)
    (agg : ((⟨2, ![R, K]⟩ : Shape).Idx → EReal) → (⟨2, ![R, K]⟩ : Shape).Idx → EReal)
    (dm : (⟨1, ![R]⟩ : Shape).Idx → EReal) (X : (⟨2, ![R, K0]⟩ : Shape).Idx → EReal)
    (W1l : (⟨2, ![K0, K]⟩ : Shape).Idx → EReal) (b1 : (⟨1, ![K]⟩ : Shape).Idx → EReal) (W1r : (⟨2, ![K0, K]⟩ : Shape).Idx → EReal)
    (W2l : (⟨2, ![K, K]⟩ : Shape).Idx → EReal) (b2 : (⟨1, ![K]⟩ : Shape).Idx → EReal) (W2r : (⟨2, ![K, K]⟩ : Shape).Idx → EReal)
    (W3l : (⟨2, ![K, K]⟩ : Shape).Idx → EReal) (b3 : (⟨1, ![K]⟩ : Shape).Idx → EReal) (W3r : (⟨2, ![K, K]⟩ : Shape).Idx → EReal)
    (Wh1 : (⟨2, ![K, K1]⟩ : Shape).Idx → EReal) (bh1 : (⟨1, ![K1]⟩ : Shape).Idx → EReal)
    (Wh2 : (⟨2, ![K1, K2]⟩ : Shape).Idx → EReal) (bh2 : (⟨1, ![K2]⟩ : Shape).Idx → EReal)
    (Wh3 : (⟨2, ![K2, K3]⟩ : Shape).Idx → EReal) (bh3 : (⟨1, ![K3]⟩ : Shape).Idx → EReal) :
    (⟨2, ![R, K3]⟩ : Shape).Idx → EReal :=
  head (layer agg dm (layer agg dm (layer agg0 dm X W1l b1 W1r) W2l b2 W2r) W3l b3 W3r) Wh1 bh1 Wh2 bh2 Wh3 bh3

/-- A layer computed with the reciprocal of the count, a nonzero count and the bias as a 1×N row is the layer. -/
theorem layer_of_recip {Ki No : Nat} (agg : ((⟨2, ![R, Ki]⟩ : Shape).Idx → EReal) → (⟨2, ![R, Ki]⟩ : Shape).Idx → EReal)
    (dm : (⟨1, ![R]⟩ : Shape).Idx → EReal) (X : (⟨2, ![R, Ki]⟩ : Shape).Idx → EReal)
    (Wl : (⟨2, ![Ki, No]⟩ : Shape).Idx → EReal) (b : (⟨1, ![No]⟩ : Shape).Idx → EReal)
    (Wr : (⟨2, ![Ki, No]⟩ : Shape).Idx → EReal) (D : (⟨2, ![R, 1]⟩ : Shape).Idx → EReal)
    (brow : (⟨2, ![1, No]⟩ : Shape).Idx → EReal)
    (hD : ∀ P : Fin R, D (ix2 P 0) = Ideal.div 1 (dm (ix1 P))) (hne : ∀ P : Fin R, dm (ix1 P) ≠ 0)
    (hb : row brow 0 = vec b) :
    ofRows (fun P => sageRowK (row (agg X) P) (row X P) (D (ix2 P 0)) (mat Wl) (mat Wr) (row brow 0))
      = layer agg dm X Wl b Wr := by
  unfold layer
  refine congrArg ofRows (funext fun P => ?_)
  rw [hD P, hb, sageRowK_eq _ _ _ (hne P)]

/-- The last layer fused with the head, computed with the reciprocal of the count and the biases as rows, is the head
    of the layer. -/
theorem head_of_recip (agg : ((⟨2, ![R, K]⟩ : Shape).Idx → EReal) → (⟨2, ![R, K]⟩ : Shape).Idx → EReal)
    (dm : (⟨1, ![R]⟩ : Shape).Idx → EReal) (X : (⟨2, ![R, K]⟩ : Shape).Idx → EReal)
    (Wl : (⟨2, ![K, K]⟩ : Shape).Idx → EReal) (b : (⟨1, ![K]⟩ : Shape).Idx → EReal)
    (Wr : (⟨2, ![K, K]⟩ : Shape).Idx → EReal) (D : (⟨2, ![R, 1]⟩ : Shape).Idx → EReal)
    (brow : (⟨2, ![1, K]⟩ : Shape).Idx → EReal)
    (W1 : (⟨2, ![K, K1]⟩ : Shape).Idx → EReal) (b1 : (⟨1, ![K1]⟩ : Shape).Idx → EReal) (b1r : (⟨2, ![1, K1]⟩ : Shape).Idx → EReal)
    (W2 : (⟨2, ![K1, K2]⟩ : Shape).Idx → EReal) (b2 : (⟨1, ![K2]⟩ : Shape).Idx → EReal) (b2r : (⟨2, ![1, K2]⟩ : Shape).Idx → EReal)
    (W3 : (⟨2, ![K2, K3]⟩ : Shape).Idx → EReal) (b3 : (⟨1, ![K3]⟩ : Shape).Idx → EReal) (b3r : (⟨2, ![1, K3]⟩ : Shape).Idx → EReal)
    (hD : ∀ P : Fin R, D (ix2 P 0) = Ideal.div 1 (dm (ix1 P))) (hne : ∀ P : Fin R, dm (ix1 P) ≠ 0)
    (hb : row brow 0 = vec b) (h1 : row b1r 0 = vec b1) (h2 : row b2r 0 = vec b2) (h3 : row b3r 0 = vec b3) :
    ofRows (fun P => headRow (sageRowK (row (agg X) P) (row X P) (D (ix2 P 0)) (mat Wl) (mat Wr) (row brow 0))
        (mat W1) (row b1r 0) (mat W2) (row b2r 0) (mat W3) (row b3r 0))
      = head (layer agg dm X Wl b Wr) W1 b1 W2 b2 W3 b3 := by
  unfold head layer
  refine congrArg ofRows (funext fun P => ?_)
  rw [row_ofRows, hD P, hb, h1, h2, h3, sageRowK_eq _ _ _ (hne P)]

end Cert.Net

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.KNet.lean ====
/-
  The idealized kernel's result is the network.

  Region by region the kernel computes a layer with the reciprocal of each node's count (a column computed once) and
  the bias reshaped to a row. The count is a maximum with one, so it is not zero, and the product with its reciprocal
  is the quotient; a vector reshaped to a 1×n row has the vector's entries. So each region's array is the network's
  layer of the previous one, and the last region's is the head of the third layer.
-/
import proofs.«163056_j1254130451160_2_alg».proof.Proof.KChain
import proofs.«163056_j1254130451160_2_alg».proof.Proof.LibSageNet
import proofs.«163056_j1254130451160_2_alg».proof.Proof.LibRowOfVector
import proofs.«163056_j1254130451160_2_alg».proof.Proof.LibRowOps

noncomputable section

namespace Cert.KernelIdeal.Chain

open Cert.KernelIdeal Cert.KernelIdeal.Gen
open Idealize.ShloMosaic Idealize.ShloMosaic.TcCoe Idealize.ShloMosaic.ValueIdx Idealize.SL.Sem
open Cert.DenseRows Cert.Sage

/-- A maximum with the float one, at any index, is not zero. -/
theorem max_one_apply_ne (d : FVec Ideal S100000 .f32) (h : S_.BroadcastsInDim S100000 (![] : Fin 0 → Fin S100000.rank))
    (P : Fin 100000) :
    maximumf d (broadcastInDim S100000 ![] h (constant (F := Ideal) S_ .f32 0x3F800000#32)) (ix1 P) ≠ 0 := by
  show max (d (ix1 P)) (broadcastInDim S100000 ![] h (constant (F := Ideal) S_ .f32 0x3F800000#32) (ix1 P)) ≠ 0
  rw [broadcastInDim_apply _ h _ (ix1 P) ix0 (fun a => a.elim0)]
  exact max_one_ne_zero _

/-- One over a vector, reshaped to a column, at row P. -/
theorem recip_col_apply (d : FVec Ideal S100000 .f32) (h : S_.BroadcastsInDim S100000 (![] : Fin 0 → Fin S100000.rank))
    (hc : S100000.ShapeCasts S100000x1) (P : Fin 100000) :
    shapeCast S100000x1 (Host.divf (broadcastInDim S100000 ![] h (constant (F := Ideal) S_ .f32 0x3F800000#32)) d) hc (ix2 P 0)
      = Ideal.div 1 (d (ix1 P)) := by
  rw [RowOps.shapeCast_a_a1_apply]
  show Ideal.div (broadcastInDim S100000 ![] h (constant (F := Ideal) S_ .f32 0x3F800000#32) (ix1 P)) _ = _
  rw [broadcastInDim_apply _ h _ (ix1 P) ix0 (fun a => a.elim0)]
  show Ideal.div (Ideal.ofBits .f32 0x3F800000#32) _ = _
  rw [Ideal.ofBits_one_f32]

/-- The count is at least one, so not zero. -/
theorem kdmax_ne (tgt : (⟨S1600000, .i32⟩ : BufTy).Contents (Elt Ideal)) (P : Fin 100000) : kdmax tgt (ix1 P) ≠ 0 := by
  unfold kdmax
  exact max_one_apply_ne _ _ P

/-- The reciprocal column at node P is one over the count. -/
theorem kdinv_apply (tgt : (⟨S1600000, .i32⟩ : BufTy).Contents (Elt Ideal)) (P : Fin 100000) :
    kdinv tgt (ix2 P 0) = Ideal.div 1 (kdmax tgt (ix1 P)) := by
  unfold kdinv
  exact recip_col_apply (kdmax tgt) _ _ P

/-- A bias reshaped to a row has the bias's entries. -/
theorem brow_eq {n : Nat} (b : (⟨1, ![n]⟩ : Shape).Idx → EReal) (h : (⟨1, ![n]⟩ : Shape).ShapeCasts ⟨2, ![1, n]⟩) :
    row (shapeCast ⟨2, ![1, n]⟩ b h) 0 = vec b :=
  funext fun k => RowOfVector.shapeCast_row b h 0 k

variable (m : (ℓ : Loc nD τ sig) → Buf (Elt Ideal) ℓ)

/-- The kernel's result, over all nodes, is the network of the launch memory's arrays. -/
theorem OUT_eq_net (c : Dev nD) :
    OUT m c = Net.net (fun X => kagg9 X (ksrc (m ((c : Thread nD τ).loc main_arg1))) (ktgt (m ((c : Thread nD τ).loc main_arg1))))
      (fun H => kagg128 H (ksrc (m ((c : Thread nD τ).loc main_arg1))) (ktgt (m ((c : Thread nD τ).loc main_arg1)))) (kdmax (ktgt (m ((c : Thread nD τ).loc main_arg1))))
      (m ((c : Thread nD τ).loc main_arg0)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) (m ((c : Thread nD τ).loc main_arg14))
      (m ((c : Thread nD τ).loc main_arg15)) (m ((c : Thread nD τ).loc main_arg16)) := by
  have h1 : H1 m c = Net.layer (fun X => kagg9 X (ksrc (m ((c : Thread nD τ).loc main_arg1))) (ktgt (m ((c : Thread nD τ).loc main_arg1)))) (kdmax (ktgt (m ((c : Thread nD τ).loc main_arg1))))
      (m ((c : Thread nD τ).loc main_arg0)) (m ((c : Thread nD τ).loc main_arg2)) (m ((c : Thread nD τ).loc main_arg3)) (m ((c : Thread nD τ).loc main_arg4)) :=
    Net.layer_of_recip (fun X => kagg9 X (ksrc (m ((c : Thread nD τ).loc main_arg1))) (ktgt (m ((c : Thread nD τ).loc main_arg1)))) (kdmax (ktgt (m ((c : Thread nD τ).loc main_arg1)))) (m ((c : Thread nD τ).loc main_arg0)) (m ((c : Thread nD τ).loc main_arg2)) (m ((c : Thread nD τ).loc main_arg3)) (m ((c : Thread nD τ).loc main_arg4))
      (kdinv (ktgt (m ((c : Thread nD τ).loc main_arg1)))) (shapeCast S1x128 (m ((c : Thread nD τ).loc main_arg3)) shapeCasts_S128_S1x128) (kdinv_apply (ktgt (m ((c : Thread nD τ).loc main_arg1)))) (kdmax_ne (ktgt (m ((c : Thread nD τ).loc main_arg1)))) (brow_eq (m ((c : Thread nD τ).loc main_arg3)) shapeCasts_S128_S1x128)
  have h2 : H2 m c = Net.layer (fun H => kagg128 H (ksrc (m ((c : Thread nD τ).loc main_arg1))) (ktgt (m ((c : Thread nD τ).loc main_arg1)))) (kdmax (ktgt (m ((c : Thread nD τ).loc main_arg1))))
      (H1 m c) (m ((c : Thread nD τ).loc main_arg5)) (m ((c : Thread nD τ).loc main_arg6)) (m ((c : Thread nD τ).loc main_arg7)) :=
    Net.layer_of_recip (fun H => kagg128 H (ksrc (m ((c : Thread nD τ).loc main_arg1))) (ktgt (m ((c : Thread nD τ).loc main_arg1)))) (kdmax (ktgt (m ((c : Thread nD τ).loc main_arg1)))) (H1 m c) (m ((c : Thread nD τ).loc main_arg5)) (m ((c : Thread nD τ).loc main_arg6)) (m ((c : Thread nD τ).loc main_arg7))
      (kdinv (ktgt (m ((c : Thread nD τ).loc main_arg1)))) (shapeCast S1x128 (m ((c : Thread nD τ).loc main_arg6)) shapeCasts_S128_S1x128) (kdinv_apply (ktgt (m ((c : Thread nD τ).loc main_arg1)))) (kdmax_ne (ktgt (m ((c : Thread nD τ).loc main_arg1)))) (brow_eq (m ((c : Thread nD τ).loc main_arg6)) shapeCasts_S128_S1x128)
  have h3 : OUT m c = Net.head (Net.layer (fun H => kagg128 H (ksrc (m ((c : Thread nD τ).loc main_arg1))) (ktgt (m ((c : Thread nD τ).loc main_arg1)))) (kdmax (ktgt (m ((c : Thread nD τ).loc main_arg1))))
      (H2 m c) (m ((c : Thread nD τ).loc main_arg8)) (m ((c : Thread nD τ).loc main_arg9)) (m ((c : Thread nD τ).loc main_arg10)))
      (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
    Net.head_of_recip (fun H => kagg128 H (ksrc (m ((c : Thread nD τ).loc main_arg1))) (ktgt (m ((c : Thread nD τ).loc main_arg1)))) (kdmax (ktgt (m ((c : Thread nD τ).loc main_arg1)))) (H2 m c) (m ((c : Thread nD τ).loc main_arg8)) (m ((c : Thread nD τ).loc main_arg9)) (m ((c : Thread nD τ).loc main_arg10)) (kdinv (ktgt (m ((c : Thread nD τ).loc main_arg1)))) (shapeCast S1x128 (m ((c : Thread nD τ).loc main_arg9)) shapeCasts_S128_S1x128)
      (m ((c : Thread nD τ).loc main_arg11)) (m ((c : Thread nD τ).loc main_arg12)) (shapeCast S1x128 (m ((c : Thread nD τ).loc main_arg12)) shapeCasts_S128_S1x128)
      (m ((c : Thread nD τ).loc main_arg13)) (m ((c : Thread nD τ).loc main_arg14)) (shapeCast S1x64 (m ((c : Thread nD τ).loc main_arg14)) shapeCasts_S64_S1x64)
      (m ((c : Thread nD τ).loc main_arg15)) (m ((c : Thread nD τ).loc main_arg16)) (shapeCast S1x3 (m ((c : Thread nD τ).loc main_arg16)) shapeCasts_S3_S1x3)
      (kdinv_apply (ktgt (m ((c : Thread nD τ).loc main_arg1)))) (kdmax_ne (ktgt (m ((c : Thread nD τ).loc main_arg1)))) (brow_eq (m ((c : Thread nD τ).loc main_arg9)) shapeCasts_S128_S1x128)
      (brow_eq (m ((c : Thread nD τ).loc main_arg12)) shapeCasts_S128_S1x128) (brow_eq (m ((c : Thread nD τ).loc main_arg14)) shapeCasts_S64_S1x64)
      (brow_eq (m ((c : Thread nD τ).loc main_arg16)) shapeCasts_S3_S1x3)
  rw [h3, h2, h1]
  unfold Net.net
  rfl

end Cert.KernelIdeal.Chain

end
-- ==== Proof.RefOps.lean ====
/-
  The reference's 139 host operations in consecutive pieces.

  The reference's run ends with every buffer at the fold of the operations' results over the launch contents. The
  fold over a concatenation is the fold over the second list from the fold over the first, so it can be read piece by
  piece. The lists below are the program's operation list cut where a layer's sum ends and where its relu (an outlined
  function: three operations) ends, then at the head's three affine maps and their relus, and inside the log-softmax (an outlined function as well) after each of
  its reductions.
-/
import proofs.«163056_j1254130451160_2_alg».proof.Proof.RefRun

noncomputable section

namespace Cert.ReferenceIdeal.Pieces

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- @main's operations 1 … 35: the edge lists, the counts and the first layer before its relu. -/
abbrev opsA1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x9_S1600000x1_S1600000x9_1_0_n_n_0_1_19 x i) : (⟨S100000x9, .f32⟩ : BufTy).Contents (Elt F) → (⟨S1600000x1, .i32⟩ : BufTy).Contents (Elt F) → (⟨S1600000x9, .f32⟩ : BufTy).Contents (Elt F)),
    nullary main_cst (constant S_ .f32 0x00000000#32),
    unary main_cst main_v11 (broadcastInDim S100000x9 ![] bcast_S_S100000x9 : (⟨S_, .f32⟩ : BufTy).Contents (Elt F) → (⟨S100000x9, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x9_S1600000x1_S1600000x9_1_0_0_1 x i u) : (⟨S100000x9, .f32⟩ : BufTy).Contents (Elt F) → (⟨S1600000x1, .i32⟩ : BufTy).Contents (Elt F) → (⟨S1600000x9, .f32⟩ : BufTy).Contents (Elt F) → (⟨S100000x9, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x9 ![0, 1] bcast_S100000x1_S100000x9_0_1 : (⟨S100000x1, .f32⟩ : BufTy).Contents (Elt F) → (⟨S100000x9, .f32⟩ : BufTy).Contents (Elt F)),
    binary main_v13 main_v21 main_v22 (Host.divf : (⟨S100000x9, .f32⟩ : BufTy).Contents (Elt F) → (⟨S100000x9, .f32⟩ : BufTy).Contents (Elt F) → (⟨S100000x9, .f32⟩ : BufTy).Contents (Elt F)),
    binary main_v22 main_arg2 main_v23 ((fun l r => Host.dotGeneral dot_S100000x9_S9x128_S100000x128_1_0_0_1_n_n none l r) : (⟨S100000x9, .f32⟩ : BufTy).Contents (Elt F) → (⟨S9x128, .f32⟩ : BufTy).Contents (Elt F) → (⟨S100000x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    binary main_arg0 main_arg4 main_v27 ((fun l r => Host.dotGeneral dot_S100000x9_S9x128_S100000x128_1_0_0_1_n_n none l r) : (⟨S100000x9, .f32⟩ : BufTy).Contents (Elt F) → (⟨S9x128, .f32⟩ : BufTy).Contents (Elt F) → (⟨S100000x128, .f32⟩ : BufTy).Contents (Elt F)),
    binary main_v26 main_v27 main_v28 (addf : (⟨S100000x128, .f32⟩ : BufTy).Contents (Elt F) → (⟨S100000x128, .f32⟩ : BufTy).Contents (Elt F) → (⟨S100000x128, .f32⟩ : BufTy).Contents (Elt F)) ]
/-- @main's operations 36 … 38: the first layer's relu. -/
abbrev opsA2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v28) (TRef.of (T := ⟨S100000x128, .f32⟩) main_call0_v0) (TRef.of (T := ⟨S100000x128, .f32⟩) main_v29) maximumf ]
/-- @main's operations 39 … 69: the second layer before its relu. -/
abbrev opsB1 : List (HloOp τ sig (Elt F)) :=
  [ nullary main_c_4 (constantI S_ 32 0#32),
    unary main_c_4 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v37 (broadcastInDim S100000x128 ![] bcast_S_S100000x128 : (⟨S_, .f32⟩ : BufTy).Contents (Elt F) → (⟨S100000x128, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v40 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v41 (broadcastInDim S100000 ![] bcast_S_S100000 : (⟨S_, .f32⟩ : BufTy).Contents (Elt F) → (⟨S100000, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v43 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)),
    binary main_v39 main_v47 main_v48 (Host.divf : (⟨S100000x128, .f32⟩ : BufTy).Contents (Elt F) → (⟨S100000x128, .f32⟩ : BufTy).Contents (Elt F) → (⟨S100000x128, .f32⟩ : BufTy).Contents (Elt F)),
    binary main_v48 main_arg5 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)),
    binary main_v29 main_arg7 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v52 main_v53 main_v54 (addf : (⟨S100000x128, .f32⟩ : BufTy).Contents (Elt F) → (⟨S100000x128, .f32⟩ : BufTy).Contents (Elt F) → (⟨S100000x128, .f32⟩ : BufTy).Contents (Elt F)) ]
/-- @main's operations 70 … 72: the second layer's relu. -/
abbrev opsB2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v54) (TRef.of (T := ⟨S100000x128, .f32⟩) main_call1_v0) (TRef.of (T := ⟨S100000x128, .f32⟩) main_v55) maximumf ]
/-- @main's operations 73 … 103: the third layer before its relu. -/
abbrev opsC1 : List (HloOp τ sig (Elt F)) :=
  [ nullary main_c_10 (constantI S_ 32 0#32),
    unary main_c_10 main_v56 (broadcastInDim S1600000 ![] bcast_S_S1600000 : (⟨S_, .i32⟩ : BufTy).Contents (Elt F) → (⟨S1600000, .i32⟩ : BufTy).Contents (Elt F)),
    binary main_v1 main_v56 main_v57 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v58 (broadcastInDim S1600000 ![] bcast_S_S1600000 : (⟨S_, .i32⟩ : BufTy).Contents (Elt F) → (⟨S1600000, .i32⟩ : BufTy).Contents (Elt F)),
    binary main_v1 main_v58 main_v59 (addi : (⟨S1600000, .i32⟩ : BufTy).Contents (Elt F) → (⟨S1600000, .i32⟩ : BufTy).Contents (Elt F) → (⟨S1600000, .i32⟩ : BufTy).Contents (Elt F)),
    ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v60 main_v61 (broadcastInDim S1600000x1 ![0] bcast_S1600000_S1600000x1_0 : (⟨S1600000, .i32⟩ : BufTy).Contents (Elt F) → (⟨S1600000x1, .i32⟩ : BufTy).Contents (Elt F)),
    binary main_v55 main_v61 main_v62 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_12 (constant S_ .f32 0x00000000#32),
    unary main_cst_12 main_v63 (broadcastInDim S100000x128 ![] bcast_S_S100000x128 : (⟨S_, .f32⟩ : BufTy).Contents (Elt F) → (⟨S100000x128, .f32⟩ : BufTy).Contents (Elt F)),
    unary main_v3 main_v64 (broadcastInDim S1600000x1 ![0] bcast_S1600000_S1600000x1_0 : (⟨S1600000, .i32⟩ : BufTy).Contents (Elt F) → (⟨S1600000x1, .i32⟩ : BufTy).Contents (Elt F)),
    ternary main_v63 main_v64 main_v62 main_v65 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_13 (constant S_ .f32 0x3F800000#32),
    unary main_cst_13 main_v66 (broadcastInDim S1600000 ![] bcast_S_S1600000 : (⟨S_, .f32⟩ : BufTy).Contents (Elt F) → (⟨S1600000, .f32⟩ : BufTy).Contents (Elt F)),
    nullary main_cst_14 (constant S_ .f32 0x00000000#32),
    unary main_cst_14 main_v67 (broadcastInDim S100000 ![] bcast_S_S100000 : (⟨S_, .f32⟩ : BufTy).Contents (Elt F) → (⟨S100000, .f32⟩ : BufTy).Contents (Elt F)),
    unary main_v3 main_v68 (broadcastInDim S1600000x1 ![0] bcast_S1600000_S1600000x1_0 : (⟨S1600000, .i32⟩ : BufTy).Contents (Elt F) → (⟨S1600000x1, .i32⟩ : BufTy).Contents (Elt F)),
    ternary main_v67 main_v68 main_v66 main_v69 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_15 (constant S_ .f32 0x3F800000#32),
    unary main_cst_15 main_v70 (broadcastInDim S100000 ![] bcast_S_S100000 : (⟨S_, .f32⟩ : BufTy).Contents (Elt F) → (⟨S100000, .f32⟩ : BufTy).Contents (Elt F)),
    binary main_v69 main_v70 main_v71 (maximumf : (⟨S100000, .f32⟩ : BufTy).Contents (Elt F) → (⟨S100000, .f32⟩ : BufTy).Contents (Elt F) → (⟨S100000, .f32⟩ : BufTy).Contents (Elt F)),
    unary main_v71 main_v72 (broadcastInDim S100000x1 ![0] bcast_S100000_S100000x1_0 : (⟨S100000, .f32⟩ : BufTy).Contents (Elt F) → (⟨S100000x1, .f32⟩ : BufTy).Contents (Elt F)),
    unary main_v72 main_v73 (broadcastInDim S100000x128 ![0, 1] bcast_S100000x1_S100000x128_0_1 : (⟨S100000x1, .f32⟩ : BufTy).Contents (Elt F) → (⟨S100000x128, .f32⟩ : BufTy).Contents (Elt F)),
    binary main_v65 main_v73 main_v74 (Host.divf : (⟨S100000x128, .f32⟩ : BufTy).Contents (Elt F) → (⟨S100000x128, .f32⟩ : BufTy).Contents (Elt F) → (⟨S100000x128, .f32⟩ : BufTy).Contents (Elt F)),
    binary main_v74 main_arg8 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (addf : (⟨S100000x128, .f32⟩ : BufTy).Contents (Elt F) → (⟨S100000x128, .f32⟩ : BufTy).Contents (Elt F) → (⟨S100000x128, .f32⟩ : BufTy).Contents (Elt F)),
    binary main_v55 main_arg10 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v78 main_v79 main_v80 (addf : (⟨S100000x128, .f32⟩ : BufTy).Contents (Elt F) → (⟨S100000x128, .f32⟩ : BufTy).Contents (Elt F) → (⟨S100000x128, .f32⟩ : BufTy).Contents (Elt F)) ]
/-- @main's operations 104 … 106: the third layer's relu. -/
abbrev opsC2 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v80) (TRef.of (T := ⟨S100000x128, .f32⟩) main_call2_v0) (TRef.of (T := ⟨S100000x128, .f32⟩) main_v81) maximumf ]
/-- @main's operations 107 … 110: the head's first affine map. -/
abbrev opsD1 : List (HloOp τ sig (Elt F)) :=
  [ binary main_v81 main_arg11 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v82 main_v84 main_v85 (addf : (⟨S100000x128, .f32⟩ : BufTy).Contents (Elt F) → (⟨S100000x128, .f32⟩ : BufTy).Contents (Elt F) → (⟨S100000x128, .f32⟩ : BufTy).Contents (Elt F)) ]
/-- @main's operations 111 … 113: its relu. -/
abbrev opsD2 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v85) (TRef.of (T := ⟨S100000x128, .f32⟩) main_call3_v0) (TRef.of (T := ⟨S100000x128, .f32⟩) main_v86) maximumf ]
/-- @main's operations 114 … 117: the head's second affine map. -/
abbrev opsD3 : List (HloOp τ sig (Elt F)) :=
  [ binary main_v86 main_arg13 main_v87 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg14 main_v88 (broadcastInDim S1x64 ![1] bcast_S64_S1x64_1 : (⟨S64, .f32⟩ : BufTy).Contents (Elt F) → (⟨S1x64, .f32⟩ : BufTy).Contents (Elt F)),
    unary main_v88 main_v89 (broadcastInDim S100000x64 ![0, 1] bcast_S1x64_S100000x64_0_1 : (⟨S1x64, .f32⟩ : BufTy).Contents (Elt F) → (⟨S100000x64, .f32⟩ : BufTy).Contents (Elt F)),
    binary main_v87 main_v89 main_v90 (addf : (⟨S100000x64, .f32⟩ : BufTy).Contents (Elt F) → (⟨S100000x64, .f32⟩ : BufTy).Contents (Elt F) → (⟨S100000x64, .f32⟩ : BufTy).Contents (Elt F)) ]
/-- @main's operations 118 … 120: its relu. -/
abbrev opsD4 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v90) (TRef.of (T := ⟨S100000x64, .f32⟩) main_call4_v0) (TRef.of (T := ⟨S100000x64, .f32⟩) main_v91) maximumf ]
/-- @main's operations 121 … 124: the head's third affine map. -/
abbrev opsD5 : List (HloOp τ sig (Elt F)) :=
  [ binary main_v91 main_arg15 main_v92 ((fun l r => Host.dotGeneral dot_S100000x64_S64x3_S100000x3_1_0_0_1_n_n none l r) : (⟨S100000x64, .f32⟩ : BufTy).Contents (Elt F) → (⟨S64x3, .f32⟩ : BufTy).Contents (Elt F) → (⟨S100000x3, .f32⟩ : BufTy).Contents (Elt F)),
    unary main_arg16 main_v93 (broadcastInDim S1x3 ![1] bcast_S3_S1x3_1 : (⟨S3, .f32⟩ : BufTy).Contents (Elt F) → (⟨S1x3, .f32⟩ : BufTy).Contents (Elt F)),
    unary main_v93 main_v94 (broadcastInDim S100000x3 ![0, 1] bcast_S1x3_S100000x3_0_1 : (⟨S1x3, .f32⟩ : BufTy).Contents (Elt F) → (⟨S100000x3, .f32⟩ : BufTy).Contents (Elt F)),
    binary main_v92 main_v94 main_v95 (addf : (⟨S100000x3, .f32⟩ : BufTy).Contents (Elt F) → (⟨S100000x3, .f32⟩ : BufTy).Contents (Elt F) → (⟨S100000x3, .f32⟩ : BufTy).Contents (Elt F)) ]
/-- @main's operations 125 … 126: the log-softmax: the row maxima from −∞. -/
abbrev opsE1 : List (HloOp τ sig (Elt F)) :=
  [ TRef.nullary (TRef.of (T := ⟨S_, .f32⟩) main_call5_cst) (constant S_ .f32 0xFF800000#32),
    TRef.binary (TRef.of (T := ⟨S100000x3, .f32⟩) main_v95) (TRef.of (T := ⟨S_, .f32⟩) main_call5_cst) (TRef.of (T := ⟨S100000, .f32⟩) main_call5_v0) (fun x v => Host.reduce FloatOps.maximumf x v reducesTo_S100000x3_S100000_d1 h_S_) ]
/-- @main's operations 127 … 129: once more the maximum with −∞. -/
abbrev opsE2 : List (HloOp τ sig (Elt F)) :=
  [ TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf ]
/-- @main's operations 130 … 132: the maxima subtracted. -/
abbrev opsE3 : List (HloOp τ sig (Elt F)) :=
  [ TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x3, .f32⟩) main_call5_v4) (broadcastInDim S100000x3 ![0, 1] bcast_S100000x1_S100000x3_0_1),
    TRef.binary (TRef.of (T := ⟨S100000x3, .f32⟩) main_v95) (TRef.of (T := ⟨S100000x3, .f32⟩) main_call5_v4) (TRef.of (T := ⟨S100000x3, .f32⟩) main_call5_v5) subf ]
/-- @main's operations 133 … 133: the exponentials. -/
abbrev opsE4 : List (HloOp τ sig (Elt F)) :=
  [ TRef.unary (TRef.of (T := ⟨S100000x3, .f32⟩) main_call5_v5) (TRef.of (T := ⟨S100000x3, .f32⟩) main_call5_v6) Host.exp ]
/-- @main's operations 134 … 135: their row sums. -/
abbrev opsE5 : List (HloOp τ sig (Elt F)) :=
  [ TRef.nullary (TRef.of (T := ⟨S_, .f32⟩) main_call5_cst_1) (constant S_ .f32 0x00000000#32),
    TRef.binary (TRef.of (T := ⟨S100000x3, .f32⟩) main_call5_v6) (TRef.of (T := ⟨S_, .f32⟩) main_call5_cst_1) (TRef.of (T := ⟨S100000, .f32⟩) main_call5_v7) (fun x v => Host.reduceAdd x v reducesTo_S100000x3_S100000_d1 h_S_) ]
/-- @main's operations 136 … 139: the logarithm of the sums subtracted. -/
abbrev opsE6 : List (HloOp τ sig (Elt F)) :=
  [ TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x3, .f32⟩) main_call5_v10) (broadcastInDim S100000x3 ![0, 1] bcast_S100000x1_S100000x3_0_1),
    TRef.binary (TRef.of (T := ⟨S100000x3, .f32⟩) main_call5_v5) (TRef.of (T := ⟨S100000x3, .f32⟩) main_call5_v10) (TRef.of (T := ⟨S100000x3, .f32⟩) main_v96) subf ]

/-- The pieces, in order, are @main's operations. -/
theorem ops_split : (ops : List (HloOp τ sig (Elt F))) = opsA1 ++ (opsA2 ++ (opsB1 ++ (opsB2 ++ (opsC1 ++ (opsC2 ++ (opsD1 ++ (opsD2 ++ (opsD3 ++ (opsD4 ++ (opsD5 ++ (opsE1 ++ (opsE2 ++ (opsE3 ++ (opsE4 ++ (opsE5 ++ (opsE6)))))))))))))))) := rfl

/-- The fold over a concatenation: the second list's fold from the first list's. -/
theorem after_append {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append l₁ l₂]

/-- The whole fold, piece by piece. -/
theorem after_ops (V : Valuation τ sig (Elt F)) :
    after (ops : List (HloOp τ sig (Elt F))) V = after opsE6 (after opsE5 (after opsE4 (after opsE3 (after opsE2 (after opsE1 (after opsD5 (after opsD4 (after opsD3 (after opsD2 (after opsD1 (after opsC2 (after opsC1 (after opsB2 (after opsB1 (after opsA2 (after opsA1 (V))))))))))))))))) := by
  rw [ops_split, after_append, after_append, after_append, after_append, after_append, after_append, after_append, after_append, after_append, after_append, after_append, after_append, after_append, after_append, after_append, after_append]

end Cert.ReferenceIdeal.Pieces

end
-- ==== Proof.RefChain.lean ====
/-
  The reference's result buffer as a function of the launch memory.

  The fold of the 139 host operations is read piece by piece. The first piece cuts the edge list into sources and
  targets and computes the first graph layer's sum, the next its relu; then the second and third layers from the
  previous layer's output, the same sources and targets and their own weights; then the head's affine maps, their relus
  and the log-softmax. A buffer a piece does not write keeps its contents across it.
-/
import proofs.«163056_j1254130451160_2_alg».proof.Proof.RefOps
import Idealize.ShloMosaic.PureOps.Ideal

set_option maxRecDepth 16384

noncomputable section

namespace Cert.ReferenceIdeal.Chain

open Cert.ReferenceIdeal Cert.ReferenceIdeal.Gen Cert.ReferenceIdeal.Value Cert.ReferenceIdeal.Pieces
open Idealize.ShloMosaic Idealize.ShloMosaic.TcCoe Idealize.SL.Sem Idealize.ShloMosaic.StableHlo

/-- The edges' source nodes: row 0 of the edge list. -/
def rsrc (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The edges' target nodes: row 1 of the edge list. -/
def rtgt (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- Summed neighbour rows: each edge's source row (a negative source index counted from the end) added into its
    target node's row, over 9 lanes. -/
def ragg9 (H : FVec Ideal Cert.ReferenceIdeal.S100000x9 .f32) (src tgt : (⟨Cert.ReferenceIdeal.S1600000, .i32⟩ : BufTy).Contents (Elt Ideal)) : FVec Ideal Cert.ReferenceIdeal.S100000x9 .f32 :=
  Host.scatterAdd Cert.ReferenceIdeal.scatter_S100000x9_S1600000x1_S1600000x9_1_0_0_1 (broadcastInDim Cert.ReferenceIdeal.S100000x9 ![] Cert.ReferenceIdeal.Facts₀.bcast_S_S100000x9 (constant (F := Ideal) Cert.ReferenceIdeal.S_ .f32 0x00000000#32)) (broadcastInDim Cert.ReferenceIdeal.S1600000x1 ![0] Cert.ReferenceIdeal.Facts₀.bcast_S1600000_S1600000x1_0 tgt) (Host.gather Cert.ReferenceIdeal.gather_S100000x9_S1600000x1_S1600000x9_1_0_n_n_0_1_19 H (broadcastInDim Cert.ReferenceIdeal.S1600000x1 ![0] Cert.ReferenceIdeal.Facts₀.bcast_S1600000_S1600000x1_0 (select (cmpi .slt src (broadcastInDim Cert.ReferenceIdeal.S1600000 ![] Cert.ReferenceIdeal.Facts₀.bcast_S_S1600000 (constantI Cert.ReferenceIdeal.S_ 32 0#32))) (addi src (broadcastInDim Cert.ReferenceIdeal.S1600000 ![] Cert.ReferenceIdeal.Facts₀.bcast_S_S1600000 (constantI Cert.ReferenceIdeal.S_ 32 100000#32))) src)))

/-- Summed neighbour rows: each edge's source row (a negative source index counted from the end) added into its
    target node's row, over 128 lanes. -/
def ragg128 (H : FVec Ideal Cert.ReferenceIdeal.S100000x128 .f32) (src tgt : (⟨Cert.ReferenceIdeal.S1600000, .i32⟩ : BufTy).Contents (Elt Ideal)) : FVec Ideal Cert.ReferenceIdeal.S100000x128 .f32 :=
  Host.scatterAdd Cert.ReferenceIdeal.scatter_S100000x128_S1600000x1_S1600000x128_1_0_0_1 (broadcastInDim Cert.ReferenceIdeal.S100000x128 ![] Cert.ReferenceIdeal.Facts₀.bcast_S_S100000x128 (constant (F := Ideal) Cert.ReferenceIdeal.S_ .f32 0x00000000#32)) (broadcastInDim Cert.ReferenceIdeal.S1600000x1 ![0] Cert.ReferenceIdeal.Facts₀.bcast_S1600000_S1600000x1_0 tgt) (Host.gather Cert.ReferenceIdeal.gather_S100000x128_S1600000x1_S1600000x128_1_0_n_n_0_1_1128 H (broadcastInDim Cert.ReferenceIdeal.S1600000x1 ![0] Cert.ReferenceIdeal.Facts₀.bcast_S1600000_S1600000x1_0 (select (cmpi .slt src (broadcastInDim Cert.ReferenceIdeal.S1600000 ![] Cert.ReferenceIdeal.Facts₀.bcast_S_S1600000 (constantI Cert.ReferenceIdeal.S_ 32 0#32))) (addi src (broadcastInDim Cert.ReferenceIdeal.S1600000 ![] Cert.ReferenceIdeal.Facts₀.bcast_S_S1600000 (constantI Cert.ReferenceIdeal.S_ 32 100000#32))) src)))

/-- The per-node count of incoming edges, taken at least one. -/
def rdmax (tgt : (⟨Cert.ReferenceIdeal.S1600000, .i32⟩ : BufTy).Contents (Elt Ideal)) : FVec Ideal Cert.ReferenceIdeal.S100000 .f32 :=
  maximumf (Host.scatterAdd Cert.ReferenceIdeal.scatter_S100000_S1600000x1_S1600000_n_0_0_1 (broadcastInDim Cert.ReferenceIdeal.S100000 ![] Cert.ReferenceIdeal.Facts₀.bcast_S_S100000 (constant (F := Ideal) Cert.ReferenceIdeal.S_ .f32 0x00000000#32)) (broadcastInDim Cert.ReferenceIdeal.S1600000x1 ![0] Cert.ReferenceIdeal.Facts₀.bcast_S1600000_S1600000x1_0 tgt) (broadcastInDim Cert.ReferenceIdeal.S1600000 ![] Cert.ReferenceIdeal.Facts₀.bcast_S_S1600000 (constant (F := Ideal) Cert.ReferenceIdeal.S_ .f32 0x3F800000#32))) (broadcastInDim Cert.ReferenceIdeal.S100000 ![] Cert.ReferenceIdeal.Facts₀.bcast_S_S100000 (constant (F := Ideal) Cert.ReferenceIdeal.S_ .f32 0x3F800000#32))

/-- The maximum with zero of a 128-lane array. -/
def relu128 (Y : FVec Ideal S100000x128 .f32) : FVec Ideal S100000x128 .f32 :=
  maximumf Y (broadcastInDim S100000x128 ![] bcast_S_S100000x128 (constant (F := Ideal) S_ .f32 0x00000000#32))

/-- The maximum with zero of a 64-lane array. -/
def relu64 (Y : FVec Ideal S100000x64 .f32) : FVec Ideal S100000x64 .f32 :=
  maximumf Y (broadcastInDim S100000x64 ![] bcast_S_S100000x64 (constant (F := Ideal) S_ .f32 0x00000000#32))

/-- One graph layer over all nodes before its relu, in the host's operations, from the summed neighbour rows S and the counts dm. -/
def refPre9 (S X : FVec Ideal S100000x9 .f32) (dm : FVec Ideal S100000 .f32) (Wl : FVec Ideal S9x128 .f32) (b : FVec Ideal S128 .f32) (Wr : FVec Ideal S9x128 .f32) :
    FVec Ideal S100000x128 .f32 :=
  addf (addf
      (Host.dotGeneral dot_S100000x9_S9x128_S100000x128_1_0_0_1_n_n none
        (Host.divf S (broadcastInDim S100000x9 ![0, 1] bcast_S100000x1_S100000x9_0_1
          (broadcastInDim S100000x1 ![0] bcast_S100000_S100000x1_0 dm))) Wl)
      (broadcastInDim S100000x128 ![0, 1] bcast_S1x128_S100000x128_0_1 (broadcastInDim S1x128 ![1] bcast_S128_S1x128_1 b)))
    (Host.dotGeneral dot_S100000x9_S9x128_S100000x128_1_0_0_1_n_n none X Wr)

/-- The layer: its relu applied. -/
def refLayer9 (X : FVec Ideal S100000x9 .f32) (src tgt : (⟨S1600000, .i32⟩ : BufTy).Contents (Elt Ideal)) (Wl : FVec Ideal S9x128 .f32) (b : FVec Ideal S128 .f32) (Wr : FVec Ideal S9x128 .f32) :
    FVec Ideal S100000x128 .f32 :=
  relu128 (refPre9 (ragg9 X src tgt) X (rdmax tgt) Wl b Wr)

/-- One graph layer over all nodes before its relu, in the host's operations, from the summed neighbour rows S and the counts dm. -/
def refPre128 (S X : FVec Ideal S100000x128 .f32) (dm : FVec Ideal S100000 .f32) (Wl : FVec Ideal S128x128 .f32) (b : FVec Ideal S128 .f32) (Wr : FVec Ideal S128x128 .f32) :
    FVec Ideal S100000x128 .f32 :=
  addf (addf
      (Host.dotGeneral dot_S100000x128_S128x128_S100000x128_1_0_0_1_n_n none
        (Host.divf S (broadcastInDim S100000x128 ![0, 1] bcast_S100000x1_S100000x128_0_1
          (broadcastInDim S100000x1 ![0] bcast_S100000_S100000x1_0 dm))) Wl)
      (broadcastInDim S100000x128 ![0, 1] bcast_S1x128_S100000x128_0_1 (broadcastInDim S1x128 ![1] bcast_S128_S1x128_1 b)))
    (Host.dotGeneral dot_S100000x128_S128x128_S100000x128_1_0_0_1_n_n none X Wr)

/-- The layer: its relu applied. -/
def refLayer128 (X : FVec Ideal S100000x128 .f32) (src tgt : (⟨S1600000, .i32⟩ : BufTy).Contents (Elt Ideal)) (Wl : FVec Ideal S128x128 .f32) (b : FVec Ideal S128 .f32) (Wr : FVec Ideal S128x128 .f32) :
    FVec Ideal S100000x128 .f32 :=
  relu128 (refPre128 (ragg128 X src tgt) X (rdmax tgt) Wl b Wr)

/-- The head's affine maps, in the host's operations. -/
def aff1 (H : FVec Ideal S100000x128 .f32) (W : FVec Ideal S128x128 .f32) (b : FVec Ideal S128 .f32) : FVec Ideal S100000x128 .f32 :=
  addf (Host.dotGeneral dot_S100000x128_S128x128_S100000x128_1_0_0_1_n_n none H W)
    (broadcastInDim S100000x128 ![0, 1] bcast_S1x128_S100000x128_0_1 (broadcastInDim S1x128 ![1] bcast_S128_S1x128_1 b))
def aff2 (H : FVec Ideal S100000x128 .f32) (W : FVec Ideal S128x64 .f32) (b : FVec Ideal S64 .f32) : FVec Ideal S100000x64 .f32 :=
  addf (Host.dotGeneral dot_S100000x128_S128x64_S100000x64_1_0_0_1_n_n none H W)
    (broadcastInDim S100000x64 ![0, 1] bcast_S1x64_S100000x64_0_1 (broadcastInDim S1x64 ![1] bcast_S64_S1x64_1 b))
def aff3 (H : FVec Ideal S100000x64 .f32) (W : FVec Ideal S64x3 .f32) (b : FVec Ideal S3 .f32) : FVec Ideal S100000x3 .f32 :=
  addf (Host.dotGeneral dot_S100000x64_S64x3_S100000x3_1_0_0_1_n_n none H W)
    (broadcastInDim S100000x3 ![0, 1] bcast_S1x3_S100000x3_0_1 (broadcastInDim S1x3 ![1] bcast_S3_S1x3_1 b))

/-- The row maxima of a 3-lane array: the reduction from −∞, and once more the maximum with −∞. -/
def lsmRed (a : FVec Ideal S100000x3 .f32) : FVec Ideal S100000 .f32 :=
  Host.reduce FloatOps.maximumf a (constant (F := Ideal) S_ .f32 0xFF800000#32) reducesTo_S100000x3_S100000_d1 h_S_
def lsmMax (r : FVec Ideal S100000 .f32) : FVec Ideal S100000 .f32 :=
  maximumf (broadcastInDim S100000 ![] bcast_S_S100000 (constant (F := Ideal) S_ .f32 0xFF800000#32)) r
/-- A per-row value subtracted from every lane of its row. -/
def lsmShift (a : FVec Ideal S100000x3 .f32) (M : FVec Ideal S100000 .f32) : FVec Ideal S100000x3 .f32 :=
  subf a (broadcastInDim S100000x3 ![0, 1] bcast_S100000x1_S100000x3_0_1 (broadcastInDim S100000x1 ![0] bcast_S100000_S100000x1_0 M))
/-- The exponentials. -/
def lsmExp (z : FVec Ideal S100000x3 .f32) : FVec Ideal S100000x3 .f32 := Host.exp z
/-- The row sums. -/
def lsmSum (e : FVec Ideal S100000x3 .f32) : FVec Ideal S100000 .f32 :=
  Host.reduceAdd e (constant (F := Ideal) S_ .f32 0x00000000#32) reducesTo_S100000x3_S100000_d1 h_S_
/-- The logarithm of a per-row value subtracted from every lane of its row. -/
def lsmTail (z : FVec Ideal S100000x3 .f32) (s : FVec Ideal S100000 .f32) : FVec Ideal S100000x3 .f32 :=
  subf z (broadcastInDim S100000x3 ![0, 1] bcast_S100000x1_S100000x3_0_1 (Host.log (broadcastInDim S100000x1 ![0] bcast_S100000_S100000x1_0 s)))

/-- The log-softmax over all nodes, in the host's operations. -/
def refLsm (a : FVec Ideal S100000x3 .f32) : FVec Ideal S100000x3 .f32 :=
  lsmTail (lsmShift a (lsmMax (lsmRed a))) (lsmSum (lsmExp (lsmShift a (lsmMax (lsmRed a)))))

/-! ## What each piece writes, from any contents -/

set_option maxHeartbeats 4000000 in
theorem A1_v28 (V : Valuation τ sig (Elt Ideal)) :
    after opsA1 V (Proc.devRef .tc main_v28) = refPre9 (ragg9 (V (Proc.devRef .tc main_arg0)) (rsrc (V (Proc.devRef .tc main_arg1))) (rtgt (V (Proc.devRef .tc main_arg1)))) (V (Proc.devRef .tc main_arg0)) (rdmax (rtgt (V (Proc.devRef .tc main_arg1)))) (V (Proc.devRef .tc main_arg2)) (V (Proc.devRef .tc main_arg3)) (V (Proc.devRef .tc main_arg4)) := by
  after_results_simp
  rfl

set_option maxHeartbeats 1000000 in
theorem A1_v1 (V : Valuation τ sig (Elt Ideal)) :
    after opsA1 V (Proc.devRef .tc main_v1) = rsrc (V (Proc.devRef .tc main_arg1)) := by
  after_results_simp
  rfl

set_option maxHeartbeats 1000000 in
theorem A1_v3 (V : Valuation τ sig (Elt Ideal)) :
    after opsA1 V (Proc.devRef .tc main_v3) = rtgt (V (Proc.devRef .tc main_arg1)) := by
  after_results_simp
  rfl

theorem A2_v29 (V : Valuation τ sig (Elt Ideal)) :
    after opsA2 V (Proc.devRef .tc main_v29) = relu128 (V (Proc.devRef .tc main_v28)) := by
  after_results_simp
  rfl

set_option maxHeartbeats 4000000 in
theorem B1_v54 (V : Valuation τ sig (Elt Ideal)) :
    after opsB1 V (Proc.devRef .tc main_v54) = refPre128 (ragg128 (V (Proc.devRef .tc main_v29)) (V (Proc.devRef .tc main_v1)) (V (Proc.devRef .tc main_v3))) (V (Proc.devRef .tc main_v29)) (rdmax (V (Proc.devRef .tc main_v3))) (V (Proc.devRef .tc main_arg5)) (V (Proc.devRef .tc main_arg6)) (V (Proc.devRef .tc main_arg7)) := by
  after_results_simp
  rfl

theorem B2_v55 (V : Valuation τ sig (Elt Ideal)) :
    after opsB2 V (Proc.devRef .tc main_v55) = relu128 (V (Proc.devRef .tc main_v54)) := by
  after_results_simp
  rfl

set_option maxHeartbeats 4000000 in
theorem C1_v80 (V : Valuation τ sig (Elt Ideal)) :
    after opsC1 V (Proc.devRef .tc main_v80) = refPre128 (ragg128 (V (Proc.devRef .tc main_v55)) (V (Proc.devRef .tc main_v1)) (V (Proc.devRef .tc main_v3))) (V (Proc.devRef .tc main_v55)) (rdmax (V (Proc.devRef .tc main_v3))) (V (Proc.devRef .tc main_arg8)) (V (Proc.devRef .tc main_arg9)) (V (Proc.devRef .tc main_arg10)) := by
  after_results_simp
  rfl

theorem C2_v81 (V : Valuation τ sig (Elt Ideal)) :
    after opsC2 V (Proc.devRef .tc main_v81) = relu128 (V (Proc.devRef .tc main_v80)) := by
  after_results_simp
  rfl

theorem D1_v85 (V : Valuation τ sig (Elt Ideal)) :
    after opsD1 V (Proc.devRef .tc main_v85) = aff1 (V (Proc.devRef .tc main_v81)) (V (Proc.devRef .tc main_arg11)) (V (Proc.devRef .tc main_arg12)) := by
  after_results_simp
  rfl

theorem D2_v86 (V : Valuation τ sig (Elt Ideal)) :
    after opsD2 V (Proc.devRef .tc main_v86) = relu128 (V (Proc.devRef .tc main_v85)) := by
  after_results_simp
  rfl

theorem D3_v90 (V : Valuation τ sig (Elt Ideal)) :
    after opsD3 V (Proc.devRef .tc main_v90) = aff2 (V (Proc.devRef .tc main_v86)) (V (Proc.devRef .tc main_arg13)) (V (Proc.devRef .tc main_arg14)) := by
  after_results_simp
  rfl

theorem D4_v91 (V : Valuation τ sig (Elt Ideal)) :
    after opsD4 V (Proc.devRef .tc main_v91) = relu64 (V (Proc.devRef .tc main_v90)) := by
  after_results_simp
  rfl

theorem D5_v95 (V : Valuation τ sig (Elt Ideal)) :
    after opsD5 V (Proc.devRef .tc main_v95) = aff3 (V (Proc.devRef .tc main_v91)) (V (Proc.devRef .tc main_arg15)) (V (Proc.devRef .tc main_arg16)) := by
  after_results_simp
  rfl

/-! ## The log-softmax is an outlined function: its operations read and write through typed references, a transport
    along an equation of buffer types that holds by computation — the identity -/

theorem toBuf_v95 (v : (⟨S100000x3, .f32⟩ : BufTy).Contents (Elt Ideal)) :
    (TRef.of (sig := sig) (T := ⟨S100000x3, .f32⟩) main_v95).toBuf (Val := Elt Ideal) v = v := rfl
theorem ofBuf_v95 (v : (⟨S100000x3, .f32⟩ : BufTy).Contents (Elt Ideal)) :
    (TRef.of (sig := sig) (T := ⟨S100000x3, .f32⟩) main_v95).ofBuf (Val := Elt Ideal) v = v := rfl
theorem toBuf_call5_cst (v : (⟨S_, .f32⟩ : BufTy).Contents (Elt Ideal)) :
    (TRef.of (sig := sig) (T := ⟨S_, .f32⟩) main_call5_cst).toBuf (Val := Elt Ideal) v = v := rfl
theorem ofBuf_call5_cst (v : (⟨S_, .f32⟩ : BufTy).Contents (Elt Ideal)) :
    (TRef.of (sig := sig) (T := ⟨S_, .f32⟩) main_call5_cst).ofBuf (Val := Elt Ideal) v = v := rfl
theorem toBuf_call5_v0 (v : (⟨S100000, .f32⟩ : BufTy).Contents (Elt Ideal)) :
    (TRef.of (sig := sig) (T := ⟨S100000, .f32⟩) main_call5_v0).toBuf (Val := Elt Ideal) v = v := rfl
theorem ofBuf_call5_v0 (v : (⟨S100000, .f32⟩ : BufTy).Contents (Elt Ideal)) :
    (TRef.of (sig := sig) (T := ⟨S100000, .f32⟩) main_call5_v0).ofBuf (Val := Elt Ideal) v = v := rfl
theorem toBuf_call5_cst_0 (v : (⟨S_, .f32⟩ : BufTy).Contents (Elt Ideal)) :
    (TRef.of (sig := sig) (T := ⟨S_, .f32⟩) main_call5_cst_0).toBuf (Val := Elt Ideal) v = v := rfl
theorem ofBuf_call5_cst_0 (v : (⟨S_, .f32⟩ : BufTy).Contents (Elt Ideal)) :
    (TRef.of (sig := sig) (T := ⟨S_, .f32⟩) main_call5_cst_0).ofBuf (Val := Elt Ideal) v = v := rfl
theorem toBuf_call5_v1 (v : (⟨S100000, .f32⟩ : BufTy).Contents (Elt Ideal)) :
    (TRef.of (sig := sig) (T := ⟨S100000, .f32⟩) main_call5_v1).toBuf (Val := Elt Ideal) v = v := rfl
theorem ofBuf_call5_v1 (v : (⟨S100000, .f32⟩ : BufTy).Contents (Elt Ideal)) :
    (TRef.of (sig := sig) (T := ⟨S100000, .f32⟩) main_call5_v1).ofBuf (Val := Elt Ideal) v = v := rfl
theorem toBuf_call5_v2 (v : (⟨S100000, .f32⟩ : BufTy).Contents (Elt Ideal)) :
    (TRef.of (sig := sig) (T := ⟨S100000, .f32⟩) main_call5_v2).toBuf (Val := Elt Ideal) v = v := rfl
theorem ofBuf_call5_v2 (v : (⟨S100000, .f32⟩ : BufTy).Contents (Elt Ideal)) :
    (TRef.of (sig := sig) (T := ⟨S100000, .f32⟩) main_call5_v2).ofBuf (Val := Elt Ideal) v = v := rfl
theorem toBuf_call5_v3 (v : (⟨S100000x1, .f32⟩ : BufTy).Contents (Elt Ideal)) :
    (TRef.of (sig := sig) (T := ⟨S100000x1, .f32⟩) main_call5_v3).toBuf (Val := Elt Ideal) v = v := rfl
theorem ofBuf_call5_v3 (v : (⟨S100000x1, .f32⟩ : BufTy).Contents (Elt Ideal)) :
    (TRef.of (sig := sig) (T := ⟨S100000x1, .f32⟩) main_call5_v3).ofBuf (Val := Elt Ideal) v = v := rfl
theorem toBuf_call5_v4 (v : (⟨S100000x3, .f32⟩ : BufTy).Contents (Elt Ideal)) :
    (TRef.of (sig := sig) (T := ⟨S100000x3, .f32⟩) main_call5_v4).toBuf (Val := Elt Ideal) v = v := rfl
theorem ofBuf_call5_v4 (v : (⟨S100000x3, .f32⟩ : BufTy).Contents (Elt Ideal)) :
    (TRef.of (sig := sig) (T := ⟨S100000x3, .f32⟩) main_call5_v4).ofBuf (Val := Elt Ideal) v = v := rfl
theorem toBuf_call5_v5 (v : (⟨S100000x3, .f32⟩ : BufTy).Contents (Elt Ideal)) :
    (TRef.of (sig := sig) (T := ⟨S100000x3, .f32⟩) main_call5_v5).toBuf (Val := Elt Ideal) v = v := rfl
theorem ofBuf_call5_v5 (v : (⟨S100000x3, .f32⟩ : BufTy).Contents (Elt Ideal)) :
    (TRef.of (sig := sig) (T := ⟨S100000x3, .f32⟩) main_call5_v5).ofBuf (Val := Elt Ideal) v = v := rfl
theorem toBuf_call5_v6 (v : (⟨S100000x3, .f32⟩ : BufTy).Contents (Elt Ideal)) :
    (TRef.of (sig := sig) (T := ⟨S100000x3, .f32⟩) main_call5_v6).toBuf (Val := Elt Ideal) v = v := rfl
theorem ofBuf_call5_v6 (v : (⟨S100000x3, .f32⟩ : BufTy).Contents (Elt Ideal)) :
    (TRef.of (sig := sig) (T := ⟨S100000x3, .f32⟩) main_call5_v6).ofBuf (Val := Elt Ideal) v = v := rfl
theorem toBuf_call5_cst_1 (v : (⟨S_, .f32⟩ : BufTy).Contents (Elt Ideal)) :
    (TRef.of (sig := sig) (T := ⟨S_, .f32⟩) main_call5_cst_1).toBuf (Val := Elt Ideal) v = v := rfl
theorem ofBuf_call5_cst_1 (v : (⟨S_, .f32⟩ : BufTy).Contents (Elt Ideal)) :
    (TRef.of (sig := sig) (T := ⟨S_, .f32⟩) main_call5_cst_1).ofBuf (Val := Elt Ideal) v = v := rfl
theorem toBuf_call5_v7 (v : (⟨S100000, .f32⟩ : BufTy).Contents (Elt Ideal)) :
    (TRef.of (sig := sig) (T := ⟨S100000, .f32⟩) main_call5_v7).toBuf (Val := Elt Ideal) v = v := rfl
theorem ofBuf_call5_v7 (v : (⟨S100000, .f32⟩ : BufTy).Contents (Elt Ideal)) :
    (TRef.of (sig := sig) (T := ⟨S100000, .f32⟩) main_call5_v7).ofBuf (Val := Elt Ideal) v = v := rfl
theorem toBuf_call5_v8 (v : (⟨S100000x1, .f32⟩ : BufTy).Contents (Elt Ideal)) :
    (TRef.of (sig := sig) (T := ⟨S100000x1, .f32⟩) main_call5_v8).toBuf (Val := Elt Ideal) v = v := rfl
theorem ofBuf_call5_v8 (v : (⟨S100000x1, .f32⟩ : BufTy).Contents (Elt Ideal)) :
    (TRef.of (sig := sig) (T := ⟨S100000x1, .f32⟩) main_call5_v8).ofBuf (Val := Elt Ideal) v = v := rfl
theorem toBuf_call5_v9 (v : (⟨S100000x1, .f32⟩ : BufTy).Contents (Elt Ideal)) :
    (TRef.of (sig := sig) (T := ⟨S100000x1, .f32⟩) main_call5_v9).toBuf (Val := Elt Ideal) v = v := rfl
theorem ofBuf_call5_v9 (v : (⟨S100000x1, .f32⟩ : BufTy).Contents (Elt Ideal)) :
    (TRef.of (sig := sig) (T := ⟨S100000x1, .f32⟩) main_call5_v9).ofBuf (Val := Elt Ideal) v = v := rfl
theorem toBuf_call5_v10 (v : (⟨S100000x3, .f32⟩ : BufTy).Contents (Elt Ideal)) :
    (TRef.of (sig := sig) (T := ⟨S100000x3, .f32⟩) main_call5_v10).toBuf (Val := Elt Ideal) v = v := rfl
theorem ofBuf_call5_v10 (v : (⟨S100000x3, .f32⟩ : BufTy).Contents (Elt Ideal)) :
    (TRef.of (sig := sig) (T := ⟨S100000x3, .f32⟩) main_call5_v10).ofBuf (Val := Elt Ideal) v = v := rfl
theorem toBuf_v96 (v : (⟨S100000x3, .f32⟩ : BufTy).Contents (Elt Ideal)) :
    (TRef.of (sig := sig) (T := ⟨S100000x3, .f32⟩) main_v96).toBuf (Val := Elt Ideal) v = v := rfl
theorem ofBuf_v96 (v : (⟨S100000x3, .f32⟩ : BufTy).Contents (Elt Ideal)) :
    (TRef.of (sig := sig) (T := ⟨S100000x3, .f32⟩) main_v96).ofBuf (Val := Elt Ideal) v = v := rfl

theorem E1_v0 (V : Valuation τ sig (Elt Ideal)) :
    after opsE1 V (Proc.devRef .tc main_call5_v0) = lsmRed (V (Proc.devRef .tc main_v95)) := by
  after_results_simp
  simp only [toBuf_v95, ofBuf_v95, toBuf_call5_cst, ofBuf_call5_cst, toBuf_call5_v0, ofBuf_call5_v0, toBuf_call5_cst_0, ofBuf_call5_cst_0, toBuf_call5_v1, ofBuf_call5_v1, toBuf_call5_v2, ofBuf_call5_v2, toBuf_call5_v3, ofBuf_call5_v3, toBuf_call5_v4, ofBuf_call5_v4, toBuf_call5_v5, ofBuf_call5_v5, toBuf_call5_v6, ofBuf_call5_v6, toBuf_call5_cst_1, ofBuf_call5_cst_1, toBuf_call5_v7, ofBuf_call5_v7, toBuf_call5_v8, ofBuf_call5_v8, toBuf_call5_v9, ofBuf_call5_v9, toBuf_call5_v10, ofBuf_call5_v10, toBuf_v96, ofBuf_v96]
  rfl
theorem E1_v95 (V : Valuation τ sig (Elt Ideal)) :
    after opsE1 V (Proc.devRef .tc main_v95) = V (Proc.devRef .tc main_v95) := by
  after_results_simp
theorem E2_v2 (V : Valuation τ sig (Elt Ideal)) :
    after opsE2 V (Proc.devRef .tc main_call5_v2) = lsmMax (V (Proc.devRef .tc main_call5_v0)) := by
  after_results_simp
  simp only [toBuf_v95, ofBuf_v95, toBuf_call5_cst, ofBuf_call5_cst, toBuf_call5_v0, ofBuf_call5_v0, toBuf_call5_cst_0, ofBuf_call5_cst_0, toBuf_call5_v1, ofBuf_call5_v1, toBuf_call5_v2, ofBuf_call5_v2, toBuf_call5_v3, ofBuf_call5_v3, toBuf_call5_v4, ofBuf_call5_v4, toBuf_call5_v5, ofBuf_call5_v5, toBuf_call5_v6, ofBuf_call5_v6, toBuf_call5_cst_1, ofBuf_call5_cst_1, toBuf_call5_v7, ofBuf_call5_v7, toBuf_call5_v8, ofBuf_call5_v8, toBuf_call5_v9, ofBuf_call5_v9, toBuf_call5_v10, ofBuf_call5_v10, toBuf_v96, ofBuf_v96]
  rfl
theorem E2_v95 (V : Valuation τ sig (Elt Ideal)) :
    after opsE2 V (Proc.devRef .tc main_v95) = V (Proc.devRef .tc main_v95) := by
  after_results_simp
theorem E3_v5 (V : Valuation τ sig (Elt Ideal)) :
    after opsE3 V (Proc.devRef .tc main_call5_v5) = lsmShift (V (Proc.devRef .tc main_v95)) (V (Proc.devRef .tc main_call5_v2)) := by
  after_results_simp
  simp only [toBuf_v95, ofBuf_v95, toBuf_call5_cst, ofBuf_call5_cst, toBuf_call5_v0, ofBuf_call5_v0, toBuf_call5_cst_0, ofBuf_call5_cst_0, toBuf_call5_v1, ofBuf_call5_v1, toBuf_call5_v2, ofBuf_call5_v2, toBuf_call5_v3, ofBuf_call5_v3, toBuf_call5_v4, ofBuf_call5_v4, toBuf_call5_v5, ofBuf_call5_v5, toBuf_call5_v6, ofBuf_call5_v6, toBuf_call5_cst_1, ofBuf_call5_cst_1, toBuf_call5_v7, ofBuf_call5_v7, toBuf_call5_v8, ofBuf_call5_v8, toBuf_call5_v9, ofBuf_call5_v9, toBuf_call5_v10, ofBuf_call5_v10, toBuf_v96, ofBuf_v96]
  rfl
theorem E4_v6 (V : Valuation τ sig (Elt Ideal)) :
    after opsE4 V (Proc.devRef .tc main_call5_v6) = lsmExp (V (Proc.devRef .tc main_call5_v5)) := by
  after_results_simp
  simp only [toBuf_v95, ofBuf_v95, toBuf_call5_cst, ofBuf_call5_cst, toBuf_call5_v0, ofBuf_call5_v0, toBuf_call5_cst_0, ofBuf_call5_cst_0, toBuf_call5_v1, ofBuf_call5_v1, toBuf_call5_v2, ofBuf_call5_v2, toBuf_call5_v3, ofBuf_call5_v3, toBuf_call5_v4, ofBuf_call5_v4, toBuf_call5_v5, ofBuf_call5_v5, toBuf_call5_v6, ofBuf_call5_v6, toBuf_call5_cst_1, ofBuf_call5_cst_1, toBuf_call5_v7, ofBuf_call5_v7, toBuf_call5_v8, ofBuf_call5_v8, toBuf_call5_v9, ofBuf_call5_v9, toBuf_call5_v10, ofBuf_call5_v10, toBuf_v96, ofBuf_v96]
  rfl
theorem E4_call5_v5 (V : Valuation τ sig (Elt Ideal)) :
    after opsE4 V (Proc.devRef .tc main_call5_v5) = V (Proc.devRef .tc main_call5_v5) := by
  after_results_simp
theorem E5_v7 (V : Valuation τ sig (Elt Ideal)) :
    after opsE5 V (Proc.devRef .tc main_call5_v7) = lsmSum (V (Proc.devRef .tc main_call5_v6)) := by
  after_results_simp
  simp only [toBuf_v95, ofBuf_v95, toBuf_call5_cst, ofBuf_call5_cst, toBuf_call5_v0, ofBuf_call5_v0, toBuf_call5_cst_0, ofBuf_call5_cst_0, toBuf_call5_v1, ofBuf_call5_v1, toBuf_call5_v2, ofBuf_call5_v2, toBuf_call5_v3, ofBuf_call5_v3, toBuf_call5_v4, ofBuf_call5_v4, toBuf_call5_v5, ofBuf_call5_v5, toBuf_call5_v6, ofBuf_call5_v6, toBuf_call5_cst_1, ofBuf_call5_cst_1, toBuf_call5_v7, ofBuf_call5_v7, toBuf_call5_v8, ofBuf_call5_v8, toBuf_call5_v9, ofBuf_call5_v9, toBuf_call5_v10, ofBuf_call5_v10, toBuf_v96, ofBuf_v96]
  rfl
theorem E5_call5_v5 (V : Valuation τ sig (Elt Ideal)) :
    after opsE5 V (Proc.devRef .tc main_call5_v5) = V (Proc.devRef .tc main_call5_v5) := by
  after_results_simp
theorem E6_v96 (V : Valuation τ sig (Elt Ideal)) :
    after opsE6 V (Proc.devRef .tc main_v96) = lsmTail (V (Proc.devRef .tc main_call5_v5)) (V (Proc.devRef .tc main_call5_v7)) := by
  after_results_simp
  simp only [toBuf_v95, ofBuf_v95, toBuf_call5_cst, ofBuf_call5_cst, toBuf_call5_v0, ofBuf_call5_v0, toBuf_call5_cst_0, ofBuf_call5_cst_0, toBuf_call5_v1, ofBuf_call5_v1, toBuf_call5_v2, ofBuf_call5_v2, toBuf_call5_v3, ofBuf_call5_v3, toBuf_call5_v4, ofBuf_call5_v4, toBuf_call5_v5, ofBuf_call5_v5, toBuf_call5_v6, ofBuf_call5_v6, toBuf_call5_cst_1, ofBuf_call5_cst_1, toBuf_call5_v7, ofBuf_call5_v7, toBuf_call5_v8, ofBuf_call5_v8, toBuf_call5_v9, ofBuf_call5_v9, toBuf_call5_v10, ofBuf_call5_v10, toBuf_v96, ofBuf_v96]
  rfl

/-! ## What each piece keeps -/

set_option maxHeartbeats 1000000 in
theorem A1_arg5 (V : Valuation τ sig (Elt Ideal)) :
    after opsA1 V (Proc.devRef .tc main_arg5) = V (Proc.devRef .tc main_arg5) := by
  after_results_simp
set_option maxHeartbeats 1000000 in
theorem A1_arg6 (V : Valuation τ sig (Elt Ideal)) :
    after opsA1 V (Proc.devRef .tc main_arg6) = V (Proc.devRef .tc main_arg6) := by
  after_results_simp
set_option maxHeartbeats 1000000 in
theorem A1_arg7 (V : Valuation τ sig (Elt Ideal)) :
    after opsA1 V (Proc.devRef .tc main_arg7) = V (Proc.devRef .tc main_arg7) := by
  after_results_simp
set_option maxHeartbeats 1000000 in
theorem A1_arg8 (V : Valuation τ sig (Elt Ideal)) :
    after opsA1 V (Proc.devRef .tc main_arg8) = V (Proc.devRef .tc main_arg8) := by
  after_results_simp
set_option maxHeartbeats 1000000 in
theorem A1_arg9 (V : Valuation τ sig (Elt Ideal)) :
    after opsA1 V (Proc.devRef .tc main_arg9) = V (Proc.devRef .tc main_arg9) := by
  after_results_simp
set_option maxHeartbeats 1000000 in
theorem A1_arg10 (V : Valuation τ sig (Elt Ideal)) :
    after opsA1 V (Proc.devRef .tc main_arg10) = V (Proc.devRef .tc main_arg10) := by
  after_results_simp
set_option maxHeartbeats 1000000 in
theorem A1_arg11 (V : Valuation τ sig (Elt Ideal)) :
    after opsA1 V (Proc.devRef .tc main_arg11) = V (Proc.devRef .tc main_arg11) := by
  after_results_simp
set_option maxHeartbeats 1000000 in
theorem A1_arg12 (V : Valuation τ sig (Elt Ideal)) :
    after opsA1 V (Proc.devRef .tc main_arg12) = V (Proc.devRef .tc main_arg12) := by
  after_results_simp
set_option maxHeartbeats 1000000 in
theorem A1_arg13 (V : Valuation τ sig (Elt Ideal)) :
    after opsA1 V (Proc.devRef .tc main_arg13) = V (Proc.devRef .tc main_arg13) := by
  after_results_simp
set_option maxHeartbeats 1000000 in
theorem A1_arg14 (V : Valuation τ sig (Elt Ideal)) :
    after opsA1 V (Proc.devRef .tc main_arg14) = V (Proc.devRef .tc main_arg14) := by
  after_results_simp
set_option maxHeartbeats 1000000 in
theorem A1_arg15 (V : Valuation τ sig (Elt Ideal)) :
    after opsA1 V (Proc.devRef .tc main_arg15) = V (Proc.devRef .tc main_arg15) := by
  after_results_simp
set_option maxHeartbeats 1000000 in
theorem A1_arg16 (V : Valuation τ sig (Elt Ideal)) :
    after opsA1 V (Proc.devRef .tc main_arg16) = V (Proc.devRef .tc main_arg16) := by
  after_results_simp
set_option maxHeartbeats 1000000 in
theorem A2_v1 (V : Valuation τ sig (Elt Ideal)) :
    after opsA2 V (Proc.devRef .tc main_v1) = V (Proc.devRef .tc main_v1) := by
  after_results_simp
set_option maxHeartbeats 1000000 in
theorem A2_v3 (V : Valuation τ sig (Elt Ideal)) :
    after opsA2 V (Proc.devRef .tc main_v3) = V (Proc.devRef .tc main_v3) := by
  after_results_simp
set_option maxHeartbeats 1000000 in
theorem A2_arg5 (V : Valuation τ sig (Elt Ideal)) :
    after opsA2 V (Proc.devRef .tc main_arg5) = V (Proc.devRef .tc main_arg5) := by
  after_results_simp
set_option maxHeartbeats 1000000 in
theorem A2_arg6 (V : Valuation τ sig (Elt Ideal)) :
    after opsA2 V (Proc.devRef .tc main_arg6) = V (Proc.devRef .tc main_arg6) := by
  after_results_simp
set_option maxHeartbeats 1000000 in
theorem A2_arg7 (V : Valuation τ sig (Elt Ideal)) :
    after opsA2 V (Proc.devRef .tc main_arg7) = V (Proc.devRef .tc main_arg7) := by
  after_results_simp
set_option maxHeartbeats 1000000 in
theorem A2_arg8 (V : Valuation τ sig (Elt Ideal)) :
    after opsA2 V (Proc.devRef .tc main_arg8) = V (Proc.devRef .tc main_arg8) := by
  after_results_simp
set_option maxHeartbeats 1000000 in
theorem A2_arg9 (V : Valuation τ sig (Elt Ideal)) :
    after opsA2 V (Proc.devRef .tc main_arg9) = V (Proc.devRef .tc main_arg9) := by
  after_results_simp
set_option maxHeartbeats 1000000 in
theorem A2_arg10 (V : Valuation τ sig (Elt Ideal)) :
    after opsA2 V (Proc.devRef .tc main_arg10) = V (Proc.devRef .tc main_arg10) := by
  after_results_simp
set_option maxHeartbeats 1000000 in
theorem A2_arg11 (V : Valuation τ sig (Elt Ideal)) :
    after opsA2 V (Proc.devRef .tc main_arg11) = V (Proc.devRef .tc main_arg11) := by
  after_results_simp
set_option maxHeartbeats 1000000 in
theorem A2_arg12 (V : Valuation τ sig (Elt Ideal)) :
    after opsA2 V (Proc.devRef .tc main_arg12) = V (Proc.devRef .tc main_arg12) := by
  after_results_simp
set_option maxHeartbeats 1000000 in
theorem A2_arg13 (V : Valuation τ sig (Elt Ideal)) :
    after opsA2 V (Proc.devRef .tc main_arg13) = V (Proc.devRef .tc main_arg13) := by
  after_results_simp
set_option maxHeartbeats 1000000 in
theorem A2_arg14 (V : Valuation τ sig (Elt Ideal)) :
    after opsA2 V (Proc.devRef .tc main_arg14) = V (Proc.devRef .tc main_arg14) := by
  after_results_simp
set_option maxHeartbeats 1000000 in
theorem A2_arg15 (V : Valuation τ sig (Elt Ideal)) :
    after opsA2 V (Proc.devRef .tc main_arg15) = V (Proc.devRef .tc main_arg15) := by
  after_results_simp
set_option maxHeartbeats 1000000 in
theorem A2_arg16 (V : Valuation τ sig (Elt Ideal)) :
    after opsA2 V (Proc.devRef .tc main_arg16) = V (Proc.devRef .tc main_arg16) := by
  after_results_simp
set_option maxHeartbeats 1000000 in
theorem B1_v1 (V : Valuation τ sig (Elt Ideal)) :
    after opsB1 V (Proc.devRef .tc main_v1) = V (Proc.devRef .tc main_v1) := by
  after_results_simp
set_option maxHeartbeats 1000000 in
theorem B1_v3 (V : Valuation τ sig (Elt Ideal)) :
    after opsB1 V (Proc.devRef .tc main_v3) = V (Proc.devRef .tc main_v3) := by
  after_results_simp
set_option maxHeartbeats 1000000 in
theorem B1_arg8 (V : Valuation τ sig (Elt Ideal)) :
    after opsB1 V (Proc.devRef .tc main_arg8) = V (Proc.devRef .tc main_arg8) := by
  after_results_simp
set_option maxHeartbeats 1000000 in
theorem B1_arg9 (V : Valuation τ sig (Elt Ideal)) :
    after opsB1 V (Proc.devRef .tc main_arg9) = V (Proc.devRef .tc main_arg9) := by
  after_results_simp
set_option maxHeartbeats 1000000 in
theorem B1_arg10 (V : Valuation τ sig (Elt Ideal)) :
    after opsB1 V (Proc.devRef .tc main_arg10) = V (Proc.devRef .tc main_arg10) := by
  after_results_simp
set_option maxHeartbeats 1000000 in
theorem B1_arg11 (V : Valuation τ sig (Elt Ideal)) :
    after opsB1 V (Proc.devRef .tc main_arg11) = V (Proc.devRef .tc main_arg11) := by
  after_results_simp
set_option maxHeartbeats 1000000 in
theorem B1_arg12 (V : Valuation τ sig (Elt Ideal)) :
    after opsB1 V (Proc.devRef .tc main_arg12) = V (Proc.devRef .tc main_arg12) := by
  after_results_simp
set_option maxHeartbeats 1000000 in
theorem B1_arg13 (V : Valuation τ sig (Elt Ideal)) :
    after opsB1 V (Proc.devRef .tc main_arg13) = V (Proc.devRef .tc main_arg13) := by
  after_results_simp
set_option maxHeartbeats 1000000 in
theorem B1_arg14 (V : Valuation τ sig (Elt Ideal)) :
    after opsB1 V (Proc.devRef .tc main_arg14) = V (Proc.devRef .tc main_arg14) := by
  after_results_simp
set_option maxHeartbeats 1000000 in
theorem B1_arg15 (V : Valuation τ sig (Elt Ideal)) :
    after opsB1 V (Proc.devRef .tc main_arg15) = V (Proc.devRef .tc main_arg15) := by
  after_results_simp
set_option maxHeartbeats 1000000 in
theorem B1_arg16 (V : Valuation τ sig (Elt Ideal)) :
    after opsB1 V (Proc.devRef .tc main_arg16) = V (Proc.devRef .tc main_arg16) := by
  after_results_simp
set_option maxHeartbeats 1000000 in
theorem B2_v1 (V : Valuation τ sig (Elt Ideal)) :
    after opsB2 V (Proc.devRef .tc main_v1) = V (Proc.devRef .tc main_v1) := by
  after_results_simp
set_option maxHeartbeats 1000000 in
theorem B2_v3 (V : Valuation τ sig (Elt Ideal)) :
    after opsB2 V (Proc.devRef .tc main_v3) = V (Proc.devRef .tc main_v3) := by
  after_results_simp
set_option maxHeartbeats 1000000 in
theorem B2_arg8 (V : Valuation τ sig (Elt Ideal)) :
    after opsB2 V (Proc.devRef .tc main_arg8) = V (Proc.devRef .tc main_arg8) := by
  after_results_simp
set_option maxHeartbeats 1000000 in
theorem B2_arg9 (V : Valuation τ sig (Elt Ideal)) :
    after opsB2 V (Proc.devRef .tc main_arg9) = V (Proc.devRef .tc main_arg9) := by
  after_results_simp
set_option maxHeartbeats 1000000 in
theorem B2_arg10 (V : Valuation τ sig (Elt Ideal)) :
    after opsB2 V (Proc.devRef .tc main_arg10) = V (Proc.devRef .tc main_arg10) := by
  after_results_simp
set_option maxHeartbeats 1000000 in
theorem B2_arg11 (V : Valuation τ sig (Elt Ideal)) :
    after opsB2 V (Proc.devRef .tc main_arg11) = V (Proc.devRef .tc main_arg11) := by
  after_results_simp
set_option maxHeartbeats 1000000 in
theorem B2_arg12 (V : Valuation τ sig (Elt Ideal)) :
    after opsB2 V (Proc.devRef .tc main_arg12) = V (Proc.devRef .tc main_arg12) := by
  after_results_simp
set_option maxHeartbeats 1000000 in
theorem B2_arg13 (V : Valuation τ sig (Elt Ideal)) :
    after opsB2 V (Proc.devRef .tc main_arg13) = V (Proc.devRef .tc main_arg13) := by
  after_results_simp
set_option maxHeartbeats 1000000 in
theorem B2_arg14 (V : Valuation τ sig (Elt Ideal)) :
    after opsB2 V (Proc.devRef .tc main_arg14) = V (Proc.devRef .tc main_arg14) := by
  after_results_simp
set_option maxHeartbeats 1000000 in
theorem B2_arg15 (V : Valuation τ sig (Elt Ideal)) :
    after opsB2 V (Proc.devRef .tc main_arg15) = V (Proc.devRef .tc main_arg15) := by
  after_results_simp
set_option maxHeartbeats 1000000 in
theorem B2_arg16 (V : Valuation τ sig (Elt Ideal)) :
    after opsB2 V (Proc.devRef .tc main_arg16) = V (Proc.devRef .tc main_arg16) := by
  after_results_simp
set_option maxHeartbeats 1000000 in
theorem C1_arg11 (V : Valuation τ sig (Elt Ideal)) :
    after opsC1 V (Proc.devRef .tc main_arg11) = V (Proc.devRef .tc main_arg11) := by
  after_results_simp
set_option maxHeartbeats 1000000 in
theorem C1_arg12 (V : Valuation τ sig (Elt Ideal)) :
    after opsC1 V (Proc.devRef .tc main_arg12) = V (Proc.devRef .tc main_arg12) := by
  after_results_simp
set_option maxHeartbeats 1000000 in
theorem C1_arg13 (V : Valuation τ sig (Elt Ideal)) :
    after opsC1 V (Proc.devRef .tc main_arg13) = V (Proc.devRef .tc main_arg13) := by
  after_results_simp
set_option maxHeartbeats 1000000 in
theorem C1_arg14 (V : Valuation τ sig (Elt Ideal)) :
    after opsC1 V (Proc.devRef .tc main_arg14) = V (Proc.devRef .tc main_arg14) := by
  after_results_simp
set_option maxHeartbeats 1000000 in
theorem C1_arg15 (V : Valuation τ sig (Elt Ideal)) :
    after opsC1 V (Proc.devRef .tc main_arg15) = V (Proc.devRef .tc main_arg15) := by
  after_results_simp
set_option maxHeartbeats 1000000 in
theorem C1_arg16 (V : Valuation τ sig (Elt Ideal)) :
    after opsC1 V (Proc.devRef .tc main_arg16) = V (Proc.devRef .tc main_arg16) := by
  after_results_simp
set_option maxHeartbeats 1000000 in
theorem C2_arg11 (V : Valuation τ sig (Elt Ideal)) :
    after opsC2 V (Proc.devRef .tc main_arg11) = V (Proc.devRef .tc main_arg11) := by
  after_results_simp
set_option maxHeartbeats 1000000 in
theorem C2_arg12 (V : Valuation τ sig (Elt Ideal)) :
    after opsC2 V (Proc.devRef .tc main_arg12) = V (Proc.devRef .tc main_arg12) := by
  after_results_simp
set_option maxHeartbeats 1000000 in
theorem C2_arg13 (V : Valuation τ sig (Elt Ideal)) :
    after opsC2 V (Proc.devRef .tc main_arg13) = V (Proc.devRef .tc main_arg13) := by
  after_results_simp
set_option maxHeartbeats 1000000 in
theorem C2_arg14 (V : Valuation τ sig (Elt Ideal)) :
    after opsC2 V (Proc.devRef .tc main_arg14) = V (Proc.devRef .tc main_arg14) := by
  after_results_simp
set_option maxHeartbeats 1000000 in
theorem C2_arg15 (V : Valuation τ sig (Elt Ideal)) :
    after opsC2 V (Proc.devRef .tc main_arg15) = V (Proc.devRef .tc main_arg15) := by
  after_results_simp
set_option maxHeartbeats 1000000 in
theorem C2_arg16 (V : Valuation τ sig (Elt Ideal)) :
    after opsC2 V (Proc.devRef .tc main_arg16) = V (Proc.devRef .tc main_arg16) := by
  after_results_simp
set_option maxHeartbeats 1000000 in
theorem D1_arg13 (V : Valuation τ sig (Elt Ideal)) :
    after opsD1 V (Proc.devRef .tc main_arg13) = V (Proc.devRef .tc main_arg13) := by
  after_results_simp
set_option maxHeartbeats 1000000 in
theorem D1_arg14 (V : Valuation τ sig (Elt Ideal)) :
    after opsD1 V (Proc.devRef .tc main_arg14) = V (Proc.devRef .tc main_arg14) := by
  after_results_simp
set_option maxHeartbeats 1000000 in
theorem D1_arg15 (V : Valuation τ sig (Elt Ideal)) :
    after opsD1 V (Proc.devRef .tc main_arg15) = V (Proc.devRef .tc main_arg15) := by
  after_results_simp
set_option maxHeartbeats 1000000 in
theorem D1_arg16 (V : Valuation τ sig (Elt Ideal)) :
    after opsD1 V (Proc.devRef .tc main_arg16) = V (Proc.devRef .tc main_arg16) := by
  after_results_simp
set_option maxHeartbeats 1000000 in
theorem D2_arg13 (V : Valuation τ sig (Elt Ideal)) :
    after opsD2 V (Proc.devRef .tc main_arg13) = V (Proc.devRef .tc main_arg13) := by
  after_results_simp
set_option maxHeartbeats 1000000 in
theorem D2_arg14 (V : Valuation τ sig (Elt Ideal)) :
    after opsD2 V (Proc.devRef .tc main_arg14) = V (Proc.devRef .tc main_arg14) := by
  after_results_simp
set_option maxHeartbeats 1000000 in
theorem D2_arg15 (V : Valuation τ sig (Elt Ideal)) :
    after opsD2 V (Proc.devRef .tc main_arg15) = V (Proc.devRef .tc main_arg15) := by
  after_results_simp
set_option maxHeartbeats 1000000 in
theorem D2_arg16 (V : Valuation τ sig (Elt Ideal)) :
    after opsD2 V (Proc.devRef .tc main_arg16) = V (Proc.devRef .tc main_arg16) := by
  after_results_simp
set_option maxHeartbeats 1000000 in
theorem D3_arg15 (V : Valuation τ sig (Elt Ideal)) :
    after opsD3 V (Proc.devRef .tc main_arg15) = V (Proc.devRef .tc main_arg15) := by
  after_results_simp
set_option maxHeartbeats 1000000 in
theorem D3_arg16 (V : Valuation τ sig (Elt Ideal)) :
    after opsD3 V (Proc.devRef .tc main_arg16) = V (Proc.devRef .tc main_arg16) := by
  after_results_simp
set_option maxHeartbeats 1000000 in
theorem D4_arg15 (V : Valuation τ sig (Elt Ideal)) :
    after opsD4 V (Proc.devRef .tc main_arg15) = V (Proc.devRef .tc main_arg15) := by
  after_results_simp
set_option maxHeartbeats 1000000 in
theorem D4_arg16 (V : Valuation τ sig (Elt Ideal)) :
    after opsD4 V (Proc.devRef .tc main_arg16) = V (Proc.devRef .tc main_arg16) := by
  after_results_simp

end Cert.ReferenceIdeal.Chain

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LibHostRowSum.lean ====
/-
  The host's sum over the second axis of an [a, b] array, read at a row.

  `stablehlo.reduce` with an `add` body over axis 1, at the ideal values, holds at row r the initial value plus the sum
  over the row's entries: the reduced index r with the dropped coordinate k put back is (r, k). No finiteness is asked:
  this is how the exact sum is defined, with the summation index renamed.
-/
import Idealize.ShloMosaic.Lib.Pipeline.Value
import Idealize.ShloMosaic.Lib.ValueIdx
import Idealize.ShloMosaic.PureOps.Ideal.Laws

noncomputable section

open scoped BigOperators

namespace Cert.HostRowSum

open Idealize.ShloMosaic Idealize.ShloMosaic.ValueIdx

/-- The reduced index r with the second-axis coordinate k put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A shape fact of the host's reduction names the inserted index as well. -/
theorem reduces_of_reducesTo {a b : ℕ} (h' : (⟨2, ![a, b]⟩ : Shape).ReducesTo [1] (⟨1, ![a]⟩ : Shape)) :
    (⟨2, ![a, b]⟩ : Shape).Reduces [1] (⟨1, ![a]⟩ : Shape) :=
  let ⟨hr, hs⟩ := h'; ⟨hr, Nat.one_pos, hs⟩

/-- The host's sum over the second axis, at row r: the initial value plus the sum over the row. -/
theorem hostRowSum_apply {a b : ℕ} (src : (⟨2, ![a, b]⟩ : Shape).Idx → EReal) (init : EReal)
    (h' : (⟨2, ![a, b]⟩ : Shape).ReducesTo [1] (⟨1, ![a]⟩ : Shape)) (r : Fin a) :
    Ideal.hostReduceAdd h' src init (ix1 r) = init + ∑ k : Fin b, src (ix2 r k) :=
  (Ideal.hostReduceAdd_single h' (reduces_of_reducesTo h') src init (ix1 r)).trans
    (congrArg (init + ·) (Finset.sum_congr rfl fun k _ => congrArg src (lift_row (reduces_of_reducesTo h') r k)))

/-- With the zero word as the initial value: the sum over the row. -/
theorem hostRowSum_zero_apply {a b : ℕ} (src : (⟨2, ![a, b]⟩ : Shape).Idx → EReal)
    (h' : (⟨2, ![a, b]⟩ : Shape).ReducesTo [1] (⟨1, ![a]⟩ : Shape)) (r : Fin a) :
    Ideal.hostReduceAdd h' src (Ideal.ofBits .f32 0x00000000#32) (ix1 r) = ∑ k : Fin b, src (ix2 r k) := by
  rw [hostRowSum_apply, Ideal.ofBits_zero_f32, zero_add]

end Cert.HostRowSum

end
-- ==== Proof.LibSageHostRows.lean ====
/-
  The host program's spelling of the graph layer and of the log-softmax, read one row at a time.

  The host works on all R rows at once with whole-array operations: a quotient by the per-node count broadcast along
  the lanes, `dot_general`, a bias broadcast to every row, a maximum with a zero broadcast; for the log-softmax a
  reduction over the lanes with a maximum body from −∞ (and once more a maximum with −∞), kept as a column, and a sum
  of exponentials kept as a column. Each acts inside a row, so row p of the result is LibSage.lean's function of the
  operand rows p.
-/
import proofs.«163056_j1254130451160_2_alg».proof.Proof.LibSage
import proofs.«163056_j1254130451160_2_alg».proof.Proof.LibColumnInDim
import proofs.«163056_j1254130451160_2_alg».proof.Proof.LibKeepdims
import proofs.«163056_j1254130451160_2_alg».proof.Proof.LibHostRowSum
import Idealize.ShloMosaic.PureOps.Reduce

noncomputable section

open scoped BigOperators

namespace Cert.HostRows

open Idealize.ShloMosaic Idealize.ShloMosaic.ValueIdx Cert.DenseRows Cert.Sage

variable {R K N : Nat}

/-- The graph layer in the host's spelling: row p is the layer of the operand rows p and node p's count. -/
theorem row_sage_host (D : DotDims ⟨2, ![R, K]⟩ ⟨2, ![K, N]⟩ ⟨2, ![R, N]⟩) (hD : D = DotDims.plain R K N) (hN : N ≠ 1)
    (S X : FVec Ideal ⟨2, ![R, K]⟩ .f32) (dm : FVec Ideal ⟨1, ![R]⟩ .f32) (Wl Wr : FVec Ideal ⟨2, ![K, N]⟩ .f32)
    (b : FVec Ideal ⟨1, ![N]⟩ .f32)
    (h0 : (⟨1, ![R]⟩ : Shape).BroadcastsInDim ⟨2, ![R, 1]⟩ (![0] : Fin 1 → Fin 2))
    (h1 : (⟨2, ![R, 1]⟩ : Shape).BroadcastsInDim ⟨2, ![R, K]⟩ (![0, 1] : Fin 2 → Fin 2))
    (h2 : (⟨1, ![N]⟩ : Shape).BroadcastsInDim ⟨2, ![1, N]⟩ (![1] : Fin 1 → Fin 2))
    (h3 : (⟨2, ![1, N]⟩ : Shape).BroadcastsInDim ⟨2, ![R, N]⟩ (![0, 1] : Fin 2 → Fin 2))
    (h4 : (⟨0, ![]⟩ : Shape).BroadcastsInDim ⟨2, ![R, N]⟩ (![] : Fin 0 → Fin 2)) (p : Fin R) :
    row (maximumf (addf (addf
          (Host.dotGeneral D none (Host.divf S (broadcastInDim ⟨2, ![R, K]⟩ ![0, 1] h1 (broadcastInDim ⟨2, ![R, 1]⟩ ![0] h0 dm))) Wl)
          (broadcastInDim ⟨2, ![R, N]⟩ ![0, 1] h3 (broadcastInDim ⟨2, ![1, N]⟩ ![1] h2 b)))
          (Host.dotGeneral D none X Wr))
        (broadcastInDim ⟨2, ![R, N]⟩ ![] h4 (constant (F := Ideal) ⟨0, ![]⟩ .f32 0x00000000#32))) p
      = sageRow (row S p) (row X p) (dm (ix1 p)) (mat Wl) (mat Wr) (vec b) := by
  rw [row_relu_host]
  unfold sageRow
  refine congrArg relu ?_
  funext c
  have e1 := congrFun (row_dot_bias D hD hN none
    (Host.divf S (broadcastInDim ⟨2, ![R, K]⟩ ![0, 1] h1 (broadcastInDim ⟨2, ![R, 1]⟩ ![0] h0 dm))) Wl b h2 h3 p) c
  have e2 := congrFun (row_dot D hD none X Wr p) c
  have e3 : row (Host.divf S (broadcastInDim ⟨2, ![R, K]⟩ ![0, 1] h1 (broadcastInDim ⟨2, ![R, 1]⟩ ![0] h0 dm))) p
      = fun k => Ideal.div (row S p k) (dm (ix1 p)) := by
    funext k
    show Ideal.div (S (ix2 p k)) (broadcastInDim ⟨2, ![R, K]⟩ ![0, 1] h1 (broadcastInDim ⟨2, ![R, 1]⟩ ![0] h0 dm) (ix2 p k)) = _
    rw [ColumnInDim.broadcastInDim_lanes, ColumnInDim.broadcastInDim_column]
    rfl
  rw [e3] at e1
  exact (congrArg₂ (· + ·) e1 e2)

/-- An affine map then relu in the host's spelling: row p. -/
theorem row_affine_relu_host (D : DotDims ⟨2, ![R, K]⟩ ⟨2, ![K, N]⟩ ⟨2, ![R, N]⟩) (hD : D = DotDims.plain R K N) (hN : N ≠ 1)
    (X : FVec Ideal ⟨2, ![R, K]⟩ .f32) (W : FVec Ideal ⟨2, ![K, N]⟩ .f32) (b : FVec Ideal ⟨1, ![N]⟩ .f32)
    (h2 : (⟨1, ![N]⟩ : Shape).BroadcastsInDim ⟨2, ![1, N]⟩ (![1] : Fin 1 → Fin 2))
    (h3 : (⟨2, ![1, N]⟩ : Shape).BroadcastsInDim ⟨2, ![R, N]⟩ (![0, 1] : Fin 2 → Fin 2))
    (h4 : (⟨0, ![]⟩ : Shape).BroadcastsInDim ⟨2, ![R, N]⟩ (![] : Fin 0 → Fin 2)) (p : Fin R) :
    row (maximumf (addf (Host.dotGeneral D none X W)
          (broadcastInDim ⟨2, ![R, N]⟩ ![0, 1] h3 (broadcastInDim ⟨2, ![1, N]⟩ ![1] h2 b)))
        (broadcastInDim ⟨2, ![R, N]⟩ ![] h4 (constant (F := Ideal) ⟨0, ![]⟩ .f32 0x00000000#32))) p
      = relu (lin (row X p) (mat W) (vec b)) := by
  rw [row_relu_host, row_dot_bias D hD hN]

/-- The host's maximum over the lanes from −∞, at row p: the row's largest entry. -/
theorem hostRowMax_apply (a : FVec Ideal ⟨2, ![R, N]⟩ .f32) (h' : (⟨2, ![R, N]⟩ : Shape).ReducesTo [1] (⟨1, ![R]⟩ : Shape))
    (hu : 0 < (⟨0, ![]⟩ : Shape).numel) (p : Fin R) :
    Host.reduce FloatOps.maximumf a (constant (F := Ideal) ⟨0, ![]⟩ .f32 0xFF800000#32) h' hu (ix1 p) = rowMax (row a p) := by
  rw [Host.reduce_eq_fold_single FloatOps.maximumf a _ h' (HostRowSum.reduces_of_reducesTo h') hu]
  have e : (a ∘ (HostRowSum.reduces_of_reducesTo h').lift (ix1 p)) = fun k : Fin N => a (ix2 p k) := by
    funext k
    exact congrArg a (HostRowSum.lift_row (HostRowSum.reduces_of_reducesTo h') p k)
  rw [e]
  rfl

/-- The log-softmax in the host's spelling: row p is the log-softmax of row p. -/
theorem row_lsm_host (a : FVec Ideal ⟨2, ![R, N]⟩ .f32) (h' : (⟨2, ![R, N]⟩ : Shape).ReducesTo [1] (⟨1, ![R]⟩ : Shape))
    (hu : 0 < (⟨0, ![]⟩ : Shape).numel)
    (hb : (⟨0, ![]⟩ : Shape).BroadcastsInDim ⟨1, ![R]⟩ (![] : Fin 0 → Fin 1))
    (h0 : (⟨1, ![R]⟩ : Shape).BroadcastsInDim ⟨2, ![R, 1]⟩ (![0] : Fin 1 → Fin 2))
    (h1 : (⟨2, ![R, 1]⟩ : Shape).BroadcastsInDim ⟨2, ![R, N]⟩ (![0, 1] : Fin 2 → Fin 2)) (p : Fin R) :
    row (subf (subf a (broadcastInDim ⟨2, ![R, N]⟩ ![0, 1] h1 (broadcastInDim ⟨2, ![R, 1]⟩ ![0] h0
            (maximumf (broadcastInDim ⟨1, ![R]⟩ ![] hb (constant (F := Ideal) ⟨0, ![]⟩ .f32 0xFF800000#32))
              (Host.reduce FloatOps.maximumf a (constant (F := Ideal) ⟨0, ![]⟩ .f32 0xFF800000#32) h' hu)))))
          (broadcastInDim ⟨2, ![R, N]⟩ ![0, 1] h1 (Host.log (broadcastInDim ⟨2, ![R, 1]⟩ ![0] h0
            (Host.reduceAdd (Host.exp (subf a (broadcastInDim ⟨2, ![R, N]⟩ ![0, 1] h1 (broadcastInDim ⟨2, ![R, 1]⟩ ![0] h0
              (maximumf (broadcastInDim ⟨1, ![R]⟩ ![] hb (constant (F := Ideal) ⟨0, ![]⟩ .f32 0xFF800000#32))
                (Host.reduce FloatOps.maximumf a (constant (F := Ideal) ⟨0, ![]⟩ .f32 0xFF800000#32) h' hu))))))
              (constant (F := Ideal) ⟨0, ![]⟩ .f32 0x00000000#32) h' hu))))) p
      = lsmRow (row a p) := by
  have eM : ∀ k : Fin N, broadcastInDim ⟨2, ![R, N]⟩ ![0, 1] h1 (broadcastInDim ⟨2, ![R, 1]⟩ ![0] h0
        (maximumf (broadcastInDim ⟨1, ![R]⟩ ![] hb (constant (F := Ideal) ⟨0, ![]⟩ .f32 0xFF800000#32))
          (Host.reduce FloatOps.maximumf a (constant (F := Ideal) ⟨0, ![]⟩ .f32 0xFF800000#32) h' hu))) (ix2 p k)
      = rowMax (row a p) := fun k => by
    rw [ColumnInDim.broadcastInDim_lanes, ColumnInDim.broadcastInDim_column]
    show max (broadcastInDim ⟨1, ![R]⟩ ![] hb (constant (F := Ideal) ⟨0, ![]⟩ .f32 0xFF800000#32) (ix1 p))
      (Host.reduce FloatOps.maximumf a (constant (F := Ideal) ⟨0, ![]⟩ .f32 0xFF800000#32) h' hu (ix1 p)) = _
    rw [hostRowMax_apply, broadcastInDim_apply _ hb _ (ix1 p) ix0 (fun ax => ax.elim0)]
    exact Keepdims.max_fold_max_self _ _ _
  funext c
  show (a (ix2 p c) - broadcastInDim ⟨2, ![R, N]⟩ ![0, 1] h1 (broadcastInDim ⟨2, ![R, 1]⟩ ![0] h0
        (maximumf (broadcastInDim ⟨1, ![R]⟩ ![] hb (constant (F := Ideal) ⟨0, ![]⟩ .f32 0xFF800000#32))
          (Host.reduce FloatOps.maximumf a (constant (F := Ideal) ⟨0, ![]⟩ .f32 0xFF800000#32) h' hu))) (ix2 p c))
      - broadcastInDim ⟨2, ![R, N]⟩ ![0, 1] h1 (Host.log (broadcastInDim ⟨2, ![R, 1]⟩ ![0] h0
            (Host.reduceAdd (Host.exp (subf a (broadcastInDim ⟨2, ![R, N]⟩ ![0, 1] h1 (broadcastInDim ⟨2, ![R, 1]⟩ ![0] h0
              (maximumf (broadcastInDim ⟨1, ![R]⟩ ![] hb (constant (F := Ideal) ⟨0, ![]⟩ .f32 0xFF800000#32))
                (Host.reduce FloatOps.maximumf a (constant (F := Ideal) ⟨0, ![]⟩ .f32 0xFF800000#32) h' hu))))))
              (constant (F := Ideal) ⟨0, ![]⟩ .f32 0x00000000#32) h' hu))) (ix2 p c) = _
  rw [eM c, ColumnInDim.broadcastInDim_lanes]
  show (a (ix2 p c) - rowMax (row a p)) - Ideal.log (broadcastInDim ⟨2, ![R, 1]⟩ ![0] h0
            (Host.reduceAdd (Host.exp (subf a (broadcastInDim ⟨2, ![R, N]⟩ ![0, 1] h1 (broadcastInDim ⟨2, ![R, 1]⟩ ![0] h0
              (maximumf (broadcastInDim ⟨1, ![R]⟩ ![] hb (constant (F := Ideal) ⟨0, ![]⟩ .f32 0xFF800000#32))
                (Host.reduce FloatOps.maximumf a (constant (F := Ideal) ⟨0, ![]⟩ .f32 0xFF800000#32) h' hu))))))
              (constant (F := Ideal) ⟨0, ![]⟩ .f32 0x00000000#32) h' hu) (ix2 p 0)) = _
  rw [ColumnInDim.broadcastInDim_column]
  show (a (ix2 p c) - rowMax (row a p)) - Ideal.log (Ideal.hostReduceAdd h'
      (Host.exp (subf a (broadcastInDim ⟨2, ![R, N]⟩ ![0, 1] h1 (broadcastInDim ⟨2, ![R, 1]⟩ ![0] h0
              (maximumf (broadcastInDim ⟨1, ![R]⟩ ![] hb (constant (F := Ideal) ⟨0, ![]⟩ .f32 0xFF800000#32))
                (Host.reduce FloatOps.maximumf a (constant (F := Ideal) ⟨0, ![]⟩ .f32 0xFF800000#32) h' hu))))))
      (Ideal.ofBits .f32 0x00000000#32) (ix1 p)) = _
  rw [HostRowSum.hostRowSum_zero_apply]
  have eS : ∀ k : Fin N, Host.exp (subf a (broadcastInDim ⟨2, ![R, N]⟩ ![0, 1] h1 (broadcastInDim ⟨2, ![R, 1]⟩ ![0] h0
              (maximumf (broadcastInDim ⟨1, ![R]⟩ ![] hb (constant (F := Ideal) ⟨0, ![]⟩ .f32 0xFF800000#32))
                (Host.reduce FloatOps.maximumf a (constant (F := Ideal) ⟨0, ![]⟩ .f32 0xFF800000#32) h' hu))))) (ix2 p k)
      = Ideal.exp (row a p k - rowMax (row a p)) := fun k => by
    show Ideal.exp (a (ix2 p k) - _) = _
    rw [eM k]
    rfl
  simp only [eS]
  rfl

end Cert.HostRows

end
-- ==== Proof.RNet.lean ====
/-
  The reference's result is the network.

  Each layer of the reference is a quotient by the counts, two `dot_general`s, a bias and a relu over whole arrays;
  row by row that is the graph layer of the operand rows. The head's three affine maps with their relus and the
  log-softmax are, row by row, the head of the row. So the reference's result buffer, read from the launch memory
  through the pieces of its operation list, is the network of the launch memory's arrays.
-/
import proofs.«163056_j1254130451160_2_alg».proof.Proof.RefChain
import proofs.«163056_j1254130451160_2_alg».proof.Proof.LibSageNet
import proofs.«163056_j1254130451160_2_alg».proof.Proof.LibSageHostRows

noncomputable section

namespace Cert.ReferenceIdeal.Chain

open Cert.ReferenceIdeal Cert.ReferenceIdeal.Gen Cert.ReferenceIdeal.Value Cert.ReferenceIdeal.Pieces
open Idealize.ShloMosaic Idealize.ShloMosaic.TcCoe Idealize.ShloMosaic.ValueIdx Idealize.SL.Sem Idealize.ShloMosaic.StableHlo
open Cert.DenseRows Cert.Sage

/-- A layer in the host's operations is, row by row, the graph layer of the operand rows. -/
theorem relu_pre9_eq (S X : FVec Ideal S100000x9 .f32) (dm : FVec Ideal S100000 .f32) (Wl : FVec Ideal S9x128 .f32)
    (b : FVec Ideal S128 .f32) (Wr : FVec Ideal S9x128 .f32) :
    relu128 (refPre9 S X dm Wl b Wr)
      = ofRows (fun p => sageRow (row S p) (row X p) (dm (ix1 p)) (mat Wl) (mat Wr) (vec b)) := by
  refine (eq_ofRows _).trans (congrArg ofRows (funext fun p => ?_))
  exact HostRows.row_sage_host dot_S100000x9_S9x128_S100000x128_1_0_0_1_n_n rfl (by decide) S X dm Wl Wr b _ _ _ _ _ p

/-- A layer in the host's operations is, row by row, the graph layer of the operand rows. -/
theorem relu_pre128_eq (S X : FVec Ideal S100000x128 .f32) (dm : FVec Ideal S100000 .f32) (Wl : FVec Ideal S128x128 .f32)
    (b : FVec Ideal S128 .f32) (Wr : FVec Ideal S128x128 .f32) :
    relu128 (refPre128 S X dm Wl b Wr)
      = ofRows (fun p => sageRow (row S p) (row X p) (dm (ix1 p)) (mat Wl) (mat Wr) (vec b)) := by
  refine (eq_ofRows _).trans (congrArg ofRows (funext fun p => ?_))
  exact HostRows.row_sage_host dot_S100000x128_S128x128_S100000x128_1_0_0_1_n_n rfl (by decide) S X dm Wl Wr b _ _ _ _ _ p

/-- The head in the host's operations is, row by row, the head of the row. -/
theorem refHead_eq (H : FVec Ideal S100000x128 .f32) (W1 : FVec Ideal S128x128 .f32) (b1 : FVec Ideal S128 .f32)
    (W2 : FVec Ideal S128x64 .f32) (b2 : FVec Ideal S64 .f32) (W3 : FVec Ideal S64x3 .f32) (b3 : FVec Ideal S3 .f32) :
    refLsm (aff3 (relu64 (aff2 (relu128 (aff1 H W1 b1)) W2 b2)) W3 b3) = Net.head H W1 b1 W2 b2 W3 b3 := by
  unfold Net.head
  refine (eq_ofRows _).trans (congrArg ofRows (funext fun p => ?_))
  unfold headRow
  refine (HostRows.row_lsm_host _ _ _ _ _ _ p).trans (congrArg lsmRow ?_)
  refine (DenseRows.row_dot_bias _ rfl (by decide : (3 : Nat) ≠ 1) none _ _ _ _ _ p).trans ?_
  refine congrArg (fun h => lin h (mat W3) (vec b3)) ?_
  refine (HostRows.row_affine_relu_host _ rfl (by decide : (64 : Nat) ≠ 1) _ _ _ _ _ _ p).trans ?_
  refine congrArg (fun h => relu (lin h (mat W2) (vec b2))) ?_
  exact HostRows.row_affine_relu_host _ rfl (by decide : (128 : Nat) ≠ 1) _ _ _ _ _ _ p

variable (m : (ℓ : Loc nD τ sig) → Buf (Elt Ideal) ℓ)

/-- The three layers' outputs over all nodes, from the launch memory. -/
def R1 (c : Dev nD) : FVec Ideal S100000x128 .f32 :=
  relu128 (refPre9 (ragg9 (m ((c.tc : Thread nD τ).loc main_arg0)) (rsrc (m ((c.tc : Thread nD τ).loc main_arg1))) (rtgt (m ((c.tc : Thread nD τ).loc main_arg1)))) (m ((c.tc : Thread nD τ).loc main_arg0)) (rdmax (rtgt (m ((c.tc : Thread nD τ).loc main_arg1)))) (m ((c.tc : Thread nD τ).loc main_arg2)) (m ((c.tc : Thread nD τ).loc main_arg3)) (m ((c.tc : Thread nD τ).loc main_arg4)))
def R2 (c : Dev nD) : FVec Ideal S100000x128 .f32 :=
  relu128 (refPre128 (ragg128 (R1 m c) (rsrc (m ((c.tc : Thread nD τ).loc main_arg1))) (rtgt (m ((c.tc : Thread nD τ).loc main_arg1)))) (R1 m c) (rdmax (rtgt (m ((c.tc : Thread nD τ).loc main_arg1)))) (m ((c.tc : Thread nD τ).loc main_arg5)) (m ((c.tc : Thread nD τ).loc main_arg6)) (m ((c.tc : Thread nD τ).loc main_arg7)))
def R3 (c : Dev nD) : FVec Ideal S100000x128 .f32 :=
  relu128 (refPre128 (ragg128 (R2 m c) (rsrc (m ((c.tc : Thread nD τ).loc main_arg1))) (rtgt (m ((c.tc : Thread nD τ).loc main_arg1)))) (R2 m c) (rdmax (rtgt (m ((c.tc : Thread nD τ).loc main_arg1)))) (m ((c.tc : Thread nD τ).loc main_arg8)) (m ((c.tc : Thread nD τ).loc main_arg9)) (m ((c.tc : Thread nD τ).loc main_arg10)))

/-- The reference's result over all nodes, from the launch memory. -/
def refOut (c : Dev nD) : FVec Ideal S100000x3 .f32 :=
  refLsm (aff3 (relu64 (aff2 (relu128 (aff1 (R3 m c) (m ((c.tc : Thread nD τ).loc main_arg11)) (m ((c.tc : Thread nD τ).loc main_arg12)))) (m ((c.tc : Thread nD τ).loc main_arg13)) (m ((c.tc : Thread nD τ).loc main_arg14)))) (m ((c.tc : Thread nD τ).loc main_arg15)) (m ((c.tc : Thread nD τ).loc main_arg16)))

/-- The fold of the reference's operations at the result buffer is that function of the launch memory. -/
theorem result_eq (c : Dev nD) :
    after (ops : List (HloOp τ sig (Elt Ideal))) (launchContents m c) (Proc.devRef .tc main_v96) = refOut m c := by
  rw [Pieces.after_ops]
  rw [E6_v96, E5_v7, E5_call5_v5, E4_v6, E4_call5_v5, E3_v5, E2_v2, E2_v95, E1_v0, E1_v95, D5_v95, D4_v91, D4_arg15, D4_arg16, D3_v90, D3_arg15, D3_arg16, D2_v86, D2_arg13, D2_arg14, D2_arg15, D2_arg16, D1_v85, D1_arg13, D1_arg14, D1_arg15, D1_arg16, C2_v81, C2_arg11, C2_arg12, C2_arg13, C2_arg14, C2_arg15, C2_arg16, C1_v80, C1_arg11, C1_arg12, C1_arg13, C1_arg14, C1_arg15, C1_arg16, B2_v55, B2_v1, B2_v3, B2_arg8, B2_arg9, B2_arg10, B2_arg11, B2_arg12, B2_arg13, B2_arg14, B2_arg15, B2_arg16, B1_v54, B1_v1, B1_v3, B1_arg8, B1_arg9, B1_arg10, B1_arg11, B1_arg12, B1_arg13, B1_arg14, B1_arg15, B1_arg16, A2_v29, A2_v1, A2_v3, A2_arg5, A2_arg6, A2_arg7, A2_arg8, A2_arg9, A2_arg10, A2_arg11, A2_arg12, A2_arg13, A2_arg14, A2_arg15, A2_arg16, A1_v28, A1_v1, A1_v3, A1_arg5, A1_arg6, A1_arg7, A1_arg8, A1_arg9, A1_arg10, A1_arg11, A1_arg12, A1_arg13, A1_arg14, A1_arg15, A1_arg16]
  rfl

/-- The reference's result is the network of the launch memory's arrays. -/
theorem refOut_eq_net (c : Dev nD) :
    refOut m c = Net.net (fun X => ragg9 X (rsrc (m ((c.tc : Thread nD τ).loc main_arg1))) (rtgt (m ((c.tc : Thread nD τ).loc main_arg1)))) (fun H => ragg128 H (rsrc (m ((c.tc : Thread nD τ).loc main_arg1))) (rtgt (m ((c.tc : Thread nD τ).loc main_arg1)))) (rdmax (rtgt (m ((c.tc : Thread nD τ).loc main_arg1))))
      (m ((c.tc : Thread nD τ).loc main_arg0)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)) (m ((c.tc : Thread nD τ).loc main_arg14))
      (m ((c.tc : Thread nD τ).loc main_arg15)) (m ((c.tc : Thread nD τ).loc main_arg16)) := by
  have h1 : R1 m c = Net.layer (fun X => ragg9 X (rsrc (m ((c.tc : Thread nD τ).loc main_arg1))) (rtgt (m ((c.tc : Thread nD τ).loc main_arg1)))) (rdmax (rtgt (m ((c.tc : Thread nD τ).loc main_arg1)))) (m ((c.tc : Thread nD τ).loc main_arg0)) (m ((c.tc : Thread nD τ).loc main_arg2)) (m ((c.tc : Thread nD τ).loc main_arg3)) (m ((c.tc : Thread nD τ).loc main_arg4)) :=
    relu_pre9_eq (ragg9 (m ((c.tc : Thread nD τ).loc main_arg0)) (rsrc (m ((c.tc : Thread nD τ).loc main_arg1))) (rtgt (m ((c.tc : Thread nD τ).loc main_arg1)))) (m ((c.tc : Thread nD τ).loc main_arg0)) (rdmax (rtgt (m ((c.tc : Thread nD τ).loc main_arg1)))) (m ((c.tc : Thread nD τ).loc main_arg2)) (m ((c.tc : Thread nD τ).loc main_arg3)) (m ((c.tc : Thread nD τ).loc main_arg4))
  have h2 : R2 m c = Net.layer (fun H => ragg128 H (rsrc (m ((c.tc : Thread nD τ).loc main_arg1))) (rtgt (m ((c.tc : Thread nD τ).loc main_arg1)))) (rdmax (rtgt (m ((c.tc : Thread nD τ).loc main_arg1)))) (R1 m c) (m ((c.tc : Thread nD τ).loc main_arg5)) (m ((c.tc : Thread nD τ).loc main_arg6)) (m ((c.tc : Thread nD τ).loc main_arg7)) :=
    relu_pre128_eq (ragg128 (R1 m c) (rsrc (m ((c.tc : Thread nD τ).loc main_arg1))) (rtgt (m ((c.tc : Thread nD τ).loc main_arg1)))) (R1 m c) (rdmax (rtgt (m ((c.tc : Thread nD τ).loc main_arg1)))) (m ((c.tc : Thread nD τ).loc main_arg5)) (m ((c.tc : Thread nD τ).loc main_arg6)) (m ((c.tc : Thread nD τ).loc main_arg7))
  have h3 : R3 m c = Net.layer (fun H => ragg128 H (rsrc (m ((c.tc : Thread nD τ).loc main_arg1))) (rtgt (m ((c.tc : Thread nD τ).loc main_arg1)))) (rdmax (rtgt (m ((c.tc : Thread nD τ).loc main_arg1)))) (R2 m c) (m ((c.tc : Thread nD τ).loc main_arg8)) (m ((c.tc : Thread nD τ).loc main_arg9)) (m ((c.tc : Thread nD τ).loc main_arg10)) :=
    relu_pre128_eq (ragg128 (R2 m c) (rsrc (m ((c.tc : Thread nD τ).loc main_arg1))) (rtgt (m ((c.tc : Thread nD τ).loc main_arg1)))) (R2 m c) (rdmax (rtgt (m ((c.tc : Thread nD τ).loc main_arg1)))) (m ((c.tc : Thread nD τ).loc main_arg8)) (m ((c.tc : Thread nD τ).loc main_arg9)) (m ((c.tc : Thread nD τ).loc main_arg10))
  have h4 : refOut m c = Net.head (R3 m c) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
    refHead_eq (R3 m c) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
  rw [h4, h3, h2, h1]
  unfold Net.net
  rfl

end Cert.ReferenceIdeal.Chain

end
-- ==== Proof.Main.lean ====
/-
  The five claims.

  Both idealized programs end with the network (LibSageNet.lean) of their argument arrays in the result buffer: the kernel
  region by region (KNet.lean), the reference piece by piece of its operation list (RNet.lean). The summed neighbour
  rows and the counts are the same gather and scatter in both (a change of float format around the gather is the
  identity on extended reals), so from memories agreeing on the arguments the two results are one array.
-/
import proofs.«163056_j1254130451160_2_alg».proof.Defs
import proofs.«163056_j1254130451160_2_alg».proof.Proof.Gen.Kernel.Frame
import proofs.«163056_j1254130451160_2_alg».proof.Proof.Gen.KernelIdeal.Frame
import proofs.«163056_j1254130451160_2_alg».proof.Proof.Gen.Pre_finite_inputs
import proofs.«163056_j1254130451160_2_alg».proof.Proof.KRun
import proofs.«163056_j1254130451160_2_alg».proof.Proof.KNet
import proofs.«163056_j1254130451160_2_alg».proof.Proof.RNet

noncomputable section

namespace Cert.Proof.Claims

open Idealize.ShloMosaic Idealize.ShloMosaic.TcCoe Idealize.SL.Sem

/-- The two programs' summed neighbour rows are one function: the kernel's change of float format before the gather
    and back after it is the identity on extended reals. -/
theorem agg9_eq (X : FVec Ideal Cert.KernelIdeal.S100000x9 .f32) (src tgt : (⟨Cert.KernelIdeal.S1600000, .i32⟩ : BufTy).Contents (Elt Ideal)) :
    Cert.KernelIdeal.Chain.kagg9 X src tgt = Cert.ReferenceIdeal.Chain.ragg9 X src tgt := by
  unfold Cert.KernelIdeal.Chain.kagg9 Cert.ReferenceIdeal.Chain.ragg9; rfl
theorem agg128_eq (H : FVec Ideal Cert.KernelIdeal.S100000x128 .f32) (src tgt : (⟨Cert.KernelIdeal.S1600000, .i32⟩ : BufTy).Contents (Elt Ideal)) :
    Cert.KernelIdeal.Chain.kagg128 H src tgt = Cert.ReferenceIdeal.Chain.ragg128 H src tgt := by
  unfold Cert.KernelIdeal.Chain.kagg128 Cert.ReferenceIdeal.Chain.ragg128; rfl
/-- The two programs' counts are one function. -/
theorem dmax_eq (tgt : (⟨Cert.KernelIdeal.S1600000, .i32⟩ : BufTy).Contents (Elt Ideal)) :
    Cert.KernelIdeal.Chain.kdmax tgt = Cert.ReferenceIdeal.Chain.rdmax tgt := by
  unfold Cert.KernelIdeal.Chain.kdmax Cert.ReferenceIdeal.Chain.rdmax; rfl
/-- The two programs cut the edge list alike. -/
theorem src_eq (e : (⟨Cert.KernelIdeal.S2x1600000, .i32⟩ : BufTy).Contents (Elt Ideal)) : Cert.KernelIdeal.Chain.ksrc e = Cert.ReferenceIdeal.Chain.rsrc e := by
  unfold Cert.KernelIdeal.Chain.ksrc Cert.ReferenceIdeal.Chain.rsrc; rfl
theorem tgt_eq (e : (⟨Cert.KernelIdeal.S2x1600000, .i32⟩ : BufTy).Contents (Elt Ideal)) : Cert.KernelIdeal.Chain.ktgt e = Cert.ReferenceIdeal.Chain.rtgt e := by
  unfold Cert.KernelIdeal.Chain.ktgt Cert.ReferenceIdeal.Chain.rtgt; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the network of the arguments in the
    result buffer. -/
theorem algebraic : Cert.algebraic_KernelIdeal_ReferenceIdeal := by
  intro m ρ m' ρ' _ hagree
  refine ⟨fun c => Cert.KernelIdeal.Chain.OUT m c, ?_, ?_⟩
  · exact (θ_run Cert.KernelIdeal.defs _ _).mono (fun r h c => ⟨(h c).1.trans (Cert.KernelIdeal.Chain.W6_v57 m ρ c), (h c).2⟩)
      (Cert.KernelIdeal.RunValue.run_value (F := Ideal) m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10, h11, h12, h13, h14, h15, h16⟩ := hagree c
    rw [Cert.ReferenceIdeal.Chain.result_eq, Cert.ReferenceIdeal.Chain.refOut_eq_net]
    refine Eq.trans ?_ (Cert.KernelIdeal.Chain.OUT_eq_net m c).symm
    rw [h0, h1, h2, h3, h4, h5, h6, h7, h8, h9, h10, h11, h12, h13, h14, h15, h16]
    simp only [← agg9_eq, ← agg128_eq, ← dmax_eq, ← src_eq, ← tgt_eq]

end Cert.Proof.Claims

end
-- ==== Proof.lean ====
/-
  The certificate of a three-layer graph network with mean aggregation, a three-layer head and a log-softmax:
  a kernel of three pipelined calls among gathers and scatter-adds, against its plain reference.

  Both idealized programs compute, node by node, the same function of the arguments over the extended reals (Proof/LibSageNet.lean):
  each layer is relu ((s / d) · Wl + b + x · Wr) with s the node's summed neighbour rows and d its count of incoming
  edges taken at least one; the kernel multiplies by 1 / d and adds the bias last, which is the same for d ≠ 0. The
  sums over neighbours are one gather and one scatter-add in both programs and are never opened. No finiteness of the
  inputs is used.
-/
import proofs.«163056_j1254130451160_2_alg».proof.Proof.Main
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
